-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v120) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x128 : Shape := ⟨2, ![200000, 128]⟩
abbrev S2x400000 : Shape := ⟨2, ![2, 400000]⟩
abbrev S200000 : Shape := ⟨1, ![200000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S200000x128 : S_.BroadcastsInDim S200000x128 (![] : Fin 0 → Fin S200000x128.rank)
  reducesTo_S200000x128_S_d0_1 : S200000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part7 {F : FTy → Type} [FloatOps F] (main_arg27 : FVec F S128x1 .f32) (main_arg28 : FVec F S1 .f32) (main_v118 : IVec S_ 1) (main_v119 : FVec F S128 .f32) : IVec S_ 1 :=
  let main_cst_46 : FVec F S_ .f32 := constant S_ .f32 0x7F800000#32
  let main_v120 : FVec F S128 .f32 := broadcastInDim S128 ![] bcast_S_S128 main_cst_46
  let main_v121 : IVec S128 1 := cmpf .olt main_v119 main_v120
  let main_c_47 : IVec S_ 1 := constantI S_ 1 1#1
  let main_v122 : IVec S_ 1 := (fun x v => Host.reduce IntOp.andi x v reducesTo_S128_S_d0 h_S_) main_v121 main_c_47
  let main_v123 : IVec S_ 1 := andi main_v118 main_v122
  let main_v124 : FVec F S128x1 .f32 := Host.absf main_arg27
  let main_cst_48 : FVec F S_ .f32 := constant S_ .f32 0x7F800000#32
  let main_v125 : FVec F S128x1 .f32 := broadcastInDim S128x1 ![] bcast_S_S128x1 main_cst_48
  let main_v126 : IVec S128x1 1 := cmpf .olt main_v124 main_v125
  let main_c_49 : IVec S_ 1 := constantI S_ 1 1#1
  let main_v127 : IVec S_ 1 := (fun x v => Host.reduce IntOp.andi x v reducesTo_S128x1_S_d0_1 h_S_) main_v126 main_c_49
  let main_v128 : IVec S_ 1 := andi main_v123 main_v127
  let main_v129 : FVec F S1 .f32 := Host.absf main_arg28
  let main_cst_50 : FVec F S_ .f32 := constant S_ .f32 0x7F800000#32
  let main_v130 : FVec F S1 .f32 := broadcastInDim S1 ![] bcast_S_S1 main_cst_50
  let main_v131 : IVec S1 1 := cmpf .olt main_v129 main_v130
  let main_c_51 : IVec S_ 1 := constantI S_ 1 1#1
  let main_v132 : IVec S_ 1 := (fun x v => Host.reduce IntOp.andi x v reducesTo_S1_S_d0 h_S_) main_v131 main_c_51
  let main_v133 : IVec S_ 1 := andi main_v128 main_v132
  main_v133

def fn_part6 {F : FTy → Type} [FloatOps F] (main_arg23 : FVec F S128 .f32) (main_arg24 : FVec F S128 .f32) (main_arg25 : FVec F S128x128 .f32) (main_arg26 : FVec F S128 .f32) (main_arg27 : FVec F S128x1 .f32) (main_arg28 : FVec F S1 .f32) (main_v98 : IVec S_ 1) (main_v101 : IVec S128 1) (main_c_39 : IVec S_ 1) : IVec S_ 1 :=
  let main_v102 : IVec S_ 1 := (fun x v => Host.reduce IntOp.andi x v reducesTo_S128_S_d0 h_S_) main_v101 main_c_39
  let main_v103 : IVec S_ 1 := andi main_v98 main_v102
  let main_v104 : FVec F S128 .f32 := Host.absf main_arg23
  let main_cst_40 : FVec F S_ .f32 := constant S_ .f32 0x7F800000#32
  let main_v105 : FVec F S128 .f32 := broadcastInDim S128 ![] bcast_S_S128 main_cst_40
  let main_v106 : IVec S128 1 := cmpf .olt main_v104 main_v105
  let main_c_41 : IVec S_ 1 := constantI S_ 1 1#1
  let main_v107 : IVec S_ 1 := (fun x v => Host.reduce IntOp.andi x v reducesTo_S128_S_d0 h_S_) main_v106 main_c_41
  let main_v108 : IVec S_ 1 := andi main_v103 main_v107
  let main_v109 : FVec F S128 .f32 := Host.absf main_arg24
  let main_cst_42 : FVec F S_ .f32 := constant S_ .f32 0x7F800000#32
  let main_v110 : FVec F S128 .f32 := broadcastInDim S128 ![] bcast_S_S128 main_cst_42
  let main_v111 : IVec S128 1 := cmpf .olt main_v109 main_v110
  let main_c_43 : IVec S_ 1 := constantI S_ 1 1#1
  let main_v112 : IVec S_ 1 := (fun x v => Host.reduce IntOp.andi x v reducesTo_S128_S_d0 h_S_) main_v111 main_c_43
  let main_v113 : IVec S_ 1 := andi main_v108 main_v112
  let main_v114 : FVec F S128x128 .f32 := Host.absf main_arg25
  let main_cst_44 : FVec F S_ .f32 := constant S_ .f32 0x7F800000#32
  let main_v115 : FVec F S128x128 .f32 := broadcastInDim S128x128 ![] bcast_S_S128x128 main_cst_44
  let main_v116 : IVec S128x128 1 := cmpf .olt main_v114 main_v115
  let main_c_45 : IVec S_ 1 := constantI S_ 1 1#1
  let main_v117 : IVec S_ 1 := (fun x v => Host.reduce IntOp.andi x v reducesTo_S128x128_S_d0_1 h_S_) main_v116 main_c_45
  let main_v118 : IVec S_ 1 := andi main_v113 main_v117
  let main_v119 : FVec F S128 .f32 := Host.absf main_arg26
  fn_part7 (F := F) main_arg27 main_arg28 main_v118 main_v119

def fn_part5 {F : FTy → Type} [FloatOps F] (main_arg20 : FVec F S128 .f32) (main_arg21 : FVec F S128 .f32) (main_arg22 : FVec F S128 .f32) (main_arg23 : FVec F S128 .f32) (main_arg24 : FVec F S128 .f32) (main_arg25 : FVec F S128x128 .f32) (main_arg26 : FVec F S128 .f32) (main_arg27 : FVec F S128x1 .f32) (main_arg28 : FVec F S1 .f32) (main_v83 : IVec S_ 1) (main_v84 : FVec F S128x128 .f32) (main_cst_32 : FVec F S_ .f32) : IVec S_ 1 :=
  let main_v85 : FVec F S128x128 .f32 := broadcastInDim S128x128 ![] bcast_S_S128x128 main_cst_32
  let main_v86 : IVec S128x128 1 := cmpf .olt main_v84 main_v85
  let main_c_33 : IVec S_ 1 := constantI S_ 1 1#1
  let main_v87 : IVec S_ 1 := (fun x v => Host.reduce IntOp.andi x v reducesTo_S128x128_S_d0_1 h_S_) main_v86 main_c_33
  let main_v88 : IVec S_ 1 := andi main_v83 main_v87
  let main_v89 : FVec F S128 .f32 := Host.absf main_arg20
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128 .f32 := Host.absf main_arg21
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_v99 : FVec F S128 .f32 := Host.absf main_arg22
  let main_cst_38 : FVec F S_ .f32 := constant S_ .f32 0x7F800000#32
  let main_v100 : FVec F S128 .f32 := broadcastInDim S128 ![] bcast_S_S128 main_cst_38
  let main_v101 : IVec S128 1 := cmpf .olt main_v99 main_v100
  let main_c_39 : IVec S_ 1 := constantI S_ 1 1#1
  fn_part6 (F := F) main_arg23 main_arg24 main_arg25 main_arg26 main_arg27 main_arg28 main_v98 main_v101 main_c_39

def fn_part4 {F : FTy → Type} [FloatOps F] (main_arg16 : FVec F S128 .f32) (main_arg17 : FVec F S128x128 .f32) (main_arg18 : FVec F S128 .f32) (main_arg19 : FVec F S128x128 .f32) (main_arg20 : FVec F S128 .f32) (main_arg21 : FVec F S128 .f32) (main_arg22 : FVec F S128 .f32) (main_arg23 : FVec F S128 .f32) (main_arg24 : FVec F S128 .f32) (main_arg25 : FVec F S128x128 .f32) (main_arg26 : FVec F S128 .f32) (main_arg27 : FVec F S128x1 .f32) (main_arg28 : FVec F S1 .f32) (main_v63 : IVec S_ 1) (main_v67 : IVec S_ 1) : IVec S_ 1 :=
  let main_v68 : IVec S_ 1 := andi main_v63 main_v67
  let main_v69 : FVec F S128 .f32 := Host.absf main_arg16
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x128 .f32 := Host.absf main_arg17
  let main_cst_28 : FVec F S_ .f32 := constant S_ .f32 0x7F800000#32
  let main_v75 : FVec F S128x128 .f32 := broadcastInDim S128x128 ![] bcast_S_S128x128 main_cst_28
  let main_v76 : IVec S128x128 1 := cmpf .olt main_v74 main_v75
  let main_c_29 : IVec S_ 1 := constantI S_ 1 1#1
  let main_v77 : IVec S_ 1 := (fun x v => Host.reduce IntOp.andi x v reducesTo_S128x128_S_d0_1 h_S_) main_v76 main_c_29
  let main_v78 : IVec S_ 1 := andi main_v73 main_v77
  let main_v79 : FVec F S128 .f32 := Host.absf main_arg18
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128x128 .f32 := Host.absf main_arg19
  let main_cst_32 : FVec F S_ .f32 := constant S_ .f32 0x7F800000#32
  fn_part5 (F := F) main_arg20 main_arg21 main_arg22 main_arg23 main_arg24 main_arg25 main_arg26 main_arg27 main_arg28 main_v83 main_v84 main_cst_32

def fn_part3 {F : FTy → Type} [FloatOps F] (main_arg13 : FVec F S128 .f32) (main_arg14 : FVec F S128 .f32) (main_arg15 : FVec F S128 .f32) (main_arg16 : FVec F S128 .f32) (main_arg17 : FVec F S128x128 .f32) (main_arg18 : FVec F S128 .f32) (main_arg19 : FVec F S128x128 .f32) (main_arg20 : FVec F S128 .f32) (main_arg21 : FVec F S128 .f32) (main_arg22 : FVec F S128 .f32) (main_arg23 : FVec F S128 .f32) (main_arg24 : FVec F S128 .f32) (main_arg25 : FVec F S128x128 .f32) (main_arg26 : FVec F S128 .f32) (main_arg27 : FVec F S128x1 .f32) (main_arg28 : FVec F S1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg16 main_arg17 main_arg18 main_arg19 main_arg20 main_arg21 main_arg22 main_arg23 main_arg24 main_arg25 main_arg26 main_arg27 main_arg28 main_v63 main_v67

def fn_part2 {F : FTy → Type} [FloatOps F] (main_arg9 : FVec F S128x128 .f32) (main_arg10 : FVec F S128 .f32) (main_arg11 : FVec F S128x128 .f32) (main_arg12 : FVec F S128 .f32) (main_arg13 : FVec F S128 .f32) (main_arg14 : FVec F S128 .f32) (main_arg15 : FVec F S128 .f32) (main_arg16 : FVec F S128 .f32) (main_arg17 : FVec F S128x128 .f32) (main_arg18 : FVec F S128 .f32) (main_arg19 : FVec F S128x128 .f32) (main_arg20 : FVec F S128 .f32) (main_arg21 : FVec F S128 .f32) (main_arg22 : FVec F S128 .f32) (main_arg23 : FVec F S128 .f32) (main_arg24 : FVec F S128 .f32) (main_arg25 : FVec F S128x128 .f32) (main_arg26 : FVec F S128 .f32) (main_arg27 : FVec F S128x1 .f32) (main_arg28 : FVec F S1 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_arg16 main_arg17 main_arg18 main_arg19 main_arg20 main_arg21 main_arg22 main_arg23 main_arg24 main_arg25 main_arg26 main_arg27 main_arg28 main_v48 main_v49 main_v50

def fn_part1 {F : FTy → Type} [FloatOps F] (main_arg6 : FVec F S128 .f32) (main_arg7 : FVec F S128 .f32) (main_arg8 : FVec F S128 .f32) (main_arg9 : FVec F S128x128 .f32) (main_arg10 : FVec F S128 .f32) (main_arg11 : FVec F S128x128 .f32) (main_arg12 : FVec F S128 .f32) (main_arg13 : FVec F S128 .f32) (main_arg14 : FVec F S128 .f32) (main_arg15 : FVec F S128 .f32) (main_arg16 : FVec F S128 .f32) (main_arg17 : FVec F S128x128 .f32) (main_arg18 : FVec F S128 .f32) (main_arg19 : FVec F S128x128 .f32) (main_arg20 : FVec F S128 .f32) (main_arg21 : FVec F S128 .f32) (main_arg22 : FVec F S128 .f32) (main_arg23 : FVec F S128 .f32) (main_arg24 : FVec F S128 .f32) (main_arg25 : FVec F S128x128 .f32) (main_arg26 : FVec F S128 .f32) (main_arg27 : FVec F S128x1 .f32) (main_arg28 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_arg24 main_arg25 main_arg26 main_arg27 main_arg28 main_v33

def fn {F : FTy → Type} [FloatOps F] (main_arg0 : FVec F S200000x128 .f32) (main_arg1 : IVec S2x400000 32) (main_arg2 : IVec S200000 32) (main_arg3 : FVec F S128x128 .f32) (main_arg4 : FVec F S128 .f32) (main_arg5 : FVec F S128 .f32) (main_arg6 : FVec F S128 .f32) (main_arg7 : FVec F S128 .f32) (main_arg8 : FVec F S128 .f32) (main_arg9 : FVec F S128x128 .f32) (main_arg10 : FVec F S128 .f32) (main_arg11 : FVec F S128x128 .f32) (main_arg12 : FVec F S128 .f32) (main_arg13 : FVec F S128 .f32) (main_arg14 : FVec F S128 .f32) (main_arg15 : FVec F S128 .f32) (main_arg16 : FVec F S128 .f32) (main_arg17 : FVec F S128x128 .f32) (main_arg18 : FVec F S128 .f32) (main_arg19 : FVec F S128x128 .f32) (main_arg20 : FVec F S128 .f32) (main_arg21 : FVec F S128 .f32) (main_arg22 : FVec F S128 .f32) (main_arg23 : FVec F S128 .f32) (main_arg24 : FVec F S128 .f32) (main_arg25 : FVec F S128x128 .f32) (main_arg26 : FVec F S128 .f32) (main_arg27 : FVec F S128x1 .f32) (main_arg28 : FVec F S1 .f32) : IVec S_ 1 :=
  let main_v0 : FVec F S200000x128 .f32 := Host.absf main_arg0
  let main_cst : FVec F S_ .f32 := constant S_ .f32 0x7F800000#32
  let main_v1 : FVec F S200000x128 .f32 := broadcastInDim S200000x128 ![] bcast_S_S200000x128 main_cst
  let main_v2 : IVec S200000x128 1 := cmpf .olt main_v0 main_v1
  let main_c : IVec S_ 1 := constantI S_ 1 1#1
  let main_v3 : IVec S_ 1 := (fun x v => Host.reduce IntOp.andi x v reducesTo_S200000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_v13 main_v16
-- ==== Kernel.lean ====
abbrev S200000x128 : Shape := ⟨2, ![200000, 128]⟩
abbrev S2x400000 : Shape := ⟨2, ![2, 400000]⟩
abbrev S200000 : Shape := ⟨1, ![200000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x400000 : Shape := ⟨2, ![1, 400000]⟩
abbrev S400000 : Shape := ⟨1, ![400000]⟩
abbrev S_ : Shape := ⟨0, ![]⟩
abbrev S400000x1 : Shape := ⟨2, ![400000, 1]⟩
abbrev S400000x128 : Shape := ⟨2, ![400000, 128]⟩
abbrev S1x128 : Shape := ⟨2, ![1, 128]⟩
abbrev S5000x128 : Shape := ⟨2, ![5000, 128]⟩
abbrev S8192x128 : Shape := ⟨2, ![8192, 128]⟩
abbrev S200000x1 : Shape := ⟨2, ![200000, 1]⟩
abbrev S8192x1 : Shape := ⟨2, ![8192, 1]⟩
abbrev S1x1 : Shape := ⟨2, ![1, 1]⟩

abbrev nBuf : Space → Nat
  | .hbm => 101
  | .vmem => 42
  | .smem => 0
  | _ => 0

abbrev bufTy : (tb : Table) → Fin (tcTables nBuf tb) → BufTy
  | .hbm, ⟨0, _⟩ => ⟨S200000x128, .f32⟩
  | .hbm, ⟨1, _⟩ => ⟨S2x400000, .i32⟩
  | .hbm, ⟨2, _⟩ => ⟨S200000, .i32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S128, .f32⟩
  | .hbm, ⟨17, _⟩ => ⟨S128x128, .f32⟩
  | .hbm, ⟨18, _⟩ => ⟨S128, .f32⟩
  | .hbm, ⟨19, _⟩ => ⟨S128x128, .f32⟩
  | .hbm, ⟨20, _⟩ => ⟨S128, .f32⟩
  | .hbm, ⟨21, _⟩ => ⟨S128, .f32⟩
  | .hbm, ⟨22, _⟩ => ⟨S128, .f32⟩
  | .hbm, ⟨23, _⟩ => ⟨S128, .f32⟩
  | .hbm, ⟨24, _⟩ => ⟨S128, .f32⟩
  | .hbm, ⟨25, _⟩ => ⟨S128x128, .f32⟩
  | .hbm, ⟨26, _⟩ => ⟨S128, .f32⟩
  | .hbm, ⟨27, _⟩ => ⟨S128x1, .f32⟩
  | .hbm, ⟨28, _⟩ => ⟨S1, .f32⟩
  | .hbm, ⟨29, _⟩ => ⟨S1x400000, .i32⟩
  | .hbm, ⟨30, _⟩ => ⟨S400000, .i32⟩
  | .hbm, ⟨31, _⟩ => ⟨S1x400000, .i32⟩
  | .hbm, ⟨32, _⟩ => ⟨S400000, .i32⟩
  | .hbm, ⟨33, _⟩ => ⟨S_, .i32⟩
  | .hbm, ⟨34, _⟩ => ⟨S400000, .i32⟩
  | .hbm, ⟨35, _⟩ => ⟨S400000, .i1⟩
  | .hbm, ⟨36, _⟩ => ⟨S_, .i32⟩
  | .hbm, ⟨37, _⟩ => ⟨S400000, .i32⟩
  | .hbm, ⟨38, _⟩ => ⟨S400000, .i32⟩
  | .hbm, ⟨39, _⟩ => ⟨S400000, .i32⟩
  | .hbm, ⟨40, _⟩ => ⟨S400000x1, .i32⟩
  | .hbm, ⟨41, _⟩ => ⟨S400000x128, .f32⟩
  | .hbm, ⟨42, _⟩ => ⟨S_, .f32⟩
  | .hbm, ⟨43, _⟩ => ⟨S200000x128, .f32⟩
  | .hbm, ⟨44, _⟩ => ⟨S400000x1, .i32⟩
  | .hbm, ⟨45, _⟩ => ⟨S200000x128, .f32⟩
  | .hbm, ⟨46, _⟩ => ⟨S1x128, .f32⟩
  | .hbm, ⟨47, _⟩ => ⟨S1x128, .f32⟩
  | .hbm, ⟨48, _⟩ => ⟨S1x128, .f32⟩
  | .hbm, ⟨49, _⟩ => ⟨S1x128, .f32⟩
  | .hbm, ⟨50, _⟩ => ⟨S1x128, .f32⟩
  | .hbm, ⟨51, _⟩ => ⟨S1x128, .f32⟩
  | .hbm, ⟨52, _⟩ => ⟨S200000x128, .f32⟩
  | .hbm, ⟨53, _⟩ => ⟨S_, .i32⟩
  | .hbm, ⟨54, _⟩ => ⟨S400000, .i32⟩
  | .hbm, ⟨55, _⟩ => ⟨S400000, .i1⟩
  | .hbm, ⟨56, _⟩ => ⟨S_, .i32⟩
  | .hbm, ⟨57, _⟩ => ⟨S400000, .i32⟩
  | .hbm, ⟨58, _⟩ => ⟨S400000, .i32⟩
  | .hbm, ⟨59, _⟩ => ⟨S400000, .i32⟩
  | .hbm, ⟨60, _⟩ => ⟨S400000x1, .i32⟩
  | .hbm, ⟨61, _⟩ => ⟨S400000x128, .f32⟩
  | .hbm, ⟨62, _⟩ => ⟨S_, .f32⟩
  | .hbm, ⟨63, _⟩ => ⟨S200000x128, .f32⟩
  | .hbm, ⟨64, _⟩ => ⟨S400000x1, .i32⟩
  | .hbm, ⟨65, _⟩ => ⟨S200000x128, .f32⟩
  | .hbm, ⟨66, _⟩ => ⟨S1x128, .f32⟩
  | .hbm, ⟨67, _⟩ => ⟨S1x128, .f32⟩
  | .hbm, ⟨68, _⟩ => ⟨S1x128, .f32⟩
  | .hbm, ⟨69, _⟩ => ⟨S1x128, .f32⟩
  | .hbm, ⟨70, _⟩ => ⟨S1x128, .f32⟩
  | .hbm, ⟨71, _⟩ => ⟨S1x128, .f32⟩
  | .hbm, ⟨72, _⟩ => ⟨S200000x128, .f32⟩
  | .hbm, ⟨73, _⟩ => ⟨S_, .i32⟩
  | .hbm, ⟨74, _⟩ => ⟨S400000, .i32⟩
  | .hbm, ⟨75, _⟩ => ⟨S400000, .i1⟩
  | .hbm, ⟨76, _⟩ => ⟨S_, .i32⟩
  | .hbm, ⟨77, _⟩ => ⟨S400000, .i32⟩
  | .hbm, ⟨78, _⟩ => ⟨S400000, .i32⟩
  | .hbm, ⟨79, _⟩ => ⟨S400000, .i32⟩
  | .hbm, ⟨80, _⟩ => ⟨S400000x1, .i32⟩
  | .hbm, ⟨81, _⟩ => ⟨S400000x128, .f32⟩
  | .hbm, ⟨82, _⟩ => ⟨S_, .f32⟩
  | .hbm, ⟨83, _⟩ => ⟨S200000x128, .f32⟩
  | .hbm, ⟨84, _⟩ => ⟨S400000x1, .i32⟩
  | .hbm, ⟨85, _⟩ => ⟨S200000x128, .f32⟩
  | .hbm, ⟨86, _⟩ => ⟨S1x128, .f32⟩
  | .hbm, ⟨87, _⟩ => ⟨S1x128, .f32⟩
  | .hbm, ⟨88, _⟩ => ⟨S1x128, .f32⟩
  | .hbm, ⟨89, _⟩ => ⟨S1x128, .f32⟩
  | .hbm, ⟨90, _⟩ => ⟨S1x128, .f32⟩
  | .hbm, ⟨91, _⟩ => ⟨S1x128, .f32⟩
  | .hbm, ⟨92, _⟩ => ⟨S200000x128, .f32⟩
  | .hbm, ⟨93, _⟩ => ⟨S_, .f32⟩
  | .hbm, ⟨94, _⟩ => ⟨S8192x128, .f32⟩
  | .hbm, ⟨95, _⟩ => ⟨S200000x1, .i32⟩
  | .hbm, ⟨96, _⟩ => ⟨S8192x128, .f32⟩
  | .hbm, ⟨97, _⟩ => ⟨S8192x1, .f32⟩
  | .hbm, ⟨98, _⟩ => ⟨S1x1, .f32⟩
  | .hbm, ⟨99, _⟩ => ⟨S8192x1, .f32⟩
  | .hbm, ⟨100, _⟩ => ⟨S8192x1, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S128x128, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S128x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S128x128, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S128x128, .f32⟩
  | .local _ .vmem, ⟨33, _⟩ => ⟨S1x128, .f32⟩
  | .local _ .vmem, ⟨34, _⟩ => ⟨S1x128, .f32⟩
  | .local _ .vmem, ⟨35, _⟩ => ⟨S1x128, .f32⟩
  | .local _ .vmem, ⟨36, _⟩ => ⟨S1x128, .f32⟩
  | .local _ .vmem, ⟨37, _⟩ => ⟨S1x128, .f32⟩
  | .local _ .vmem, ⟨38, _⟩ => ⟨S128x128, .f32⟩
  | .local _ .vmem, ⟨39, _⟩ => ⟨S1x128, .f32⟩
  | .local _ .vmem, ⟨40, _⟩ => ⟨S5000x128, .f32⟩
  | .local _ .vmem, ⟨41, _⟩ => ⟨S5000x128, .f32⟩
  | _, _ => ⟨S200000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_v0 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_c : Ref sig .tc := ⟨.hbm, 33, rfl⟩
abbrev main_v4 : Ref sig .tc := ⟨.hbm, 34, rfl⟩
abbrev main_v5 : Ref sig .tc := ⟨.hbm, 35, rfl⟩
abbrev main_c_0 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_cst : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_c_1 : Ref sig .tc := ⟨.hbm, 53, rfl⟩
abbrev main_v21 : Ref sig .tc := ⟨.hbm, 54, rfl⟩
abbrev main_v22 : Ref sig .tc := ⟨.hbm, 55, rfl⟩
abbrev main_c_2 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_cst_3 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_c_4 : Ref sig .tc := ⟨.hbm, 73, rfl⟩
abbrev main_v38 : Ref sig .tc := ⟨.hbm, 74, rfl⟩
abbrev main_v39 : Ref sig .tc := ⟨.hbm, 75, rfl⟩
abbrev main_c_5 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_cst_6 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_cst_7 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg9_0 : Ref sig .tc := ⟨.vmem, 25, rfl⟩
abbrev cc1_stg10_0 : Ref sig .tc := ⟨.vmem, 26, rfl⟩
abbrev cc1_stg10_1 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg1_1 : Ref sig .tc := ⟨.vmem, 31, rfl⟩
abbrev cc2_stg2_0 : Ref sig .tc := ⟨.vmem, 32, rfl⟩
abbrev cc2_stg3_0 : Ref sig .tc := ⟨.vmem, 33, rfl⟩
abbrev cc2_stg4_0 : Ref sig .tc := ⟨.vmem, 34, rfl⟩
abbrev cc2_stg5_0 : Ref sig .tc := ⟨.vmem, 35, rfl⟩
abbrev cc2_stg6_0 : Ref sig .tc := ⟨.vmem, 36, rfl⟩
abbrev cc2_stg7_0 : Ref sig .tc := ⟨.vmem, 37, rfl⟩
abbrev cc2_stg8_0 : Ref sig .tc := ⟨.vmem, 38, rfl⟩
abbrev cc2_stg9_0 : Ref sig .tc := ⟨.vmem, 39, rfl⟩
abbrev cc2_stg10_0 : Ref sig .tc := ⟨.vmem, 40, rfl⟩
abbrev cc2_stg10_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem8_0 : DmaSem sig := 24
abbrev cc1_sem9_0 : DmaSem sig := 25
abbrev cc1_sem10_0 : DmaSem sig := 26
abbrev cc1_sem10_1 : DmaSem sig := 27
abbrev cc2_sem0_0 : DmaSem sig := 28
abbrev cc2_sem0_1 : DmaSem sig := 29
abbrev cc2_sem1_0 : DmaSem sig := 30
abbrev cc2_sem1_1 : DmaSem sig := 31
abbrev cc2_sem2_0 : DmaSem sig := 32
abbrev cc2_sem3_0 : DmaSem sig := 33
abbrev cc2_sem4_0 : DmaSem sig := 34
abbrev cc2_sem5_0 : DmaSem sig := 35
abbrev cc2_sem6_0 : DmaSem sig := 36
abbrev cc2_sem7_0 : DmaSem sig := 37
abbrev cc2_sem8_0 : DmaSem sig := 38
abbrev cc2_sem9_0 : DmaSem sig := 39
abbrev cc2_sem10_0 : DmaSem sig := 40
abbrev cc2_sem10_1 : DmaSem sig := 41

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S5000x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![40], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S5000x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev grid2 : Pipeline.Grid := ⟨1, ![40], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S128x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 2 → Memref sig .tc .vmem S5000x128 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S400000_S400000x1_0 : S400000.BroadcastsInDim S400000x1 (![0] : Fin 1 → Fin S400000x1.rank)
  bcast_S_S200000x128 : S_.BroadcastsInDim S200000x128 (![] : Fin 0 → Fin S200000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S8192x128 : S_.BroadcastsInDim S8192x128 (![] : Fin 0 → Fin S8192x128.rank)
  bcast_S200000_S200000x1_0 : S200000.BroadcastsInDim S200000x1 (![0] : Fin 1 → Fin S200000x1.rank)
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  gather_S200000x128_S400000x1_S400000x128_1_0_n_n_0_1_1128_wf : GatherDims.WF S200000x128 S400000x1 S400000x128 [1] [0] [] [0] [] 1 ![1, 128]
  scatter_S200000x128_S400000x1_S400000x128_1_0_0_1_wf : ScatterDims.WF S200000x128 S400000x1 S400000x128 [1] [0] [0] 1
  dot_S5000x128_S128x128_S5000x128_1_0_0_1_n_n_wf : DotDims.WF S5000x128 S128x128 S5000x128 [1] [0] [0] [1] [] []
  scatter_S8192x128_S200000x1_S200000x128_1_0_0_1_wf : ScatterDims.WF S8192x128 S200000x1 S200000x128 [1] [0] [0] 1
  dot_S8192x128_S128x1_S8192x1_1_0_0_1_n_n_wf : DotDims.WF S8192x128 S128x1 S8192x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S200000x128.size a
  hwx0_0 : ∀ i : grid0.Coords, EltTy.bits .f32 = 32 ∨ (Rect.block (s := S200000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S200000x128.size a
  hwx0_1 : ∀ i : grid0.Coords, EltTy.bits .f32 = 32 ∨ (Rect.block (s := S200000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .f32 = 32 ∨ (Rect.block (s := S128x128) S128x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S5000x128.size a ≤ S200000x128.size a
  hwx0_10 : ∀ i : grid0.Coords, EltTy.bits .f32 = 32 ∨ (Rect.block (s := S200000x128) S5000x128.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S200000x128.size a
  hwx1_0 : ∀ i : grid1.Coords, EltTy.bits .f32 = 32 ∨ (Rect.block (s := S200000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S200000x128.size a
  hwx1_1 : ∀ i : grid1.Coords, EltTy.bits .f32 = 32 ∨ (Rect.block (s := S200000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128x128.size a ≤ S128x128.size a
  hwx1_8 : ∀ i : grid1.Coords, EltTy.bits .f32 = 32 ∨ (Rect.block (s := S128x128) S128x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x128.size a ≤ S1x128.size a
  hwx1_9 : ∀ i : grid1.Coords, EltTy.bits .f32 = 32 ∨ (Rect.block (s := S1x128) S1x128.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S5000x128.size a ≤ S200000x128.size a
  hwx1_10 : ∀ i : grid1.Coords, EltTy.bits .f32 = 32 ∨ (Rect.block (s := S200000x128) S5000x128.size (cc1_transform_10 i) (hinb1_10 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S200000x128.size a
  hwx2_0 : ∀ i : grid2.Coords, EltTy.bits .f32 = 32 ∨ (Rect.block (s := S200000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S200000x128.size a
  hwx2_1 : ∀ i : grid2.Coords, EltTy.bits .f32 = 32 ∨ (Rect.block (s := S200000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S128x128.size a ≤ S128x128.size a
  hwx2_8 : ∀ i : grid2.Coords, EltTy.bits .f32 = 32 ∨ (Rect.block (s := S128x128) S128x128.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x128.size a ≤ S1x128.size a
  hwx2_9 : ∀ i : grid2.Coords, EltTy.bits .f32 = 32 ∨ (Rect.block (s := S1x128) S1x128.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S5000x128.size a ≤ S200000x128.size a
  hwx2_10 : ∀ i : grid2.Coords, EltTy.bits .f32 = 32 ∨ (Rect.block (s := S200000x128) S5000x128.size (cc2_transform_10 i) (hinb2_10 i)).WholeWords (EltTy.packing .f32)

variable [Facts₀]

def gather_S200000x128_S400000x1_S400000x128_1_0_n_n_0_1_1128 : GatherDims S200000x128 S400000x1 S400000x128 where
  offsetDims := [1]
  collapsedSliceDims := [0]
  operandBatchingDims := []
  startIndicesBatchingDims := []
  startIndexMap := [0]
  indexVectorDim := 1
  sliceSizes := ![1, 128]
  wf := gather_S200000x128_S400000x1_S400000x128_1_0_n_n_0_1_1128_wf
def scatter_S200000x128_S400000x1_S400000x128_1_0_0_1 : ScatterDims S200000x128 S400000x1 S400000x128 where
  updateWindowDims := [1]
  insertedWindowDims := [0]
  scatterDimsToOperandDims := [0]
  indexVectorDim := 1
  wf := scatter_S200000x128_S400000x1_S400000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S8192x128_S200000x1_S200000x128_1_0_0_1 : ScatterDims S8192x128 S200000x1 S200000x128 where
  updateWindowDims := [1]
  insertedWindowDims := [0]
  scatterDimsToOperandDims := [0]
  indexVectorDim := 1
  wf := scatter_S8192x128_S200000x1_S200000x128_1_0_0_1_wf
def dot_S8192x128_S128x1_S8192x1_1_0_0_1_n_n : DotDims S8192x128 S128x1 S8192x1 where
  lhsContracting := [1]
  rhsContracting := [0]
  lhsNonContracting := [0]
  rhsNonContracting := [1]
  lhsBatch := []
  rhsBatch := []
  wf := dot_S8192x128_S128x1_S8192x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v17) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v18) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v19) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v20) S5000x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v20) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg11) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v31) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v32) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v33) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v34) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v35) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg17) S128x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v36) S1x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v37) S5000x128.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev win2_0 : Pipeline.Window sig grid2 :=
  Pipeline.Window.ofSpec (Memref.whole main_v37) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v47) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg19) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v48) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v49) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v50) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v51) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v52) S1x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg25) S128x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v53) S1x128.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v54) S5000x128.size cc2_transform_10 reads2_10 true false 2 stage2_10 sem2_10
    hrank2 hreads2_10 hinb2_10 nbuf2_10 (Memref.isWhole_whole _) hwx2_10 hstage2_10

abbrev win2 : Fin 11 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | ⟨_ + 11, h⟩ => absurd h (Nat.not_lt.2 (Nat.le_add_left _ _))
abbrev spec2 : Fin 11 → Pipeline.WinSpec sig grid2.rank := fun w => (win2 w).toWinSpec

class Facts : Prop extends Facts₀ where

variable [Facts]
-- ==== ReferenceIdeal.lean ====
abbrev S200000x128 : Shape := ⟨2, ![200000, 128]⟩
abbrev S2x400000 : Shape := ⟨2, ![2, 400000]⟩
abbrev S200000 : Shape := ⟨1, ![200000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x400000 : Shape := ⟨2, ![1, 400000]⟩
abbrev S400000 : Shape := ⟨1, ![400000]⟩
abbrev S_ : Shape := ⟨0, ![]⟩
abbrev S400000x1 : Shape := ⟨2, ![400000, 1]⟩
abbrev S400000x128 : Shape := ⟨2, ![400000, 128]⟩
abbrev S1x128 : Shape := ⟨2, ![1, 128]⟩
abbrev S8192x128 : Shape := ⟨2, ![8192, 128]⟩
abbrev S200000x1 : Shape := ⟨2, ![200000, 1]⟩
abbrev S8192x1 : Shape := ⟨2, ![8192, 1]⟩
abbrev S1x1 : Shape := ⟨2, ![1, 1]⟩

abbrev nBuf : Space → Nat
  | .hbm => 179
  | .vmem => 0
  | .smem => 0
  | _ => 0

abbrev hbmTy0_0 (i : Nat) : BufTy := match i % 128 with
  | 0 => ⟨S200000x128, .f32⟩
  | 1 => ⟨S2x400000, .i32⟩
  | 2 => ⟨S200000, .i32⟩
  | 3 => ⟨S128x128, .f32⟩
  | 4 => ⟨S128, .f32⟩
  | 5 => ⟨S128, .f32⟩
  | 6 => ⟨S128, .f32⟩
  | 7 => ⟨S128, .f32⟩
  | 8 => ⟨S128, .f32⟩
  | 9 => ⟨S128x128, .f32⟩
  | 10 => ⟨S128, .f32⟩
  | 11 => ⟨S128x128, .f32⟩
  | 12 => ⟨S128, .f32⟩
  | 13 => ⟨S128, .f32⟩
  | 14 => ⟨S128, .f32⟩
  | 15 => ⟨S128, .f32⟩
  | 16 => ⟨S128, .f32⟩
  | 17 => ⟨S128x128, .f32⟩
  | 18 => ⟨S128, .f32⟩
  | 19 => ⟨S128x128, .f32⟩
  | 20 => ⟨S128, .f32⟩
  | 21 => ⟨S128, .f32⟩
  | 22 => ⟨S128, .f32⟩
  | 23 => ⟨S128, .f32⟩
  | 24 => ⟨S128, .f32⟩
  | 25 => ⟨S128x128, .f32⟩
  | 26 => ⟨S128, .f32⟩
  | 27 => ⟨S128x1, .f32⟩
  | 28 => ⟨S1, .f32⟩
  | 29 => ⟨S1x400000, .i32⟩
  | 30 => ⟨S400000, .i32⟩
  | 31 => ⟨S1x400000, .i32⟩
  | 32 => ⟨S400000, .i32⟩
  | 33 => ⟨S_, .i32⟩
  | 34 => ⟨S400000, .i32⟩
  | 35 => ⟨S400000, .i1⟩
  | 36 => ⟨S_, .i32⟩
  | 37 => ⟨S400000, .i32⟩
  | 38 => ⟨S400000, .i32⟩
  | 39 => ⟨S400000, .i32⟩
  | 40 => ⟨S400000x1, .i32⟩
  | 41 => ⟨S400000x128, .f32⟩
  | 42 => ⟨S_, .f32⟩
  | 43 => ⟨S200000x128, .f32⟩
  | 44 => ⟨S400000x1, .i32⟩
  | 45 => ⟨S200000x128, .f32⟩
  | 46 => ⟨S200000x128, .f32⟩
  | 47 => ⟨S200000x128, .f32⟩
  | 48 => ⟨S1x128, .f32⟩
  | 49 => ⟨S200000x128, .f32⟩
  | 50 => ⟨S200000x128, .f32⟩
  | 51 => ⟨S1x128, .f32⟩
  | 52 => ⟨S200000x128, .f32⟩
  | 53 => ⟨S200000x128, .f32⟩
  | 54 => ⟨S_, .f32⟩
  | 55 => ⟨S128, .f32⟩
  | 56 => ⟨S128, .f32⟩
  | 57 => ⟨S128, .f32⟩
  | 58 => ⟨S1x128, .f32⟩
  | 59 => ⟨S200000x128, .f32⟩
  | 60 => ⟨S200000x128, .f32⟩
  | 61 => ⟨S1x128, .f32⟩
  | 62 => ⟨S200000x128, .f32⟩
  | 63 => ⟨S200000x128, .f32⟩
  | 64 => ⟨S1x128, .f32⟩
  | 65 => ⟨S200000x128, .f32⟩
  | 66 => ⟨S200000x128, .f32⟩
  | 67 => ⟨S_, .f32⟩
  | 68 => ⟨S200000x128, .f32⟩
  | 69 => ⟨S200000x128, .f32⟩
  | 70 => ⟨S200000x128, .f32⟩
  | 71 => ⟨S1x128, .f32⟩
  | 72 => ⟨S200000x128, .f32⟩
  | 73 => ⟨S200000x128, .f32⟩
  | 74 => ⟨S_, .f32⟩
  | 75 => ⟨S200000x128, .f32⟩
  | 76 => ⟨S200000x128, .f32⟩
  | 77 => ⟨S_, .f32⟩
  | 78 => ⟨S200000x128, .f32⟩
  | 79 => ⟨S200000x128, .f32⟩
  | 80 => ⟨S_, .i32⟩
  | 81 => ⟨S400000, .i32⟩
  | 82 => ⟨S400000, .i1⟩
  | 83 => ⟨S_, .i32⟩
  | 84 => ⟨S400000, .i32⟩
  | 85 => ⟨S400000, .i32⟩
  | 86 => ⟨S400000, .i32⟩
  | 87 => ⟨S400000x1, .i32⟩
  | 88 => ⟨S400000x128, .f32⟩
  | 89 => ⟨S_, .f32⟩
  | 90 => ⟨S200000x128, .f32⟩
  | 91 => ⟨S400000x1, .i32⟩
  | 92 => ⟨S200000x128, .f32⟩
  | 93 => ⟨S200000x128, .f32⟩
  | 94 => ⟨S200000x128, .f32⟩
  | 95 => ⟨S1x128, .f32⟩
  | 96 => ⟨S200000x128, .f32⟩
  | 97 => ⟨S200000x128, .f32⟩
  | 98 => ⟨S1x128, .f32⟩
  | 99 => ⟨S200000x128, .f32⟩
  | 100 => ⟨S200000x128, .f32⟩
  | 101 => ⟨S_, .f32⟩
  | 102 => ⟨S128, .f32⟩
  | 103 => ⟨S128, .f32⟩
  | 104 => ⟨S128, .f32⟩
  | 105 => ⟨S1x128, .f32⟩
  | 106 => ⟨S200000x128, .f32⟩
  | 107 => ⟨S200000x128, .f32⟩
  | 108 => ⟨S1x128, .f32⟩
  | 109 => ⟨S200000x128, .f32⟩
  | 110 => ⟨S200000x128, .f32⟩
  | 111 => ⟨S1x128, .f32⟩
  | 112 => ⟨S200000x128, .f32⟩
  | 113 => ⟨S200000x128, .f32⟩
  | 114 => ⟨S_, .f32⟩
  | 115 => ⟨S200000x128, .f32⟩
  | 116 => ⟨S200000x128, .f32⟩
  | 117 => ⟨S200000x128, .f32⟩
  | 118 => ⟨S1x128, .f32⟩
  | 119 => ⟨S200000x128, .f32⟩
  | 120 => ⟨S200000x128, .f32⟩
  | 121 => ⟨S_, .f32⟩
  | 122 => ⟨S200000x128, .f32⟩
  | 123 => ⟨S200000x128, .f32⟩
  | 124 => ⟨S_, .f32⟩
  | 125 => ⟨S200000x128, .f32⟩
  | 126 => ⟨S200000x128, .f32⟩
  | 127 => ⟨S_, .i32⟩
  | _ => ⟨S200000x128, .f32⟩

abbrev hbmTy0_1 (i : Nat) : BufTy := match i % 128 with
  | 0 => ⟨S400000, .i32⟩
  | 1 => ⟨S400000, .i1⟩
  | 2 => ⟨S_, .i32⟩
  | 3 => ⟨S400000, .i32⟩
  | 4 => ⟨S400000, .i32⟩
  | 5 => ⟨S400000, .i32⟩
  | 6 => ⟨S400000x1, .i32⟩
  | 7 => ⟨S400000x128, .f32⟩
  | 8 => ⟨S_, .f32⟩
  | 9 => ⟨S200000x128, .f32⟩
  | 10 => ⟨S400000x1, .i32⟩
  | 11 => ⟨S200000x128, .f32⟩
  | 12 => ⟨S200000x128, .f32⟩
  | 13 => ⟨S200000x128, .f32⟩
  | 14 => ⟨S1x128, .f32⟩
  | 15 => ⟨S200000x128, .f32⟩
  | 16 => ⟨S200000x128, .f32⟩
  | 17 => ⟨S1x128, .f32⟩
  | 18 => ⟨S200000x128, .f32⟩
  | 19 => ⟨S200000x128, .f32⟩
  | 20 => ⟨S_, .f32⟩
  | 21 => ⟨S128, .f32⟩
  | 22 => ⟨S128, .f32⟩
  | 23 => ⟨S128, .f32⟩
  | 24 => ⟨S1x128, .f32⟩
  | 25 => ⟨S200000x128, .f32⟩
  | 26 => ⟨S200000x128, .f32⟩
  | 27 => ⟨S1x128, .f32⟩
  | 28 => ⟨S200000x128, .f32⟩
  | 29 => ⟨S200000x128, .f32⟩
  | 30 => ⟨S1x128, .f32⟩
  | 31 => ⟨S200000x128, .f32⟩
  | 32 => ⟨S200000x128, .f32⟩
  | 33 => ⟨S_, .f32⟩
  | 34 => ⟨S200000x128, .f32⟩
  | 35 => ⟨S200000x128, .f32⟩
  | 36 => ⟨S200000x128, .f32⟩
  | 37 => ⟨S1x128, .f32⟩
  | 38 => ⟨S200000x128, .f32⟩
  | 39 => ⟨S200000x128, .f32⟩
  | 40 => ⟨S_, .f32⟩
  | 41 => ⟨S200000x128, .f32⟩
  | 42 => ⟨S200000x128, .f32⟩
  | 43 => ⟨S_, .f32⟩
  | 44 => ⟨S8192x128, .f32⟩
  | 45 => ⟨S200000x1, .i32⟩
  | 46 => ⟨S8192x128, .f32⟩
  | 47 => ⟨S8192x1, .f32⟩
  | 48 => ⟨S1x1, .f32⟩
  | 49 => ⟨S8192x1, .f32⟩
  | 50 => ⟨S8192x1, .f32⟩
  | _ => ⟨S200000x128, .f32⟩

abbrev hbmTy (i : Nat) : BufTy := match i / 128 with
  | 0 => hbmTy0_0 i
  | 1 => hbmTy0_1 i
  | _ => ⟨S200000x128, .f32⟩

abbrev bufTy : (tb : Table) → Fin (tcTables nBuf tb) → BufTy
  | .hbm, ⟨i, _⟩ => hbmTy i
  | _, _ => ⟨S200000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_v0 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_c : Ref sig .tc := ⟨.hbm, 33, rfl⟩
abbrev main_v4 : Ref sig .tc := ⟨.hbm, 34, rfl⟩
abbrev main_v5 : Ref sig .tc := ⟨.hbm, 35, rfl⟩
abbrev main_c_0 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_cst : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_cst_1 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_call0_cst : Ref sig .tc := ⟨.hbm, 67, rfl⟩
abbrev main_call0_v0 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_call1_cst : Ref sig .tc := ⟨.hbm, 74, rfl⟩
abbrev main_call1_v0 : Ref sig .tc := ⟨.hbm, 75, rfl⟩
abbrev main_v39 : Ref sig .tc := ⟨.hbm, 76, rfl⟩
abbrev main_call2_cst : Ref sig .tc := ⟨.hbm, 77, rfl⟩
abbrev main_call2_v0 : Ref sig .tc := ⟨.hbm, 78, rfl⟩
abbrev main_v40 : Ref sig .tc := ⟨.hbm, 79, rfl⟩
abbrev main_c_2 : Ref sig .tc := ⟨.hbm, 80, rfl⟩
abbrev main_v41 : Ref sig .tc := ⟨.hbm, 81, rfl⟩
abbrev main_v42 : Ref sig .tc := ⟨.hbm, 82, rfl⟩
abbrev main_c_3 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_cst_4 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_cst_5 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_call3_cst : Ref sig .tc := ⟨.hbm, 114, rfl⟩
abbrev main_call3_v0 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_call4_cst : Ref sig .tc := ⟨.hbm, 121, rfl⟩
abbrev main_call4_v0 : Ref sig .tc := ⟨.hbm, 122, rfl⟩
abbrev main_v76 : Ref sig .tc := ⟨.hbm, 123, rfl⟩
abbrev main_call5_cst : Ref sig .tc := ⟨.hbm, 124, rfl⟩
abbrev main_call5_v0 : Ref sig .tc := ⟨.hbm, 125, rfl⟩
abbrev main_v77 : Ref sig .tc := ⟨.hbm, 126, rfl⟩
abbrev main_c_6 : Ref sig .tc := ⟨.hbm, 127, rfl⟩
abbrev main_v78 : Ref sig .tc := ⟨.hbm, 128, rfl⟩
abbrev main_v79 : Ref sig .tc := ⟨.hbm, 129, rfl⟩
abbrev main_c_7 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_cst_8 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_cst_9 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_call6_cst : Ref sig .tc := ⟨.hbm, 161, rfl⟩
abbrev main_call6_v0 : Ref sig .tc := ⟨.hbm, 162, rfl⟩
abbrev main_v108 : Ref sig .tc := ⟨.hbm, 163, rfl⟩
abbrev main_v109 : Ref sig .tc := ⟨.hbm, 164, rfl⟩
abbrev main_v110 : Ref sig .tc := ⟨.hbm, 165, rfl⟩
abbrev main_v111 : Ref sig .tc := ⟨.hbm, 166, rfl⟩
abbrev main_v112 : Ref sig .tc := ⟨.hbm, 167, rfl⟩
abbrev main_call7_cst : Ref sig .tc := ⟨.hbm, 168, rfl⟩
abbrev main_call7_v0 : Ref sig .tc := ⟨.hbm, 169, rfl⟩
abbrev main_v113 : Ref sig .tc := ⟨.hbm, 170, rfl⟩
abbrev main_cst_10 : Ref sig .tc := ⟨.hbm, 171, rfl⟩
abbrev main_v114 : Ref sig .tc := ⟨.hbm, 172, rfl⟩
abbrev main_v115 : Ref sig .tc := ⟨.hbm, 173, rfl⟩
abbrev main_v116 : Ref sig .tc := ⟨.hbm, 174, rfl⟩
abbrev main_v117 : Ref sig .tc := ⟨.hbm, 175, rfl⟩
abbrev main_v118 : Ref sig .tc := ⟨.hbm, 176, rfl⟩
abbrev main_v119 : Ref sig .tc := ⟨.hbm, 177, rfl⟩
abbrev main_v120 : Ref sig .tc := ⟨.hbm, 178, rfl⟩

abbrev nD : Nat := 1
abbrev τ : Topo := Topo.v7x

variable {F : FTy → Type} [FloatOps F]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S400000_S400000x1_0 : S400000.BroadcastsInDim S400000x1 (![0] : Fin 1 → Fin S400000x1.rank)
  bcast_S_S200000x128 : S_.BroadcastsInDim S200000x128 (![] : Fin 0 → Fin S200000x128.rank)
  bcast_S128_S1x128_1 : S128.BroadcastsInDim S1x128 (![1] : Fin 1 → Fin S1x128.rank)
  bcast_S1x128_S200000x128_0_1 : S1x128.BroadcastsInDim S200000x128 (![0, 1] : Fin 2 → Fin S200000x128.rank)
  bcast_S_S128 : S_.BroadcastsInDim S128 (![] : Fin 0 → Fin S128.rank)
  bcast_S_S8192x128 : S_.BroadcastsInDim S8192x128 (![] : Fin 0 → Fin S8192x128.rank)
  bcast_S200000_S200000x1_0 : S200000.BroadcastsInDim S200000x1 (![0] : Fin 1 → Fin S200000x1.rank)
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  gather_S200000x128_S400000x1_S400000x128_1_0_n_n_0_1_1128_wf : GatherDims.WF S200000x128 S400000x1 S400000x128 [1] [0] [] [0] [] 1 ![1, 128]
  scatter_S200000x128_S400000x1_S400000x128_1_0_0_1_wf : ScatterDims.WF S200000x128 S400000x1 S400000x128 [1] [0] [0] 1
  dot_S200000x128_S128x128_S200000x128_1_0_0_1_n_n_wf : DotDims.WF S200000x128 S128x128 S200000x128 [1] [0] [0] [1] [] []
  scatter_S8192x128_S200000x1_S200000x128_1_0_0_1_wf : ScatterDims.WF S8192x128 S200000x1 S200000x128 [1] [0] [0] 1
  dot_S8192x128_S128x1_S8192x1_1_0_0_1_n_n_wf : DotDims.WF S8192x128 S128x1 S8192x1 [1] [0] [0] [1] [] []

variable [Facts₀]

def gather_S200000x128_S400000x1_S400000x128_1_0_n_n_0_1_1128 : GatherDims S200000x128 S400000x1 S400000x128 where
  offsetDims := [1]
  collapsedSliceDims := [0]
  operandBatchingDims := []
  startIndicesBatchingDims := []
  startIndexMap := [0]
  indexVectorDim := 1
  sliceSizes := ![1, 128]
  wf := gather_S200000x128_S400000x1_S400000x128_1_0_n_n_0_1_1128_wf
def scatter_S200000x128_S400000x1_S400000x128_1_0_0_1 : ScatterDims S200000x128 S400000x1 S400000x128 where
  updateWindowDims := [1]
  insertedWindowDims := [0]
  scatterDimsToOperandDims := [0]
  indexVectorDim := 1
  wf := scatter_S200000x128_S400000x1_S400000x128_1_0_0_1_wf
def dot_S200000x128_S128x128_S200000x128_1_0_0_1_n_n : DotDims S200000x128 S128x128 S200000x128 where
  lhsContracting := [1]
  rhsContracting := [0]
  lhsNonContracting := [0]
  rhsNonContracting := [1]
  lhsBatch := []
  rhsBatch := []
  wf := dot_S200000x128_S128x128_S200000x128_1_0_0_1_n_n_wf
def scatter_S8192x128_S200000x1_S200000x128_1_0_0_1 : ScatterDims S8192x128 S200000x1 S200000x128 where
  updateWindowDims := [1]
  insertedWindowDims := [0]
  scatterDimsToOperandDims := [0]
  indexVectorDim := 1
  wf := scatter_S8192x128_S200000x1_S200000x128_1_0_0_1_wf
def dot_S8192x128_S128x1_S8192x1_1_0_0_1_n_n : DotDims S8192x128 S128x1 S8192x1 where
  lhsContracting := [1]
  rhsContracting := [0]
  lhsNonContracting := [0]
  rhsNonContracting := [1]
  lhsBatch := []
  rhsBatch := []
  wf := dot_S8192x128_S128x1_S8192x1_1_0_0_1_n_n_wf

class Facts : Prop extends Facts₀ where

variable [Facts]
-- ==== Proof.KRun.lean ====
/-
  The idealized kernel program's run with its result named.  The program is seven segments: host operations, the first
  layer's kernel, host operations, the second layer's kernel, host operations, the third layer's kernel, host operations.
  Each segment takes the TensorCore's buffers from one valuation to the next (`W0` the launch memory, …, `W7` the
  valuation at the return), so every weakly fair execution terminates with each unscoped buffer holding what `W7` says:
  the result buffer in particular, and each argument array what it held at the launch.
-/
import proofs.«109940_j16312285790930_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at what the last
    valuation `W7` gives it and every argument array as launched: the seven segments chained from the launch memory,
    the last thread state read against the final memory. -/
theorem run_value : θ_run defs (onTc (τ := τ) (main (F := F))) ⟨m, fun _ => 0, ρ⟩ (fun r => ∀ c : Dev nD,
      r.2.mem ((c.tc : Thread nD τ).loc main_v61) = W7 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v61 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c),
       (h c _ (mem_uc main_arg11 (by decide))).trans (W7_main_arg11 m ρ c),
       (h c _ (mem_uc main_arg12 (by decide))).trans (W7_main_arg12 m ρ c),
       (h c _ (mem_uc main_arg13 (by decide))).trans (W7_main_arg13 m ρ c),
       (h c _ (mem_uc main_arg14 (by decide))).trans (W7_main_arg14 m ρ c),
       (h c _ (mem_uc main_arg15 (by decide))).trans (W7_main_arg15 m ρ c),
       (h c _ (mem_uc main_arg16 (by decide))).trans (W7_main_arg16 m ρ c),
       (h c _ (mem_uc main_arg17 (by decide))).trans (W7_main_arg17 m ρ c),
       (h c _ (mem_uc main_arg18 (by decide))).trans (W7_main_arg18 m ρ c),
       (h c _ (mem_uc main_arg19 (by decide))).trans (W7_main_arg19 m ρ c),
       (h c _ (mem_uc main_arg20 (by decide))).trans (W7_main_arg20 m ρ c),
       (h c _ (mem_uc main_arg21 (by decide))).trans (W7_main_arg21 m ρ c),
       (h c _ (mem_uc main_arg22 (by decide))).trans (W7_main_arg22 m ρ c),
       (h c _ (mem_uc main_arg23 (by decide))).trans (W7_main_arg23 m ρ c),
       (h c _ (mem_uc main_arg24 (by decide))).trans (W7_main_arg24 m ρ c),
       (h c _ (mem_uc main_arg25 (by decide))).trans (W7_main_arg25 m ρ c),
       (h c _ (mem_uc main_arg26 (by decide))).trans (W7_main_arg26 m ρ c),
       (h c _ (mem_uc main_arg27 (by decide))).trans (W7_main_arg27 m ρ c),
       (h c _ (mem_uc main_arg28 (by decide))).trans (W7_main_arg28 m ρ c)⟩)

end Cert.KernelIdeal.Run

end
-- ==== Proof.GinRow.lean ====
/-
  One row of a GIN layer over the extended reals.  For a node with feature row x and neighbour sum a (both of
  length 128), the layer computes a hidden row
      hid k = max (((Σ_j (x j + a j) · w1 j k + b1 k) − mu k) · rsqrt (var k + ε) · g k + be k) 0
  (a linear map, an affine normalisation with fixed statistics, a rectifier) and then the output row
      out q = max (Σ_k hid k · w2 k q + b2 q) 0.
  Both programs compute exactly these two formulas, with sums over the 128 hidden units in their natural order, so no
  law of the extended reals beyond idempotence of max is needed (the reference rectifies the output a second time).
-/
import Idealize.ShloMosaic.PureOps.Ideal

noncomputable section

namespace Cert.Gin

open Idealize.ShloMosaic

/-- The normalisation's ε, the float 9.99999974E-6 at its exact binary value. -/
abbrev eps : EReal := Ideal.ofBits .f32 0x3727C5AC#32

/-- The float zero (the rectifier's threshold). -/
abbrev zer : EReal := Ideal.ofBits .f32 0x00000000#32

/-- Hidden unit `k` of a node: linear map of x + a, normalisation, rectifier. -/
def hid (x a : Fin 128 → EReal) (w1 : Fin 128 → Fin 128 → EReal) (b1 mu var g be : Fin 128 → EReal) (k : Fin 128) : EReal :=
  max ((((((∑ j : Fin 128, (x j + a j) * w1 j k) + b1 k) - mu k) * Ideal.rsqrt (var k + eps)) * g k) + be k) zer

/-- Output feature `q` of a node: linear map of the hidden row, rectifier. -/
def out (x a : Fin 128 → EReal) (w1 : Fin 128 → Fin 128 → EReal) (b1 mu var g be : Fin 128 → EReal)
    (w2 : Fin 128 → Fin 128 → EReal) (b2 : Fin 128 → EReal) (q : Fin 128) : EReal :=
  max ((∑ k : Fin 128, hid x a w1 b1 mu var g be k * w2 k q) + b2 q) zer

/-- Rectifying twice is rectifying once. -/
theorem max_max_self (u z : EReal) : max (max u z) z = max u z := by
  rw [max_assoc, max_self]

end Cert.Gin

end
-- ==== Proof.KSpec.lean ====
/-
  The network as functions of whole arrays, on the extended reals.

  * `Layer X A w1 b1 mu va ga be w2 b2`: one GIN layer's transform of the node rows X and their neighbour sums A, row by
    row (`Cert.Gin.out`), the six vectors given as functions of the hidden index.
  * `Aggr src dst X`: the neighbour sums — gather the rows X[src e] (a negative index wrapped once by the node count),
    and add each into row dst e of a zero array.  Both programs print this as the same eleven host operations; it is
    carried as one opaque function and never opened.
  * `srcOf E`, `dstOf E`: the two rows of the edge list as vectors.
  * `Tail B lw lb H`: the readout — add each node row of H into row B n of a zero [8192, 128] array, multiply by the
    [128, 1] head and add its bias.  Again the same host operations in both programs, never opened.
-/
import proofs.«109940_j16312285790930_1_alg».proof.Proof.Gen.KernelIdeal
import proofs.«109940_j16312285790930_1_alg».proof.Proof.GinRow
import Idealize.ShloMosaic.Lib.ValueIdx
import Idealize.ShloMosaic.Lib.Pipeline.Value

noncomputable section

namespace Cert.KernelIdeal.Spec

open Cert.KernelIdeal Cert.KernelIdeal.Facts₀ Cert.KernelIdeal.Facts Idealize.ShloMosaic Idealize.ShloMosaic.ValueIdx

/-- One layer on whole arrays: row (i 0) of X and of A through the row formula, read at column (i 1). -/
def Layer (X A : S200000x128.Idx → EReal) (w1 : S128x128.Idx → EReal) (b1 mu va ga be : Fin 128 → EReal)
    (w2 : S128x128.Idx → EReal) (b2 : Fin 128 → EReal) : S200000x128.Idx → EReal :=
  fun i => Cert.Gin.out (fun j => X (ix2 (i 0) j)) (fun j => A (ix2 (i 0) j)) (fun j k => w1 (ix2 j k))
    b1 mu va ga be (fun k q => w2 (ix2 k q)) b2 (i 1)

/-- The layer at an index, unfolded once. -/
theorem Layer_apply (X A : S200000x128.Idx → EReal) (w1 : S128x128.Idx → EReal) (b1 mu va ga be : Fin 128 → EReal)
    (w2 : S128x128.Idx → EReal) (b2 : Fin 128 → EReal) (i : S200000x128.Idx) :
    Layer X A w1 b1 mu va ga be w2 b2 i
      = Cert.Gin.out (fun j => X (ix2 (i 0) j)) (fun j => A (ix2 (i 0) j)) (fun j k => w1 (ix2 j k))
          b1 mu va ga be (fun k q => w2 (ix2 k q)) b2 (i 1) := rfl

/-- The first row of the edge list (the source nodes) as a vector. -/
def srcOf (E : (⟨S2x400000, .i32⟩ : BufTy).Contents (Elt Ideal)) : (⟨S400000, .i32⟩ : BufTy).Contents (Elt Ideal) :=
  shapeCast S400000 (extractStridedSlice S1x400000 ![0, 0] E slices_S2x400000_S1x400000_0_0) shapeCasts_S1x400000_S400000

/-- The second row of the edge list (the destination nodes) as a vector. -/
def dstOf (E : (⟨S2x400000, .i32⟩ : BufTy).Contents (Elt Ideal)) : (⟨S400000, .i32⟩ : BufTy).Contents (Elt Ideal) :=
  shapeCast S400000 (extractStridedSlice S1x400000 ![1, 0] E slices_S2x400000_S1x400000_1_0) shapeCasts_S1x400000_S400000

/-- The neighbour sums of the node rows X along the edges (src e → dst e). -/
def Aggr (src dst : (⟨S400000, .i32⟩ : BufTy).Contents (Elt Ideal)) (X : (⟨S200000x128, .f32⟩ : BufTy).Contents (Elt Ideal)) :
    (⟨S200000x128, .f32⟩ : BufTy).Contents (Elt Ideal) :=
  Host.scatterAdd scatter_S200000x128_S400000x1_S400000x128_1_0_0_1
    (broadcastInDim S200000x128 ![] bcast_S_S200000x128 (constant (F := Ideal) S_ .f32 0x00000000#32))
    (broadcastInDim S400000x1 ![0] bcast_S400000_S400000x1_0 dst)
    (Host.gather gather_S200000x128_S400000x1_S400000x128_1_0_n_n_0_1_1128 X
      (broadcastInDim S400000x1 ![0] bcast_S400000_S400000x1_0
        (select (cmpi .slt src (broadcastInDim S400000 ![] bcast_S_S400000 (constantI S_ 32 0#32)))
          (addi src (broadcastInDim S400000 ![] bcast_S_S400000 (constantI S_ 32 200000#32))) src)))

/-- The readout: per-graph sums of the node rows, the linear head, its bias. -/
def Tail (B : (⟨S200000, .i32⟩ : BufTy).Contents (Elt Ideal)) (lw : (⟨S128x1, .f32⟩ : BufTy).Contents (Elt Ideal))
    (lb : (⟨S1, .f32⟩ : BufTy).Contents (Elt Ideal)) (H : (⟨S200000x128, .f32⟩ : BufTy).Contents (Elt Ideal)) :
    (⟨S8192x1, .f32⟩ : BufTy).Contents (Elt Ideal) :=
  addf (Host.dotGeneral (φ₁ := .f32) (φ₂ := .f32) dot_S8192x128_S128x1_S8192x1_1_0_0_1_n_n none
      (Host.scatterAdd scatter_S8192x128_S200000x1_S200000x128_1_0_0_1
        (broadcastInDim S8192x128 ![] bcast_S_S8192x128 (constant (F := Ideal) S_ .f32 0x00000000#32))
        (broadcastInDim S200000x1 ![0] bcast_S200000_S200000x1_0 B) H) lw)
    (broadcastInDim S8192x1 ![0, 1] bcast_S1x1_S8192x1_0_1 (broadcastInDim S1x1 ![1] bcast_S1_S1x1_1 lb))

/-- A [1, 128] row as a function of the hidden index. -/
def rowOf (r : S1x128.Idx → EReal) : Fin 128 → EReal := fun k => r (ix2 (0 : Fin 1) k)

/-- A vector of length 128 as a function of the hidden index. -/
def vecOf (v : (⟨S128, .f32⟩ : BufTy).Contents (Elt Ideal)) : Fin 128 → EReal := fun k => v (ix1 k)

/-- A vector made a [1, 128] row and read back as a function of the hidden index is the vector. -/
theorem rowOf_shapeCast (v : S128.Idx → EReal) (h : S128.ShapeCasts S1x128) : rowOf (shapeCast S1x128 v h) = vecOf v := by
  funext k
  show shapeCast S1x128 v h (ix2 (0 : Fin 1) k) = v (ix1 k)
  refine (shapeCast_addUnit_apply ![128] v h (ix2 (0 : Fin 1) k)).trans (congrArg v ?_)
  funext a
  match a with
  | ⟨0, _⟩ => rfl

/-- One layer of the network in the order of the program's arguments: the node rows h, the edge list, then the layer's
    first weights and bias, scale, shift, mean, variance, second weights and bias. -/
def netStep (h : (⟨S200000x128, .f32⟩ : BufTy).Contents (Elt Ideal)) (x1 : (⟨S2x400000, .i32⟩ : BufTy).Contents (Elt Ideal))
    (w1 : (⟨S128x128, .f32⟩ : BufTy).Contents (Elt Ideal)) (b1 ga be mu va : (⟨S128, .f32⟩ : BufTy).Contents (Elt Ideal))
    (w2 : (⟨S128x128, .f32⟩ : BufTy).Contents (Elt Ideal)) (b2 : (⟨S128, .f32⟩ : BufTy).Contents (Elt Ideal)) :
    (⟨S200000x128, .f32⟩ : BufTy).Contents (Elt Ideal) :=
  Layer h (Aggr (srcOf x1) (dstOf x1) h) w1 (vecOf b1) (vecOf mu) (vecOf va) (vecOf ga) (vecOf be) w2 (vecOf b2)

/-- The whole network of the 29 argument arrays: three layers, each fed its predecessor's rows and their neighbour
    sums, then the readout. -/
def Net (x0 : (⟨S200000x128, .f32⟩ : BufTy).Contents (Elt Ideal)) (x1 : (⟨S2x400000, .i32⟩ : BufTy).Contents (Elt Ideal))
    (x2 : (⟨S200000, .i32⟩ : BufTy).Contents (Elt Ideal))
    (x3 : (⟨S128x128, .f32⟩ : BufTy).Contents (Elt Ideal)) (x4 x5 x6 x7 x8 : (⟨S128, .f32⟩ : BufTy).Contents (Elt Ideal))
    (x9 : (⟨S128x128, .f32⟩ : BufTy).Contents (Elt Ideal)) (x10 : (⟨S128, .f32⟩ : BufTy).Contents (Elt Ideal))
    (x11 : (⟨S128x128, .f32⟩ : BufTy).Contents (Elt Ideal)) (x12 x13 x14 x15 x16 : (⟨S128, .f32⟩ : BufTy).Contents (Elt Ideal))
    (x17 : (⟨S128x128, .f32⟩ : BufTy).Contents (Elt Ideal)) (x18 : (⟨S128, .f32⟩ : BufTy).Contents (Elt Ideal))
    (x19 : (⟨S128x128, .f32⟩ : BufTy).Contents (Elt Ideal)) (x20 x21 x22 x23 x24 : (⟨S128, .f32⟩ : BufTy).Contents (Elt Ideal))
    (x25 : (⟨S128x128, .f32⟩ : BufTy).Contents (Elt Ideal)) (x26 : (⟨S128, .f32⟩ : BufTy).Contents (Elt Ideal))
    (x27 : (⟨S128x1, .f32⟩ : BufTy).Contents (Elt Ideal)) (x28 : (⟨S1, .f32⟩ : BufTy).Contents (Elt Ideal)) :
    (⟨S8192x1, .f32⟩ : BufTy).Contents (Elt Ideal) :=
  Tail x2 x27 x28
    (netStep (netStep (netStep x0 x1 x3 x4 x5 x6 x7 x8 x9 x10) x1 x11 x12 x13 x14 x15 x16 x17 x18) x1 x19 x20 x21 x22 x23 x24 x25 x26)

end Cert.KernelIdeal.Spec

end
-- ==== Proof.LibPlainDot.lean ====
/-
  A plain matrix product [M, K] × [K, N] → [M, N] (no batch axis, the left operand's axis 1 contracted with the right
  operand's axis 0), read at an index over the extended reals: the entry (r, q) is the sum over k of lhs (r, k) · rhs (k, q),
  for a kernel's `tpu.matmul` into a zero accumulator and for the host's `dot_general` alike. Stated for any M, K, N and any
  operand formats, over the library's dimension numbers `DotDims.plain`; a printed record with the same fields is that by `rfl`.
-/
import Idealize.ShloMosaic.PureOps.Ideal.Laws
import Idealize.ShloMosaic.Lib.ValueIdx

namespace Idealize.ShloMosaic.LibPlainDot

open Idealize.ShloMosaic.ValueIdx

variable {φ₁ φ₂ : FTy}

/-- The left operand's index at output (r, q) and contraction coordinate k is (r, k). -/
theorem plain_lhsIdx (M K N : Nat) (r : Fin M) (q : Fin N) (k : Fin K) :
    (DotDims.plain M K N).lhsIdx (ix2 r q) ((contrEquiv1 (DotDims.plain M K N) K rfl rfl).symm k) = ix2 r k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 r q) _).trans hk

/-- The right operand's index at output (r, q) and contraction coordinate k is (k, q). -/
theorem plain_rhsIdx (M K N : Nat) (r : Fin M) (q : Fin N) (k : Fin K) :
    (DotDims.plain M K N).rhsIdx (ix2 r q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl (ix2 r q) _).trans hk
  | ⟨1, _⟩ => rfl

/-- A kernel's matrix product into a zero accumulator, at (r, q): the sum over k of lhs (r, k) · rhs (k, q). -/
theorem matmul_plain_apply (M K N : Nat) (prec : Option ContractPrecision)
    (lhs : FVec Ideal ⟨2, ![M, K]⟩ φ₁) (rhs : FVec Ideal ⟨2, ![K, N]⟩ φ₂) (r : Fin M) (q : Fin N) :
    FloatOps.matmul (DotDims.plain M K N) prec lhs rhs (constant ⟨2, ![M, N]⟩ .f32 0x00000000#32) (ix2 r q)
      = ∑ k : Fin K, lhs (ix2 r k) * rhs (ix2 k q) := by
  rw [Ideal.matmul_constant_zero_apply, ← Equiv.sum_comp (contrEquiv1 (DotDims.plain M K N) K rfl rfl).symm]
  refine Finset.sum_congr rfl fun k _ => ?_
  rw [plain_lhsIdx, plain_rhsIdx]

/-- The host's `dot_general` of the same dimension numbers, at (r, q): the same sum. -/
theorem dotGeneral_plain_apply (M K N : Nat) (prec : Option ContractPrecision) (sched : HostSchedule)
    (lhs : FVec Ideal ⟨2, ![M, K]⟩ φ₁) (rhs : FVec Ideal ⟨2, ![K, N]⟩ φ₂) (r : Fin M) (q : Fin N) :
    FloatOps.dotGeneral (DotDims.plain M K N) prec sched lhs rhs (ix2 r q)
      = ∑ k : Fin K, lhs (ix2 r k) * rhs (ix2 k q) := by
  rw [Ideal.dotGeneral_apply, ← Equiv.sum_comp (contrEquiv1 (DotDims.plain M K N) K rfl rfl).symm]
  refine Finset.sum_congr rfl fun k _ => ?_
  rw [plain_lhsIdx, plain_rhsIdx]

end Idealize.ShloMosaic.LibPlainDot
-- ==== Proof.KBody.lean ====
/-
  The kernel body as ONE function of the ten blocks it loads, and that function read at an index.

  The body loads a block of 5000 node rows x and of their neighbour sums a, the two 128 × 128 weight matrices and six
  rows of length 128 (the two biases and the normalisation's scale, shift, mean and variance, each a [1, 128] array),
  and stores one block of 5000 output rows.  Its arithmetic is  out = relu (relu (bn ((x + a) · w1 + b1)) · w2 + b2):
  two matrix products into zero accumulators (the operands' change of format is the identity on the extended reals),
  rows broadcast down the block, pointwise sums, products, a reciprocal square root and two maxima with zero.  At row p
  and column q this is the output formula of a GIN layer's row (`Cert.Gin.out`) of row p of x and of a.
-/
import proofs.«109940_j16312285790930_1_alg».proof.Proof.Gen.KernelIdeal.Skeleton
import proofs.«109940_j16312285790930_1_alg».proof.Proof.GinRow
import proofs.«109940_j16312285790930_1_alg».proof.Proof.LibPlainDot
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx

variable {F : FTy → Type} [FloatOps F]

/-- The block the body stores, from the ten blocks it loads, in the order of the call's operands: node rows, neighbour
    sums, first weights, first bias, scale, shift, mean, variance, second weights, second bias. -/
def blockFn (x a : Vec F S5000x128 .f32) (w1 : Vec F S128x128 .f32) (b1 ga be mu va : Vec F S1x128 .f32)
    (w2 : Vec F S128x128 .f32) (b2 : Vec F S1x128 .f32) : FVec F S5000x128 .f32 :=
  k0_pay1 (k0_pay2 x a w1 b1 va mu ga be w2) b2

/-- A [1, 128] row broadcast down 5000 rows, at (p, q), is the row at (0, q). -/
theorem row_apply {α : Type} (v : S1x128.Idx → α) (h : S1x128.Broadcasts S5000x128) (p : Fin 5000) (q : Fin 128) :
    broadcastTo S5000x128 v h (ix2 p q) = v (ix2 (0 : Fin 1) q) :=
  broadcastTo_apply v h (ix2 p q) (ix2 (0 : Fin 1) q) (fun a => match a with
    | ⟨0, _⟩ => by show (0 : Nat) = if (1 : Nat) = 1 then 0 else p.val; rw [if_pos rfl]
    | ⟨1, _⟩ => by show q.val = if (128 : Nat) = 1 then 0 else q.val; rw [if_neg (by decide)])

/-- The body's matrix product into a zero accumulator, at (p, q): the sum over the 128 inner indices. -/
theorem mm_apply (A : FVec Ideal S5000x128 .bf16) (B : FVec Ideal S128x128 .bf16) (p : Fin 5000) (q : Fin 128) :
    matmul dot_S5000x128_S128x128_S5000x128_1_0_0_1_n_n none A B (constant S5000x128 .f32 0x00000000#32) (ix2 p q)
      = ∑ k : Fin 128, A (ix2 p k) * B (ix2 k q) :=
  LibPlainDot.matmul_plain_apply 5000 128 128 none A B p q

/-- The stored block at row p, column q: the layer's output formula of row p of the two loaded blocks. -/
theorem blockFn_apply (x a : Vec Ideal S5000x128 .f32) (w1 : Vec Ideal S128x128 .f32) (b1 ga be mu va : Vec Ideal S1x128 .f32)
    (w2 : Vec Ideal S128x128 .f32) (b2 : Vec Ideal S1x128 .f32) (p : Fin 5000) (q : Fin 128) :
    blockFn (F := Ideal) x a w1 b1 ga be mu va w2 b2 (ix2 p q)
      = Cert.Gin.out (fun j => x (ix2 p j)) (fun j => a (ix2 p j)) (fun j k => w1 (ix2 j k))
          (fun k => b1 (ix2 (0 : Fin 1) k)) (fun k => mu (ix2 (0 : Fin 1) k)) (fun k => va (ix2 (0 : Fin 1) k))
          (fun k => ga (ix2 (0 : Fin 1) k)) (fun k => be (ix2 (0 : Fin 1) k))
          (fun k q => w2 (ix2 k q)) (fun q => b2 (ix2 (0 : Fin 1) q)) q := by
  unfold blockFn k0_pay1 k0_pay2
  dsimp only
  simp only [shapeCast_self]
  simp only [maximumf_apply, addf_apply, mulf_apply, subf_apply, truncf_apply, mm_apply, broadcast_apply, row_apply]
  rfl

/-- The second layer's kernel computes the same block function (its body is cut into other pieces, and casts its
    first load to its own shape). -/
theorem body1_eq (x a : Vec F S5000x128 .f32) (w1 : Vec F S128x128 .f32) (b1 ga be mu va : Vec F S1x128 .f32)
    (w2 : Vec F S128x128 .f32) (b2 : Vec F S1x128 .f32) :
    k1_pay1 (k1_pay2 w2) (k1_pay3 x a w1 b1 va mu ga be) (constant S5000x128 .f32 0x00000000#32) b2
      = blockFn x a w1 b1 ga be mu va w2 b2 := by
  unfold blockFn k0_pay1 k0_pay2 k1_pay1 k1_pay2 k1_pay3
  dsimp only
  simp only [shapeCast_self]

/-- The third layer's kernel computes the same block function. -/
theorem body2_eq (x a : Vec F S5000x128 .f32) (w1 : Vec F S128x128 .f32) (b1 ga be mu va : Vec F S1x128 .f32)
    (w2 : Vec F S128x128 .f32) (b2 : Vec F S1x128 .f32) :
    k2_pay1 (k2_pay2 w2) (k2_pay3 x a w1 b1 va mu ga be) (constant S5000x128 .f32 0x00000000#32) b2
      = blockFn x a w1 b1 ga be mu va w2 b2 := by
  unfold blockFn k0_pay1 k0_pay2 k2_pay1 k2_pay2 k2_pay3
  dsimp only
  simp only [shapeCast_self]

end Cert.KernelIdeal.Body

end
-- ==== Proof.KRegion0.lean ====
/-
  Region 0 (the first layer's kernel) read as a value: whatever the TensorCore's buffers hold when the region is
  entered (`V`), the output array after the region is the GIN layer `Layer` of the arrays the region's windows read.
  The grid has 40 points; point t loads rows 5000·t … 5000·t + 4999 of the node array and of the neighbour sums, and
  the whole of the two weight matrices and six rows; it writes back the same 5000 rows of the output.  So block t of
  the output is the layer of block t of the inputs, row by row, and the 40 blocks tile the 200000 rows.
-/
import proofs.«109940_j16312285790930_1_alg».proof.Proof.Gen.KernelIdeal.Frame
import proofs.«109940_j16312285790930_1_alg».proof.Proof.KBody
import proofs.«109940_j16312285790930_1_alg».proof.Proof.KSpec

set_option maxRecDepth 16384

noncomputable section

namespace Cert.KernelIdeal.Region0

open Cert.KernelIdeal Cert.KernelIdeal.Gen Cert.KernelIdeal.Body Cert.KernelIdeal.Spec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the two row-blocked inputs and the output are at block (t, 0) at point t,
    every other window at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = t.val ∧ win0_10.index t (1 : Fin 2) = 0 :=
  (by decide +kernel : ∀ t : Fin grid0.N, _)

/-- Every one of the 40 row blocks is some point's. -/
theorem idx_onto : ∀ q0 : Fin 40, ∃ t : Fin cfg0.N, t.val = q0.val :=
  (by decide +kernel : ∀ q0 : Fin 40, ∃ t : Fin grid0.N, t.val = q0.val)

/-- Window 0's block at point t holds rows 5000·t … 5000·t + 4999 of its array. -/
theorem read0 (c : Dev nD) (t : Fin cfg0.N) (p : Fin 5000) (j : Fin 128) (i : S200000x128.Idx)
    (h0 : (i 0).val = t.val * 5000 + p.val) (h1 : (i 1).val = j.val) :
    iblk0 V c 0 t (ix2 p j) = V c main_arg0 i := by
  show V c main_arg0 (((cfg0.win 0).blk t).view.emb (ix2 p j)) = V c main_arg0 i
  refine congrArg (V c main_arg0) ?_
  obtain ⟨e0a, e0b, e1a, e1b, e2a, e2b, e3a, e3b, e4a, e4b, e5a, e5b, e6a, e6b, e7a, e7b, e8a, e8b, e9a, e9b, e10a, e10b⟩ := idx_facts t
  funext a; apply Fin.ext
  match a with
  | ⟨0, _⟩ => show win0_0.index t (0 : Fin 2) * 5000 + 1 * p.val = (i 0).val; omega
  | ⟨1, _⟩ => show win0_0.index t (1 : Fin 2) * 128 + 1 * j.val = (i 1).val; omega

/-- Window 1's block at point t holds rows 5000·t … 5000·t + 4999 of its array. -/
theorem read1 (c : Dev nD) (t : Fin cfg0.N) (p : Fin 5000) (j : Fin 128) (i : S200000x128.Idx)
    (h0 : (i 0).val = t.val * 5000 + p.val) (h1 : (i 1).val = j.val) :
    iblk0 V c 1 t (ix2 p j) = V c main_v13 i := by
  show V c main_v13 (((cfg0.win 1).blk t).view.emb (ix2 p j)) = V c main_v13 i
  refine congrArg (V c main_v13) ?_
  obtain ⟨e0a, e0b, e1a, e1b, e2a, e2b, e3a, e3b, e4a, e4b, e5a, e5b, e6a, e6b, e7a, e7b, e8a, e8b, e9a, e9b, e10a, e10b⟩ := idx_facts t
  funext a; apply Fin.ext
  match a with
  | ⟨0, _⟩ => show win0_1.index t (0 : Fin 2) * 5000 + 1 * p.val = (i 0).val; omega
  | ⟨1, _⟩ => show win0_1.index t (1 : Fin 2) * 128 + 1 * j.val = (i 1).val; omega

/-- Window 2's block at every point is its whole [128, 128] array. -/
theorem read2 (c : Dev nD) (t : Fin cfg0.N) (j k : Fin 128) :
    iblk0 V c 2 t (ix2 j k) = V c main_arg3 (ix2 j k) := by
  show V c main_arg3 (((cfg0.win 2).blk t).view.emb (ix2 j k)) = V c main_arg3 (ix2 j k)
  refine congrArg (V c main_arg3) ?_
  obtain ⟨e0a, e0b, e1a, e1b, e2a, e2b, e3a, e3b, e4a, e4b, e5a, e5b, e6a, e6b, e7a, e7b, e8a, e8b, e9a, e9b, e10a, e10b⟩ := idx_facts t
  funext a; apply Fin.ext
  match a with
  | ⟨0, _⟩ => show win0_2.index t (0 : Fin 2) * 128 + 1 * j.val = j.val; omega
  | ⟨1, _⟩ => show win0_2.index t (1 : Fin 2) * 128 + 1 * k.val = k.val; omega

/-- Window 3's block at every point is its whole [1, 128] row. -/
theorem read3 (c : Dev nD) (t : Fin cfg0.N) (k : Fin 128) :
    iblk0 V c 3 t (ix2 (0 : Fin 1) k) = V c main_v14 (ix2 (0 : Fin 1) k) := by
  show V c main_v14 (((cfg0.win 3).blk t).view.emb (ix2 (0 : Fin 1) k)) = V c main_v14 (ix2 (0 : Fin 1) k)
  refine congrArg (V c main_v14) ?_
  obtain ⟨e0a, e0b, e1a, e1b, e2a, e2b, e3a, e3b, e4a, e4b, e5a, e5b, e6a, e6b, e7a, e7b, e8a, e8b, e9a, e9b, e10a, e10b⟩ := idx_facts t
  funext a; apply Fin.ext
  match a with
  | ⟨0, _⟩ => show win0_3.index t (0 : Fin 2) * 1 + 1 * 0 = 0; omega
  | ⟨1, _⟩ => show win0_3.index t (1 : Fin 2) * 128 + 1 * k.val = k.val; omega

/-- Window 4's block at every point is its whole [1, 128] row. -/
theorem read4 (c : Dev nD) (t : Fin cfg0.N) (k : Fin 128) :
    iblk0 V c 4 t (ix2 (0 : Fin 1) k) = V c main_v15 (ix2 (0 : Fin 1) k) := by
  show V c main_v15 (((cfg0.win 4).blk t).view.emb (ix2 (0 : Fin 1) k)) = V c main_v15 (ix2 (0 : Fin 1) k)
  refine congrArg (V c main_v15) ?_
  obtain ⟨e0a, e0b, e1a, e1b, e2a, e2b, e3a, e3b, e4a, e4b, e5a, e5b, e6a, e6b, e7a, e7b, e8a, e8b, e9a, e9b, e10a, e10b⟩ := idx_facts t
  funext a; apply Fin.ext
  match a with
  | ⟨0, _⟩ => show win0_4.index t (0 : Fin 2) * 1 + 1 * 0 = 0; omega
  | ⟨1, _⟩ => show win0_4.index t (1 : Fin 2) * 128 + 1 * k.val = k.val; omega

/-- Window 5's block at every point is its whole [1, 128] row. -/
theorem read5 (c : Dev nD) (t : Fin cfg0.N) (k : Fin 128) :
    iblk0 V c 5 t (ix2 (0 : Fin 1) k) = V c main_v16 (ix2 (0 : Fin 1) k) := by
  show V c main_v16 (((cfg0.win 5).blk t).view.emb (ix2 (0 : Fin 1) k)) = V c main_v16 (ix2 (0 : Fin 1) k)
  refine congrArg (V c main_v16) ?_
  obtain ⟨e0a, e0b, e1a, e1b, e2a, e2b, e3a, e3b, e4a, e4b, e5a, e5b, e6a, e6b, e7a, e7b, e8a, e8b, e9a, e9b, e10a, e10b⟩ := idx_facts t
  funext a; apply Fin.ext
  match a with
  | ⟨0, _⟩ => show win0_5.index t (0 : Fin 2) * 1 + 1 * 0 = 0; omega
  | ⟨1, _⟩ => show win0_5.index t (1 : Fin 2) * 128 + 1 * k.val = k.val; omega

/-- Window 6's block at every point is its whole [1, 128] row. -/
theorem read6 (c : Dev nD) (t : Fin cfg0.N) (k : Fin 128) :
    iblk0 V c 6 t (ix2 (0 : Fin 1) k) = V c main_v17 (ix2 (0 : Fin 1) k) := by
  show V c main_v17 (((cfg0.win 6).blk t).view.emb (ix2 (0 : Fin 1) k)) = V c main_v17 (ix2 (0 : Fin 1) k)
  refine congrArg (V c main_v17) ?_
  obtain ⟨e0a, e0b, e1a, e1b, e2a, e2b, e3a, e3b, e4a, e4b, e5a, e5b, e6a, e6b, e7a, e7b, e8a, e8b, e9a, e9b, e10a, e10b⟩ := idx_facts t
  funext a; apply Fin.ext
  match a with
  | ⟨0, _⟩ => show win0_6.index t (0 : Fin 2) * 1 + 1 * 0 = 0; omega
  | ⟨1, _⟩ => show win0_6.index t (1 : Fin 2) * 128 + 1 * k.val = k.val; omega

/-- Window 7's block at every point is its whole [1, 128] row. -/
theorem read7 (c : Dev nD) (t : Fin cfg0.N) (k : Fin 128) :
    iblk0 V c 7 t (ix2 (0 : Fin 1) k) = V c main_v18 (ix2 (0 : Fin 1) k) := by
  show V c main_v18 (((cfg0.win 7).blk t).view.emb (ix2 (0 : Fin 1) k)) = V c main_v18 (ix2 (0 : Fin 1) k)
  refine congrArg (V c main_v18) ?_
  obtain ⟨e0a, e0b, e1a, e1b, e2a, e2b, e3a, e3b, e4a, e4b, e5a, e5b, e6a, e6b, e7a, e7b, e8a, e8b, e9a, e9b, e10a, e10b⟩ := idx_facts t
  funext a; apply Fin.ext
  match a with
  | ⟨0, _⟩ => show win0_7.index t (0 : Fin 2) * 1 + 1 * 0 = 0; omega
  | ⟨1, _⟩ => show win0_7.index t (1 : Fin 2) * 128 + 1 * k.val = k.val; omega

/-- Window 8's block at every point is its whole [128, 128] array. -/
theorem read8 (c : Dev nD) (t : Fin cfg0.N) (j k : Fin 128) :
    iblk0 V c 8 t (ix2 j k) = V c main_arg9 (ix2 j k) := by
  show V c main_arg9 (((cfg0.win 8).blk t).view.emb (ix2 j k)) = V c main_arg9 (ix2 j k)
  refine congrArg (V c main_arg9) ?_
  obtain ⟨e0a, e0b, e1a, e1b, e2a, e2b, e3a, e3b, e4a, e4b, e5a, e5b, e6a, e6b, e7a, e7b, e8a, e8b, e9a, e9b, e10a, e10b⟩ := idx_facts t
  funext a; apply Fin.ext
  match a with
  | ⟨0, _⟩ => show win0_8.index t (0 : Fin 2) * 128 + 1 * j.val = j.val; omega
  | ⟨1, _⟩ => show win0_8.index t (1 : Fin 2) * 128 + 1 * k.val = k.val; omega

/-- Window 9's block at every point is its whole [1, 128] row. -/
theorem read9 (c : Dev nD) (t : Fin cfg0.N) (k : Fin 128) :
    iblk0 V c 9 t (ix2 (0 : Fin 1) k) = V c main_v19 (ix2 (0 : Fin 1) k) := by
  show V c main_v19 (((cfg0.win 9).blk t).view.emb (ix2 (0 : Fin 1) k)) = V c main_v19 (ix2 (0 : Fin 1) k)
  refine congrArg (V c main_v19) ?_
  obtain ⟨e0a, e0b, e1a, e1b, e2a, e2b, e3a, e3b, e4a, e4b, e5a, e5b, e6a, e6b, e7a, e7b, e8a, e8b, e9a, e9b, e10a, e10b⟩ := idx_facts t
  funext a; apply Fin.ext
  match a with
  | ⟨0, _⟩ => show win0_9.index t (0 : Fin 2) * 1 + 1 * 0 = 0; omega
  | ⟨1, _⟩ => show win0_9.index t (1 : Fin 2) * 128 + 1 * k.val = k.val; omega

/-- What point t writes back is block t of the layer of the arrays as the region finds them. -/
theorem flushed_eq (c : Dev nD) (t : Fin cfg0.N) :
    (dat0 V c).flushed 10 t = ((cfg0.win 10).blk t).view.read (Elt Ideal)
      (Layer (V c main_arg0) (V c main_v13) (V c main_arg3) (rowOf (V c main_v14)) (rowOf (V c main_v17)) (rowOf (V c main_v18))
      (rowOf (V c main_v15)) (rowOf (V c main_v16)) (V c main_arg9) (rowOf (V c main_v19))) := by
  show (cfg0.win 10).cut (grid0.coords t) ((dat0 V c).after 10 t) = _
  rw [after0_10]
  unfold out0_10
  rw [View.canon_unit_zero hz]
  simp only [View.ld_unit_zero (S := S5000x128) hz, View.ld_unit_zero (S := S128x128) hz, View.ld_unit_zero (S := S1x128) hz]
  show (cfg0.win 10).cut (grid0.coords t) (blockFn (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)) = _
  obtain ⟨e0a, e0b, e1a, e1b, e2a, e2b, e3a, e3b, e4a, e4b, e5a, e5b, e6a, e6b, e7a, e7b, e8a, e8b, e9a, e9b, e10a, e10b⟩ := idx_facts t
  funext y
  have hp : (y 0).val < 5000 := (y 0).isLt
  have hq : (y 1).val < 128 := (y 1).isLt
  obtain ⟨p, q, hy0, hy1⟩ : ∃ (p : Fin 5000) (q : Fin 128), (y 0).val = p.val ∧ (y 1).val = q.val :=
    ⟨⟨_, hp⟩, ⟨_, hq⟩, rfl, rfl⟩
  have hj : (win0 10).xinj (grid0.coords t) y = ix2 p q := by
    funext a; apply Fin.ext
    match a with
    | ⟨0, _⟩ => exact hy0
    | ⟨1, _⟩ => exact hy1
  show blockFn (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) ((win0 10).xinj (grid0.coords t) y) = _
  rw [hj]
  refine (blockFn_apply (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) p q).trans ?_
  have hr : ((((cfg0.win 10).blk t).view.emb y) 0).val = t.val * 5000 + p.val := by
    show win0_10.index t (0 : Fin 2) * 5000 + 1 * (y 0).val = _; omega
  have hq' : (((cfg0.win 10).blk t).view.emb y) 1 = q := by
    apply Fin.ext; show win0_10.index t (1 : Fin 2) * 128 + 1 * (y 1).val = q.val; omega
  show _ = Layer (V c main_arg0) (V c main_v13) (V c main_arg3) (rowOf (V c main_v14)) (rowOf (V c main_v17)) (rowOf (V c main_v18))
      (rowOf (V c main_v15)) (rowOf (V c main_v16)) (V c main_arg9) (rowOf (V c main_v19)) (((cfg0.win 10).blk t).view.emb y)
  rw [Layer_apply, hq']
  have h0 : ∀ j : Fin 128, iblk0 V c 0 t (ix2 p j) = V c main_arg0 (ix2 ((((cfg0.win 10).blk t).view.emb y) 0) j) :=
    fun j => read0 V c t p j _ hr rfl
  have h1 : ∀ j : Fin 128, iblk0 V c 1 t (ix2 p j) = V c main_v13 (ix2 ((((cfg0.win 10).blk t).view.emb y) 0) j) :=
    fun j => read1 V c t p j _ hr rfl
  unfold rowOf
  simp only [h0, h1, read2 V c t, read3 V c t, read4 V c t, read5 V c t, read6 V c t, read7 V c t, read8 V c t, read9 V c t]

/-- An index of the output array is in point t's block iff each coordinate is in the block's range. -/
theorem mem_blk (t : Fin cfg0.N) (i : S200000x128.Idx) :
    i ∈ ((cfg0.win 10).blk t).view.set ↔ ∀ a : Fin 2, win0_10.index t a * S5000x128.size a ≤ (i a).val ∧ (i a).val < win0_10.index t a * S5000x128.size a + S5000x128.size a := by
  show i ∈ ((View.whole main_v20).slice (win0_10.rect t)).set ↔ _
  rw [View.set_slice_whole, Rect.mem_set_unit]
  exact Iff.rfl

/-- Row r of the output is in the block of point r / 5000. -/
theorem cover (i : S200000x128.Idx) :
    ∃ t : Fin cfg0.N, (cfg0.win 10).flush t = true ∧ i ∈ ((cfg0.win 10).blk t).view.set := by
  have hi0 : (i 0).val < 200000 := (i 0).isLt
  have hi1 : (i 1).val < 128 := (i 1).isLt
  obtain ⟨t, ht⟩ := idx_onto ⟨(i 0).val / 5000, by omega⟩
  have ht' : t.val = (i 0).val / 5000 := ht
  refine ⟨t, flush0_10 t, ?_⟩
  rw [mem_blk]
  obtain ⟨e0a, e0b, e1a, e1b, e2a, e2b, e3a, e3b, e4a, e4b, e5a, e5b, e6a, e6b, e7a, e7b, e8a, e8b, e9a, e9b, e10a, e10b⟩ := idx_facts t
  intro a
  match a with
  | ⟨0, _⟩ => show win0_10.index t (0 : Fin 2) * 5000 ≤ (i 0).val ∧ (i 0).val < win0_10.index t (0 : Fin 2) * 5000 + 5000; omega
  | ⟨1, _⟩ => show win0_10.index t (1 : Fin 2) * 128 ≤ (i 1).val ∧ (i 1).val < win0_10.index t (1 : Fin 2) * 128 + 128; omega

/-- THE OUTPUT ARRAY after the region: the layer of the arrays its windows read. -/
theorem arr (c : Dev nD) : (dat0 V c).arrAt 10 cfg0.N
    = Layer (V c main_arg0) (V c main_v13) (V c main_arg3) (rowOf (V c main_v14)) (rowOf (V c main_v17)) (rowOf (V c main_v18))
      (rowOf (V c main_v15)) (rowOf (V c main_v16)) (V c main_arg9) (rowOf (V c main_v19)) :=
  (dat0 V c).arrAt_eq_of_cover 10 _ (fun t _ => flushed_eq V c t) cover

end Cert.KernelIdeal.Region0

end
-- ==== Proof.KRegion1.lean ====
/-
  Region 1 (the second layer's kernel) read as a value: whatever the TensorCore's buffers hold when the region is
  entered (`V`), the output array after the region is the GIN layer `Layer` of the arrays the region's windows read.
  The grid has 40 points; point t loads rows 5000·t … 5000·t + 4999 of the node array and of the neighbour sums, and
  the whole of the two weight matrices and six rows; it writes back the same 5000 rows of the output.  So block t of
  the output is the layer of block t of the inputs, row by row, and the 40 blocks tile the 200000 rows.
-/
import proofs.«109940_j16312285790930_1_alg».proof.Proof.Gen.KernelIdeal.Frame
import proofs.«109940_j16312285790930_1_alg».proof.Proof.KBody
import proofs.«109940_j16312285790930_1_alg».proof.Proof.KSpec

set_option maxRecDepth 16384

noncomputable section

namespace Cert.KernelIdeal.Region1

open Cert.KernelIdeal Cert.KernelIdeal.Gen Cert.KernelIdeal.Body Cert.KernelIdeal.Spec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the two row-blocked inputs and the output are at block (t, 0) at point t,
    every other window at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = 0 ∧ win1_9.index t (1 : Fin 2) = 0
    ∧ win1_10.index t (0 : Fin 2) = t.val ∧ win1_10.index t (1 : Fin 2) = 0 :=
  (by decide +kernel : ∀ t : Fin grid1.N, _)

/-- Every one of the 40 row blocks is some point's. -/
theorem idx_onto : ∀ q0 : Fin 40, ∃ t : Fin cfg1.N, t.val = q0.val :=
  (by decide +kernel : ∀ q0 : Fin 40, ∃ t : Fin grid1.N, t.val = q0.val)

/-- Window 0's block at point t holds rows 5000·t … 5000·t + 4999 of its array. -/
theorem read0 (c : Dev nD) (t : Fin cfg1.N) (p : Fin 5000) (j : Fin 128) (i : S200000x128.Idx)
    (h0 : (i 0).val = t.val * 5000 + p.val) (h1 : (i 1).val = j.val) :
    iblk1 V c 0 t (ix2 p j) = V c main_v20 i := by
  show V c main_v20 (((cfg1.win 0).blk t).view.emb (ix2 p j)) = V c main_v20 i
  refine congrArg (V c main_v20) ?_
  obtain ⟨e0a, e0b, e1a, e1b, e2a, e2b, e3a, e3b, e4a, e4b, e5a, e5b, e6a, e6b, e7a, e7b, e8a, e8b, e9a, e9b, e10a, e10b⟩ := idx_facts t
  funext a; apply Fin.ext
  match a with
  | ⟨0, _⟩ => show win1_0.index t (0 : Fin 2) * 5000 + 1 * p.val = (i 0).val; omega
  | ⟨1, _⟩ => show win1_0.index t (1 : Fin 2) * 128 + 1 * j.val = (i 1).val; omega

/-- Window 1's block at point t holds rows 5000·t … 5000·t + 4999 of its array. -/
theorem read1 (c : Dev nD) (t : Fin cfg1.N) (p : Fin 5000) (j : Fin 128) (i : S200000x128.Idx)
    (h0 : (i 0).val = t.val * 5000 + p.val) (h1 : (i 1).val = j.val) :
    iblk1 V c 1 t (ix2 p j) = V c main_v30 i := by
  show V c main_v30 (((cfg1.win 1).blk t).view.emb (ix2 p j)) = V c main_v30 i
  refine congrArg (V c main_v30) ?_
  obtain ⟨e0a, e0b, e1a, e1b, e2a, e2b, e3a, e3b, e4a, e4b, e5a, e5b, e6a, e6b, e7a, e7b, e8a, e8b, e9a, e9b, e10a, e10b⟩ := idx_facts t
  funext a; apply Fin.ext
  match a with
  | ⟨0, _⟩ => show win1_1.index t (0 : Fin 2) * 5000 + 1 * p.val = (i 0).val; omega
  | ⟨1, _⟩ => show win1_1.index t (1 : Fin 2) * 128 + 1 * j.val = (i 1).val; omega

/-- Window 2's block at every point is its whole [128, 128] array. -/
theorem read2 (c : Dev nD) (t : Fin cfg1.N) (j k : Fin 128) :
    iblk1 V c 2 t (ix2 j k) = V c main_arg11 (ix2 j k) := by
  show V c main_arg11 (((cfg1.win 2).blk t).view.emb (ix2 j k)) = V c main_arg11 (ix2 j k)
  refine congrArg (V c main_arg11) ?_
  obtain ⟨e0a, e0b, e1a, e1b, e2a, e2b, e3a, e3b, e4a, e4b, e5a, e5b, e6a, e6b, e7a, e7b, e8a, e8b, e9a, e9b, e10a, e10b⟩ := idx_facts t
  funext a; apply Fin.ext
  match a with
  | ⟨0, _⟩ => show win1_2.index t (0 : Fin 2) * 128 + 1 * j.val = j.val; omega
  | ⟨1, _⟩ => show win1_2.index t (1 : Fin 2) * 128 + 1 * k.val = k.val; omega

/-- Window 3's block at every point is its whole [1, 128] row. -/
theorem read3 (c : Dev nD) (t : Fin cfg1.N) (k : Fin 128) :
    iblk1 V c 3 t (ix2 (0 : Fin 1) k) = V c main_v31 (ix2 (0 : Fin 1) k) := by
  show V c main_v31 (((cfg1.win 3).blk t).view.emb (ix2 (0 : Fin 1) k)) = V c main_v31 (ix2 (0 : Fin 1) k)
  refine congrArg (V c main_v31) ?_
  obtain ⟨e0a, e0b, e1a, e1b, e2a, e2b, e3a, e3b, e4a, e4b, e5a, e5b, e6a, e6b, e7a, e7b, e8a, e8b, e9a, e9b, e10a, e10b⟩ := idx_facts t
  funext a; apply Fin.ext
  match a with
  | ⟨0, _⟩ => show win1_3.index t (0 : Fin 2) * 1 + 1 * 0 = 0; omega
  | ⟨1, _⟩ => show win1_3.index t (1 : Fin 2) * 128 + 1 * k.val = k.val; omega

/-- Window 4's block at every point is its whole [1, 128] row. -/
theorem read4 (c : Dev nD) (t : Fin cfg1.N) (k : Fin 128) :
    iblk1 V c 4 t (ix2 (0 : Fin 1) k) = V c main_v32 (ix2 (0 : Fin 1) k) := by
  show V c main_v32 (((cfg1.win 4).blk t).view.emb (ix2 (0 : Fin 1) k)) = V c main_v32 (ix2 (0 : Fin 1) k)
  refine congrArg (V c main_v32) ?_
  obtain ⟨e0a, e0b, e1a, e1b, e2a, e2b, e3a, e3b, e4a, e4b, e5a, e5b, e6a, e6b, e7a, e7b, e8a, e8b, e9a, e9b, e10a, e10b⟩ := idx_facts t
  funext a; apply Fin.ext
  match a with
  | ⟨0, _⟩ => show win1_4.index t (0 : Fin 2) * 1 + 1 * 0 = 0; omega
  | ⟨1, _⟩ => show win1_4.index t (1 : Fin 2) * 128 + 1 * k.val = k.val; omega

/-- Window 5's block at every point is its whole [1, 128] row. -/
theorem read5 (c : Dev nD) (t : Fin cfg1.N) (k : Fin 128) :
    iblk1 V c 5 t (ix2 (0 : Fin 1) k) = V c main_v33 (ix2 (0 : Fin 1) k) := by
  show V c main_v33 (((cfg1.win 5).blk t).view.emb (ix2 (0 : Fin 1) k)) = V c main_v33 (ix2 (0 : Fin 1) k)
  refine congrArg (V c main_v33) ?_
  obtain ⟨e0a, e0b, e1a, e1b, e2a, e2b, e3a, e3b, e4a, e4b, e5a, e5b, e6a, e6b, e7a, e7b, e8a, e8b, e9a, e9b, e10a, e10b⟩ := idx_facts t
  funext a; apply Fin.ext
  match a with
  | ⟨0, _⟩ => show win1_5.index t (0 : Fin 2) * 1 + 1 * 0 = 0; omega
  | ⟨1, _⟩ => show win1_5.index t (1 : Fin 2) * 128 + 1 * k.val = k.val; omega

/-- Window 6's block at every point is its whole [1, 128] row. -/
theorem read6 (c : Dev nD) (t : Fin cfg1.N) (k : Fin 128) :
    iblk1 V c 6 t (ix2 (0 : Fin 1) k) = V c main_v34 (ix2 (0 : Fin 1) k) := by
  show V c main_v34 (((cfg1.win 6).blk t).view.emb (ix2 (0 : Fin 1) k)) = V c main_v34 (ix2 (0 : Fin 1) k)
  refine congrArg (V c main_v34) ?_
  obtain ⟨e0a, e0b, e1a, e1b, e2a, e2b, e3a, e3b, e4a, e4b, e5a, e5b, e6a, e6b, e7a, e7b, e8a, e8b, e9a, e9b, e10a, e10b⟩ := idx_facts t
  funext a; apply Fin.ext
  match a with
  | ⟨0, _⟩ => show win1_6.index t (0 : Fin 2) * 1 + 1 * 0 = 0; omega
  | ⟨1, _⟩ => show win1_6.index t (1 : Fin 2) * 128 + 1 * k.val = k.val; omega

/-- Window 7's block at every point is its whole [1, 128] row. -/
theorem read7 (c : Dev nD) (t : Fin cfg1.N) (k : Fin 128) :
    iblk1 V c 7 t (ix2 (0 : Fin 1) k) = V c main_v35 (ix2 (0 : Fin 1) k) := by
  show V c main_v35 (((cfg1.win 7).blk t).view.emb (ix2 (0 : Fin 1) k)) = V c main_v35 (ix2 (0 : Fin 1) k)
  refine congrArg (V c main_v35) ?_
  obtain ⟨e0a, e0b, e1a, e1b, e2a, e2b, e3a, e3b, e4a, e4b, e5a, e5b, e6a, e6b, e7a, e7b, e8a, e8b, e9a, e9b, e10a, e10b⟩ := idx_facts t
  funext a; apply Fin.ext
  match a with
  | ⟨0, _⟩ => show win1_7.index t (0 : Fin 2) * 1 + 1 * 0 = 0; omega
  | ⟨1, _⟩ => show win1_7.index t (1 : Fin 2) * 128 + 1 * k.val = k.val; omega

/-- Window 8's block at every point is its whole [128, 128] array. -/
theorem read8 (c : Dev nD) (t : Fin cfg1.N) (j k : Fin 128) :
    iblk1 V c 8 t (ix2 j k) = V c main_arg17 (ix2 j k) := by
  show V c main_arg17 (((cfg1.win 8).blk t).view.emb (ix2 j k)) = V c main_arg17 (ix2 j k)
  refine congrArg (V c main_arg17) ?_
  obtain ⟨e0a, e0b, e1a, e1b, e2a, e2b, e3a, e3b, e4a, e4b, e5a, e5b, e6a, e6b, e7a, e7b, e8a, e8b, e9a, e9b, e10a, e10b⟩ := idx_facts t
  funext a; apply Fin.ext
  match a with
  | ⟨0, _⟩ => show win1_8.index t (0 : Fin 2) * 128 + 1 * j.val = j.val; omega
  | ⟨1, _⟩ => show win1_8.index t (1 : Fin 2) * 128 + 1 * k.val = k.val; omega

/-- Window 9's block at every point is its whole [1, 128] row. -/
theorem read9 (c : Dev nD) (t : Fin cfg1.N) (k : Fin 128) :
    iblk1 V c 9 t (ix2 (0 : Fin 1) k) = V c main_v36 (ix2 (0 : Fin 1) k) := by
  show V c main_v36 (((cfg1.win 9).blk t).view.emb (ix2 (0 : Fin 1) k)) = V c main_v36 (ix2 (0 : Fin 1) k)
  refine congrArg (V c main_v36) ?_
  obtain ⟨e0a, e0b, e1a, e1b, e2a, e2b, e3a, e3b, e4a, e4b, e5a, e5b, e6a, e6b, e7a, e7b, e8a, e8b, e9a, e9b, e10a, e10b⟩ := idx_facts t
  funext a; apply Fin.ext
  match a with
  | ⟨0, _⟩ => show win1_9.index t (0 : Fin 2) * 1 + 1 * 0 = 0; omega
  | ⟨1, _⟩ => show win1_9.index t (1 : Fin 2) * 128 + 1 * k.val = k.val; omega

/-- What point t writes back is block t of the layer of the arrays as the region finds them. -/
theorem flushed_eq (c : Dev nD) (t : Fin cfg1.N) :
    (dat1 V c).flushed 10 t = ((cfg1.win 10).blk t).view.read (Elt Ideal)
      (Layer (V c main_v20) (V c main_v30) (V c main_arg11) (rowOf (V c main_v31)) (rowOf (V c main_v34)) (rowOf (V c main_v35))
      (rowOf (V c main_v32)) (rowOf (V c main_v33)) (V c main_arg17) (rowOf (V c main_v36))) := by
  show (cfg1.win 10).cut (grid1.coords t) ((dat1 V c).after 10 t) = _
  rw [after1_10]
  unfold out1_10
  rw [View.canon_unit_zero hz]
  simp only [View.ld_unit_zero (S := S5000x128) hz, View.ld_unit_zero (S := S128x128) hz, View.ld_unit_zero (S := S1x128) hz]
  rw [body1_eq]
  obtain ⟨e0a, e0b, e1a, e1b, e2a, e2b, e3a, e3b, e4a, e4b, e5a, e5b, e6a, e6b, e7a, e7b, e8a, e8b, e9a, e9b, e10a, e10b⟩ := idx_facts t
  funext y
  have hp : (y 0).val < 5000 := (y 0).isLt
  have hq : (y 1).val < 128 := (y 1).isLt
  obtain ⟨p, q, hy0, hy1⟩ : ∃ (p : Fin 5000) (q : Fin 128), (y 0).val = p.val ∧ (y 1).val = q.val :=
    ⟨⟨_, hp⟩, ⟨_, hq⟩, rfl, rfl⟩
  have hj : (win1 10).xinj (grid1.coords t) y = ix2 p q := by
    funext a; apply Fin.ext
    match a with
    | ⟨0, _⟩ => exact hy0
    | ⟨1, _⟩ => exact hy1
  show blockFn (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) ((win1 10).xinj (grid1.coords t) y) = _
  rw [hj]
  refine (blockFn_apply (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) p q).trans ?_
  have hr : ((((cfg1.win 10).blk t).view.emb y) 0).val = t.val * 5000 + p.val := by
    show win1_10.index t (0 : Fin 2) * 5000 + 1 * (y 0).val = _; omega
  have hq' : (((cfg1.win 10).blk t).view.emb y) 1 = q := by
    apply Fin.ext; show win1_10.index t (1 : Fin 2) * 128 + 1 * (y 1).val = q.val; omega
  show _ = Layer (V c main_v20) (V c main_v30) (V c main_arg11) (rowOf (V c main_v31)) (rowOf (V c main_v34)) (rowOf (V c main_v35))
      (rowOf (V c main_v32)) (rowOf (V c main_v33)) (V c main_arg17) (rowOf (V c main_v36)) (((cfg1.win 10).blk t).view.emb y)
  rw [Layer_apply, hq']
  have h0 : ∀ j : Fin 128, iblk1 V c 0 t (ix2 p j) = V c main_v20 (ix2 ((((cfg1.win 10).blk t).view.emb y) 0) j) :=
    fun j => read0 V c t p j _ hr rfl
  have h1 : ∀ j : Fin 128, iblk1 V c 1 t (ix2 p j) = V c main_v30 (ix2 ((((cfg1.win 10).blk t).view.emb y) 0) j) :=
    fun j => read1 V c t p j _ hr rfl
  unfold rowOf
  simp only [h0, h1, read2 V c t, read3 V c t, read4 V c t, read5 V c t, read6 V c t, read7 V c t, read8 V c t, read9 V c t]

/-- An index of the output array is in point t's block iff each coordinate is in the block's range. -/
theorem mem_blk (t : Fin cfg1.N) (i : S200000x128.Idx) :
    i ∈ ((cfg1.win 10).blk t).view.set ↔ ∀ a : Fin 2, win1_10.index t a * S5000x128.size a ≤ (i a).val ∧ (i a).val < win1_10.index t a * S5000x128.size a + S5000x128.size a := by
  show i ∈ ((View.whole main_v37).slice (win1_10.rect t)).set ↔ _
  rw [View.set_slice_whole, Rect.mem_set_unit]
  exact Iff.rfl

/-- Row r of the output is in the block of point r / 5000. -/
theorem cover (i : S200000x128.Idx) :
    ∃ t : Fin cfg1.N, (cfg1.win 10).flush t = true ∧ i ∈ ((cfg1.win 10).blk t).view.set := by
  have hi0 : (i 0).val < 200000 := (i 0).isLt
  have hi1 : (i 1).val < 128 := (i 1).isLt
  obtain ⟨t, ht⟩ := idx_onto ⟨(i 0).val / 5000, by omega⟩
  have ht' : t.val = (i 0).val / 5000 := ht
  refine ⟨t, flush1_10 t, ?_⟩
  rw [mem_blk]
  obtain ⟨e0a, e0b, e1a, e1b, e2a, e2b, e3a, e3b, e4a, e4b, e5a, e5b, e6a, e6b, e7a, e7b, e8a, e8b, e9a, e9b, e10a, e10b⟩ := idx_facts t
  intro a
  match a with
  | ⟨0, _⟩ => show win1_10.index t (0 : Fin 2) * 5000 ≤ (i 0).val ∧ (i 0).val < win1_10.index t (0 : Fin 2) * 5000 + 5000; omega
  | ⟨1, _⟩ => show win1_10.index t (1 : Fin 2) * 128 ≤ (i 1).val ∧ (i 1).val < win1_10.index t (1 : Fin 2) * 128 + 128; omega

/-- THE OUTPUT ARRAY after the region: the layer of the arrays its windows read. -/
theorem arr (c : Dev nD) : (dat1 V c).arrAt 10 cfg1.N
    = Layer (V c main_v20) (V c main_v30) (V c main_arg11) (rowOf (V c main_v31)) (rowOf (V c main_v34)) (rowOf (V c main_v35))
      (rowOf (V c main_v32)) (rowOf (V c main_v33)) (V c main_arg17) (rowOf (V c main_v36)) :=
  (dat1 V c).arrAt_eq_of_cover 10 _ (fun t _ => flushed_eq V c t) cover

end Cert.KernelIdeal.Region1

end
-- ==== Proof.KRegion2.lean ====
/-
  Region 2 (the third layer's kernel) read as a value: whatever the TensorCore's buffers hold when the region is
  entered (`V`), the output array after the region is the GIN layer `Layer` of the arrays the region's windows read.
  The grid has 40 points; point t loads rows 5000·t … 5000·t + 4999 of the node array and of the neighbour sums, and
  the whole of the two weight matrices and six rows; it writes back the same 5000 rows of the output.  So block t of
  the output is the layer of block t of the inputs, row by row, and the 40 blocks tile the 200000 rows.
-/
import proofs.«109940_j16312285790930_1_alg».proof.Proof.Gen.KernelIdeal.Frame
import proofs.«109940_j16312285790930_1_alg».proof.Proof.KBody
import proofs.«109940_j16312285790930_1_alg».proof.Proof.KSpec

set_option maxRecDepth 16384

noncomputable section

namespace Cert.KernelIdeal.Region2

open Cert.KernelIdeal Cert.KernelIdeal.Gen Cert.KernelIdeal.Body Cert.KernelIdeal.Spec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the two row-blocked inputs and the output are at block (t, 0) at point t,
    every other window at block (0, 0). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0
    ∧ win2_9.index t (0 : Fin 2) = 0 ∧ win2_9.index t (1 : Fin 2) = 0
    ∧ win2_10.index t (0 : Fin 2) = t.val ∧ win2_10.index t (1 : Fin 2) = 0 :=
  (by decide +kernel : ∀ t : Fin grid2.N, _)

/-- Every one of the 40 row blocks is some point's. -/
theorem idx_onto : ∀ q0 : Fin 40, ∃ t : Fin cfg2.N, t.val = q0.val :=
  (by decide +kernel : ∀ q0 : Fin 40, ∃ t : Fin grid2.N, t.val = q0.val)

/-- Window 0's block at point t holds rows 5000·t … 5000·t + 4999 of its array. -/
theorem read0 (c : Dev nD) (t : Fin cfg2.N) (p : Fin 5000) (j : Fin 128) (i : S200000x128.Idx)
    (h0 : (i 0).val = t.val * 5000 + p.val) (h1 : (i 1).val = j.val) :
    iblk2 V c 0 t (ix2 p j) = V c main_v37 i := by
  show V c main_v37 (((cfg2.win 0).blk t).view.emb (ix2 p j)) = V c main_v37 i
  refine congrArg (V c main_v37) ?_
  obtain ⟨e0a, e0b, e1a, e1b, e2a, e2b, e3a, e3b, e4a, e4b, e5a, e5b, e6a, e6b, e7a, e7b, e8a, e8b, e9a, e9b, e10a, e10b⟩ := idx_facts t
  funext a; apply Fin.ext
  match a with
  | ⟨0, _⟩ => show win2_0.index t (0 : Fin 2) * 5000 + 1 * p.val = (i 0).val; omega
  | ⟨1, _⟩ => show win2_0.index t (1 : Fin 2) * 128 + 1 * j.val = (i 1).val; omega

/-- Window 1's block at point t holds rows 5000·t … 5000·t + 4999 of its array. -/
theorem read1 (c : Dev nD) (t : Fin cfg2.N) (p : Fin 5000) (j : Fin 128) (i : S200000x128.Idx)
    (h0 : (i 0).val = t.val * 5000 + p.val) (h1 : (i 1).val = j.val) :
    iblk2 V c 1 t (ix2 p j) = V c main_v47 i := by
  show V c main_v47 (((cfg2.win 1).blk t).view.emb (ix2 p j)) = V c main_v47 i
  refine congrArg (V c main_v47) ?_
  obtain ⟨e0a, e0b, e1a, e1b, e2a, e2b, e3a, e3b, e4a, e4b, e5a, e5b, e6a, e6b, e7a, e7b, e8a, e8b, e9a, e9b, e10a, e10b⟩ := idx_facts t
  funext a; apply Fin.ext
  match a with
  | ⟨0, _⟩ => show win2_1.index t (0 : Fin 2) * 5000 + 1 * p.val = (i 0).val; omega
  | ⟨1, _⟩ => show win2_1.index t (1 : Fin 2) * 128 + 1 * j.val = (i 1).val; omega

/-- Window 2's block at every point is its whole [128, 128] array. -/
theorem read2 (c : Dev nD) (t : Fin cfg2.N) (j k : Fin 128) :
    iblk2 V c 2 t (ix2 j k) = V c main_arg19 (ix2 j k) := by
  show V c main_arg19 (((cfg2.win 2).blk t).view.emb (ix2 j k)) = V c main_arg19 (ix2 j k)
  refine congrArg (V c main_arg19) ?_
  obtain ⟨e0a, e0b, e1a, e1b, e2a, e2b, e3a, e3b, e4a, e4b, e5a, e5b, e6a, e6b, e7a, e7b, e8a, e8b, e9a, e9b, e10a, e10b⟩ := idx_facts t
  funext a; apply Fin.ext
  match a with
  | ⟨0, _⟩ => show win2_2.index t (0 : Fin 2) * 128 + 1 * j.val = j.val; omega
  | ⟨1, _⟩ => show win2_2.index t (1 : Fin 2) * 128 + 1 * k.val = k.val; omega

/-- Window 3's block at every point is its whole [1, 128] row. -/
theorem read3 (c : Dev nD) (t : Fin cfg2.N) (k : Fin 128) :
    iblk2 V c 3 t (ix2 (0 : Fin 1) k) = V c main_v48 (ix2 (0 : Fin 1) k) := by
  show V c main_v48 (((cfg2.win 3).blk t).view.emb (ix2 (0 : Fin 1) k)) = V c main_v48 (ix2 (0 : Fin 1) k)
  refine congrArg (V c main_v48) ?_
  obtain ⟨e0a, e0b, e1a, e1b, e2a, e2b, e3a, e3b, e4a, e4b, e5a, e5b, e6a, e6b, e7a, e7b, e8a, e8b, e9a, e9b, e10a, e10b⟩ := idx_facts t
  funext a; apply Fin.ext
  match a with
  | ⟨0, _⟩ => show win2_3.index t (0 : Fin 2) * 1 + 1 * 0 = 0; omega
  | ⟨1, _⟩ => show win2_3.index t (1 : Fin 2) * 128 + 1 * k.val = k.val; omega

/-- Window 4's block at every point is its whole [1, 128] row. -/
theorem read4 (c : Dev nD) (t : Fin cfg2.N) (k : Fin 128) :
    iblk2 V c 4 t (ix2 (0 : Fin 1) k) = V c main_v49 (ix2 (0 : Fin 1) k) := by
  show V c main_v49 (((cfg2.win 4).blk t).view.emb (ix2 (0 : Fin 1) k)) = V c main_v49 (ix2 (0 : Fin 1) k)
  refine congrArg (V c main_v49) ?_
  obtain ⟨e0a, e0b, e1a, e1b, e2a, e2b, e3a, e3b, e4a, e4b, e5a, e5b, e6a, e6b, e7a, e7b, e8a, e8b, e9a, e9b, e10a, e10b⟩ := idx_facts t
  funext a; apply Fin.ext
  match a with
  | ⟨0, _⟩ => show win2_4.index t (0 : Fin 2) * 1 + 1 * 0 = 0; omega
  | ⟨1, _⟩ => show win2_4.index t (1 : Fin 2) * 128 + 1 * k.val = k.val; omega

/-- Window 5's block at every point is its whole [1, 128] row. -/
theorem read5 (c : Dev nD) (t : Fin cfg2.N) (k : Fin 128) :
    iblk2 V c 5 t (ix2 (0 : Fin 1) k) = V c main_v50 (ix2 (0 : Fin 1) k) := by
  show V c main_v50 (((cfg2.win 5).blk t).view.emb (ix2 (0 : Fin 1) k)) = V c main_v50 (ix2 (0 : Fin 1) k)
  refine congrArg (V c main_v50) ?_
  obtain ⟨e0a, e0b, e1a, e1b, e2a, e2b, e3a, e3b, e4a, e4b, e5a, e5b, e6a, e6b, e7a, e7b, e8a, e8b, e9a, e9b, e10a, e10b⟩ := idx_facts t
  funext a; apply Fin.ext
  match a with
  | ⟨0, _⟩ => show win2_5.index t (0 : Fin 2) * 1 + 1 * 0 = 0; omega
  | ⟨1, _⟩ => show win2_5.index t (1 : Fin 2) * 128 + 1 * k.val = k.val; omega

/-- Window 6's block at every point is its whole [1, 128] row. -/
theorem read6 (c : Dev nD) (t : Fin cfg2.N) (k : Fin 128) :
    iblk2 V c 6 t (ix2 (0 : Fin 1) k) = V c main_v51 (ix2 (0 : Fin 1) k) := by
  show V c main_v51 (((cfg2.win 6).blk t).view.emb (ix2 (0 : Fin 1) k)) = V c main_v51 (ix2 (0 : Fin 1) k)
  refine congrArg (V c main_v51) ?_
  obtain ⟨e0a, e0b, e1a, e1b, e2a, e2b, e3a, e3b, e4a, e4b, e5a, e5b, e6a, e6b, e7a, e7b, e8a, e8b, e9a, e9b, e10a, e10b⟩ := idx_facts t
  funext a; apply Fin.ext
  match a with
  | ⟨0, _⟩ => show win2_6.index t (0 : Fin 2) * 1 + 1 * 0 = 0; omega
  | ⟨1, _⟩ => show win2_6.index t (1 : Fin 2) * 128 + 1 * k.val = k.val; omega

/-- Window 7's block at every point is its whole [1, 128] row. -/
theorem read7 (c : Dev nD) (t : Fin cfg2.N) (k : Fin 128) :
    iblk2 V c 7 t (ix2 (0 : Fin 1) k) = V c main_v52 (ix2 (0 : Fin 1) k) := by
  show V c main_v52 (((cfg2.win 7).blk t).view.emb (ix2 (0 : Fin 1) k)) = V c main_v52 (ix2 (0 : Fin 1) k)
  refine congrArg (V c main_v52) ?_
  obtain ⟨e0a, e0b, e1a, e1b, e2a, e2b, e3a, e3b, e4a, e4b, e5a, e5b, e6a, e6b, e7a, e7b, e8a, e8b, e9a, e9b, e10a, e10b⟩ := idx_facts t
  funext a; apply Fin.ext
  match a with
  | ⟨0, _⟩ => show win2_7.index t (0 : Fin 2) * 1 + 1 * 0 = 0; omega
  | ⟨1, _⟩ => show win2_7.index t (1 : Fin 2) * 128 + 1 * k.val = k.val; omega

/-- Window 8's block at every point is its whole [128, 128] array. -/
theorem read8 (c : Dev nD) (t : Fin cfg2.N) (j k : Fin 128) :
    iblk2 V c 8 t (ix2 j k) = V c main_arg25 (ix2 j k) := by
  show V c main_arg25 (((cfg2.win 8).blk t).view.emb (ix2 j k)) = V c main_arg25 (ix2 j k)
  refine congrArg (V c main_arg25) ?_
  obtain ⟨e0a, e0b, e1a, e1b, e2a, e2b, e3a, e3b, e4a, e4b, e5a, e5b, e6a, e6b, e7a, e7b, e8a, e8b, e9a, e9b, e10a, e10b⟩ := idx_facts t
  funext a; apply Fin.ext
  match a with
  | ⟨0, _⟩ => show win2_8.index t (0 : Fin 2) * 128 + 1 * j.val = j.val; omega
  | ⟨1, _⟩ => show win2_8.index t (1 : Fin 2) * 128 + 1 * k.val = k.val; omega

/-- Window 9's block at every point is its whole [1, 128] row. -/
theorem read9 (c : Dev nD) (t : Fin cfg2.N) (k : Fin 128) :
    iblk2 V c 9 t (ix2 (0 : Fin 1) k) = V c main_v53 (ix2 (0 : Fin 1) k) := by
  show V c main_v53 (((cfg2.win 9).blk t).view.emb (ix2 (0 : Fin 1) k)) = V c main_v53 (ix2 (0 : Fin 1) k)
  refine congrArg (V c main_v53) ?_
  obtain ⟨e0a, e0b, e1a, e1b, e2a, e2b, e3a, e3b, e4a, e4b, e5a, e5b, e6a, e6b, e7a, e7b, e8a, e8b, e9a, e9b, e10a, e10b⟩ := idx_facts t
  funext a; apply Fin.ext
  match a with
  | ⟨0, _⟩ => show win2_9.index t (0 : Fin 2) * 1 + 1 * 0 = 0; omega
  | ⟨1, _⟩ => show win2_9.index t (1 : Fin 2) * 128 + 1 * k.val = k.val; omega

/-- What point t writes back is block t of the layer of the arrays as the region finds them. -/
theorem flushed_eq (c : Dev nD) (t : Fin cfg2.N) :
    (dat2 V c).flushed 10 t = ((cfg2.win 10).blk t).view.read (Elt Ideal)
      (Layer (V c main_v37) (V c main_v47) (V c main_arg19) (rowOf (V c main_v48)) (rowOf (V c main_v51)) (rowOf (V c main_v52))
      (rowOf (V c main_v49)) (rowOf (V c main_v50)) (V c main_arg25) (rowOf (V c main_v53))) := by
  show (cfg2.win 10).cut (grid2.coords t) ((dat2 V c).after 10 t) = _
  rw [after2_10]
  unfold out2_10
  rw [View.canon_unit_zero hz]
  simp only [View.ld_unit_zero (S := S5000x128) hz, View.ld_unit_zero (S := S128x128) hz, View.ld_unit_zero (S := S1x128) hz]
  rw [body2_eq]
  obtain ⟨e0a, e0b, e1a, e1b, e2a, e2b, e3a, e3b, e4a, e4b, e5a, e5b, e6a, e6b, e7a, e7b, e8a, e8b, e9a, e9b, e10a, e10b⟩ := idx_facts t
  funext y
  have hp : (y 0).val < 5000 := (y 0).isLt
  have hq : (y 1).val < 128 := (y 1).isLt
  obtain ⟨p, q, hy0, hy1⟩ : ∃ (p : Fin 5000) (q : Fin 128), (y 0).val = p.val ∧ (y 1).val = q.val :=
    ⟨⟨_, hp⟩, ⟨_, hq⟩, rfl, rfl⟩
  have hj : (win2 10).xinj (grid2.coords t) y = ix2 p q := by
    funext a; apply Fin.ext
    match a with
    | ⟨0, _⟩ => exact hy0
    | ⟨1, _⟩ => exact hy1
  show blockFn (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) ((win2 10).xinj (grid2.coords t) y) = _
  rw [hj]
  refine (blockFn_apply (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) p q).trans ?_
  have hr : ((((cfg2.win 10).blk t).view.emb y) 0).val = t.val * 5000 + p.val := by
    show win2_10.index t (0 : Fin 2) * 5000 + 1 * (y 0).val = _; omega
  have hq' : (((cfg2.win 10).blk t).view.emb y) 1 = q := by
    apply Fin.ext; show win2_10.index t (1 : Fin 2) * 128 + 1 * (y 1).val = q.val; omega
  show _ = Layer (V c main_v37) (V c main_v47) (V c main_arg19) (rowOf (V c main_v48)) (rowOf (V c main_v51)) (rowOf (V c main_v52))
      (rowOf (V c main_v49)) (rowOf (V c main_v50)) (V c main_arg25) (rowOf (V c main_v53)) (((cfg2.win 10).blk t).view.emb y)
  rw [Layer_apply, hq']
  have h0 : ∀ j : Fin 128, iblk2 V c 0 t (ix2 p j) = V c main_v37 (ix2 ((((cfg2.win 10).blk t).view.emb y) 0) j) :=
    fun j => read0 V c t p j _ hr rfl
  have h1 : ∀ j : Fin 128, iblk2 V c 1 t (ix2 p j) = V c main_v47 (ix2 ((((cfg2.win 10).blk t).view.emb y) 0) j) :=
    fun j => read1 V c t p j _ hr rfl
  unfold rowOf
  simp only [h0, h1, read2 V c t, read3 V c t, read4 V c t, read5 V c t, read6 V c t, read7 V c t, read8 V c t, read9 V c t]

/-- An index of the output array is in point t's block iff each coordinate is in the block's range. -/
theorem mem_blk (t : Fin cfg2.N) (i : S200000x128.Idx) :
    i ∈ ((cfg2.win 10).blk t).view.set ↔ ∀ a : Fin 2, win2_10.index t a * S5000x128.size a ≤ (i a).val ∧ (i a).val < win2_10.index t a * S5000x128.size a + S5000x128.size a := by
  show i ∈ ((View.whole main_v54).slice (win2_10.rect t)).set ↔ _
  rw [View.set_slice_whole, Rect.mem_set_unit]
  exact Iff.rfl

/-- Row r of the output is in the block of point r / 5000. -/
theorem cover (i : S200000x128.Idx) :
    ∃ t : Fin cfg2.N, (cfg2.win 10).flush t = true ∧ i ∈ ((cfg2.win 10).blk t).view.set := by
  have hi0 : (i 0).val < 200000 := (i 0).isLt
  have hi1 : (i 1).val < 128 := (i 1).isLt
  obtain ⟨t, ht⟩ := idx_onto ⟨(i 0).val / 5000, by omega⟩
  have ht' : t.val = (i 0).val / 5000 := ht
  refine ⟨t, flush2_10 t, ?_⟩
  rw [mem_blk]
  obtain ⟨e0a, e0b, e1a, e1b, e2a, e2b, e3a, e3b, e4a, e4b, e5a, e5b, e6a, e6b, e7a, e7b, e8a, e8b, e9a, e9b, e10a, e10b⟩ := idx_facts t
  intro a
  match a with
  | ⟨0, _⟩ => show win2_10.index t (0 : Fin 2) * 5000 ≤ (i 0).val ∧ (i 0).val < win2_10.index t (0 : Fin 2) * 5000 + 5000; omega
  | ⟨1, _⟩ => show win2_10.index t (1 : Fin 2) * 128 ≤ (i 1).val ∧ (i 1).val < win2_10.index t (1 : Fin 2) * 128 + 128; omega

/-- THE OUTPUT ARRAY after the region: the layer of the arrays its windows read. -/
theorem arr (c : Dev nD) : (dat2 V c).arrAt 10 cfg2.N
    = Layer (V c main_v37) (V c main_v47) (V c main_arg19) (rowOf (V c main_v48)) (rowOf (V c main_v51)) (rowOf (V c main_v52))
      (rowOf (V c main_v49)) (rowOf (V c main_v50)) (V c main_arg25) (rowOf (V c main_v53)) :=
  (dat2 V c).arrAt_eq_of_cover 10 _ (fun t _ => flushed_eq V c t) cover

end Cert.KernelIdeal.Region2

end
-- ==== Proof.KGlue.lean ====
/-
  The idealized kernel program's result as a function of its arguments.  The valuations `W0 … W7` at the program's seven
  segment boundaries are folded through one buffer at a time: a stretch of host operations rewrites the buffers it
  names (the neighbour sums of the current node rows, the six vectors of a layer as [1, 128] rows) and leaves the others;
  a kernel region rewrites its output array — to the GIN layer of the arrays its windows read — and leaves the others.
  So the three regions' outputs are the three layers, each of its predecessor's rows and of their neighbour sums, and
  the last stretch is the readout: the result is `Net` of the 29 arguments.
-/
import proofs.«109940_j16312285790930_1_alg».proof.Proof.Gen.KernelIdeal.Frame
import proofs.«109940_j16312285790930_1_alg».proof.Proof.KSpec
import proofs.«109940_j16312285790930_1_alg».proof.Proof.KRegion0
import proofs.«109940_j16312285790930_1_alg».proof.Proof.KRegion1
import proofs.«109940_j16312285790930_1_alg».proof.Proof.KRegion2
import Idealize.ShloMosaic.Lib.StableHlo.Run

set_option maxRecDepth 16384

noncomputable section

namespace Cert.KernelIdeal.Glue

open Cert.KernelIdeal Cert.KernelIdeal.Gen Cert.KernelIdeal.Spec
open Idealize.ShloMosaic Idealize.ShloMosaic.TcCoe Idealize.ShloMosaic.StableHlo Idealize.SL.Sem

variable (m : (ℓ : Loc nD τ sig) → Buf (Elt Ideal) ℓ) (ρ : Dev nD → PrngReg)

theorem W1_arg0 (c : Dev nD) : W1 m ρ c (Proc.devRef .tc main_arg0) = m ((c : Thread nD τ).loc main_arg0) :=
  (by show StableHlo.after hostOps0 (W0 m ρ c) (Proc.devRef .tc main_arg0) = m ((c : Thread nD τ).loc main_arg0); after_results_simp <;> rfl)

theorem W1_arg3 (c : Dev nD) : W1 m ρ c (Proc.devRef .tc main_arg3) = m ((c : Thread nD τ).loc main_arg3) :=
  (by show StableHlo.after hostOps0 (W0 m ρ c) (Proc.devRef .tc main_arg3) = m ((c : Thread nD τ).loc main_arg3); after_results_simp <;> rfl)

theorem W1_arg9 (c : Dev nD) : W1 m ρ c (Proc.devRef .tc main_arg9) = m ((c : Thread nD τ).loc main_arg9) :=
  (by show StableHlo.after hostOps0 (W0 m ρ c) (Proc.devRef .tc main_arg9) = m ((c : Thread nD τ).loc main_arg9); after_results_simp <;> rfl)

theorem W1_arg2 (c : Dev nD) : W1 m ρ c (Proc.devRef .tc main_arg2) = m ((c : Thread nD τ).loc main_arg2) :=
  (by show StableHlo.after hostOps0 (W0 m ρ c) (Proc.devRef .tc main_arg2) = m ((c : Thread nD τ).loc main_arg2); after_results_simp <;> rfl)

theorem W1_arg11 (c : Dev nD) : W1 m ρ c (Proc.devRef .tc main_arg11) = m ((c : Thread nD τ).loc main_arg11) :=
  (by show StableHlo.after hostOps0 (W0 m ρ c) (Proc.devRef .tc main_arg11) = m ((c : Thread nD τ).loc main_arg11); after_results_simp <;> rfl)

theorem W1_arg12 (c : Dev nD) : W1 m ρ c (Proc.devRef .tc main_arg12) = m ((c : Thread nD τ).loc main_arg12) :=
  (by show StableHlo.after hostOps0 (W0 m ρ c) (Proc.devRef .tc main_arg12) = m ((c : Thread nD τ).loc main_arg12); after_results_simp <;> rfl)

theorem W1_arg13 (c : Dev nD) : W1 m ρ c (Proc.devRef .tc main_arg13) = m ((c : Thread nD τ).loc main_arg13) :=
  (by show StableHlo.after hostOps0 (W0 m ρ c) (Proc.devRef .tc main_arg13) = m ((c : Thread nD τ).loc main_arg13); after_results_simp <;> rfl)

theorem W1_arg14 (c : Dev nD) : W1 m ρ c (Proc.devRef .tc main_arg14) = m ((c : Thread nD τ).loc main_arg14) :=
  (by show StableHlo.after hostOps0 (W0 m ρ c) (Proc.devRef .tc main_arg14) = m ((c : Thread nD τ).loc main_arg14); after_results_simp <;> rfl)

theorem W1_arg15 (c : Dev nD) : W1 m ρ c (Proc.devRef .tc main_arg15) = m ((c : Thread nD τ).loc main_arg15) :=
  (by show StableHlo.after hostOps0 (W0 m ρ c) (Proc.devRef .tc main_arg15) = m ((c : Thread nD τ).loc main_arg15); after_results_simp <;> rfl)

theorem W1_arg16 (c : Dev nD) : W1 m ρ c (Proc.devRef .tc main_arg16) = m ((c : Thread nD τ).loc main_arg16) :=
  (by show StableHlo.after hostOps0 (W0 m ρ c) (Proc.devRef .tc main_arg16) = m ((c : Thread nD τ).loc main_arg16); after_results_simp <;> rfl)

theorem W1_arg17 (c : Dev nD) : W1 m ρ c (Proc.devRef .tc main_arg17) = m ((c : Thread nD τ).loc main_arg17) :=
  (by show StableHlo.after hostOps0 (W0 m ρ c) (Proc.devRef .tc main_arg17) = m ((c : Thread nD τ).loc main_arg17); after_results_simp <;> rfl)

theorem W1_arg18 (c : Dev nD) : W1 m ρ c (Proc.devRef .tc main_arg18) = m ((c : Thread nD τ).loc main_arg18) :=
  (by show StableHlo.after hostOps0 (W0 m ρ c) (Proc.devRef .tc main_arg18) = m ((c : Thread nD τ).loc main_arg18); after_results_simp <;> rfl)

theorem W1_arg19 (c : Dev nD) : W1 m ρ c (Proc.devRef .tc main_arg19) = m ((c : Thread nD τ).loc main_arg19) :=
  (by show StableHlo.after hostOps0 (W0 m ρ c) (Proc.devRef .tc main_arg19) = m ((c : Thread nD τ).loc main_arg19); after_results_simp <;> rfl)

theorem W1_arg20 (c : Dev nD) : W1 m ρ c (Proc.devRef .tc main_arg20) = m ((c : Thread nD τ).loc main_arg20) :=
  (by show StableHlo.after hostOps0 (W0 m ρ c) (Proc.devRef .tc main_arg20) = m ((c : Thread nD τ).loc main_arg20); after_results_simp <;> rfl)

theorem W1_arg21 (c : Dev nD) : W1 m ρ c (Proc.devRef .tc main_arg21) = m ((c : Thread nD τ).loc main_arg21) :=
  (by show StableHlo.after hostOps0 (W0 m ρ c) (Proc.devRef .tc main_arg21) = m ((c : Thread nD τ).loc main_arg21); after_results_simp <;> rfl)

theorem W1_arg22 (c : Dev nD) : W1 m ρ c (Proc.devRef .tc main_arg22) = m ((c : Thread nD τ).loc main_arg22) :=
  (by show StableHlo.after hostOps0 (W0 m ρ c) (Proc.devRef .tc main_arg22) = m ((c : Thread nD τ).loc main_arg22); after_results_simp <;> rfl)

theorem W1_arg23 (c : Dev nD) : W1 m ρ c (Proc.devRef .tc main_arg23) = m ((c : Thread nD τ).loc main_arg23) :=
  (by show StableHlo.after hostOps0 (W0 m ρ c) (Proc.devRef .tc main_arg23) = m ((c : Thread nD τ).loc main_arg23); after_results_simp <;> rfl)

theorem W1_arg24 (c : Dev nD) : W1 m ρ c (Proc.devRef .tc main_arg24) = m ((c : Thread nD τ).loc main_arg24) :=
  (by show StableHlo.after hostOps0 (W0 m ρ c) (Proc.devRef .tc main_arg24) = m ((c : Thread nD τ).loc main_arg24); after_results_simp <;> rfl)

theorem W1_arg25 (c : Dev nD) : W1 m ρ c (Proc.devRef .tc main_arg25) = m ((c : Thread nD τ).loc main_arg25) :=
  (by show StableHlo.after hostOps0 (W0 m ρ c) (Proc.devRef .tc main_arg25) = m ((c : Thread nD τ).loc main_arg25); after_results_simp <;> rfl)

theorem W1_arg26 (c : Dev nD) : W1 m ρ c (Proc.devRef .tc main_arg26) = m ((c : Thread nD τ).loc main_arg26) :=
  (by show StableHlo.after hostOps0 (W0 m ρ c) (Proc.devRef .tc main_arg26) = m ((c : Thread nD τ).loc main_arg26); after_results_simp <;> rfl)

theorem W1_arg27 (c : Dev nD) : W1 m ρ c (Proc.devRef .tc main_arg27) = m ((c : Thread nD τ).loc main_arg27) :=
  (by show StableHlo.after hostOps0 (W0 m ρ c) (Proc.devRef .tc main_arg27) = m ((c : Thread nD τ).loc main_arg27); after_results_simp <;> rfl)

theorem W1_arg28 (c : Dev nD) : W1 m ρ c (Proc.devRef .tc main_arg28) = m ((c : Thread nD τ).loc main_arg28) :=
  (by show StableHlo.after hostOps0 (W0 m ρ c) (Proc.devRef .tc main_arg28) = m ((c : Thread nD τ).loc main_arg28); after_results_simp <;> rfl)

/-- The source vector is read off the edge list before the first layer. -/
theorem W1_v1 (c : Dev nD) : W1 m ρ c (Proc.devRef .tc main_v1) = srcOf (m ((c : Thread nD τ).loc main_arg1)) :=
  (by show StableHlo.after hostOps0 (W0 m ρ c) (Proc.devRef .tc main_v1) = srcOf (m ((c : Thread nD τ).loc main_arg1)); after_results_simp <;> rfl)

theorem W1_v3 (c : Dev nD) : W1 m ρ c (Proc.devRef .tc main_v3) = dstOf (m ((c : Thread nD τ).loc main_arg1)) :=
  (by show StableHlo.after hostOps0 (W0 m ρ c) (Proc.devRef .tc main_v3) = dstOf (m ((c : Thread nD τ).loc main_arg1)); after_results_simp <;> rfl)

/-- The first layer's neighbour sums are those of the input rows. -/
theorem W1_v13 (c : Dev nD) : W1 m ρ c (Proc.devRef .tc main_v13) = Aggr (srcOf (m ((c : Thread nD τ).loc main_arg1))) (dstOf (m ((c : Thread nD τ).loc main_arg1))) (m ((c : Thread nD τ).loc main_arg0)) :=
  (by show StableHlo.after hostOps0 (W0 m ρ c) (Proc.devRef .tc main_v13) = Aggr (srcOf (m ((c : Thread nD τ).loc main_arg1))) (dstOf (m ((c : Thread nD τ).loc main_arg1))) (m ((c : Thread nD τ).loc main_arg0)); after_results_simp <;> rfl)

theorem W1_v14 (c : Dev nD) : W1 m ρ c (Proc.devRef .tc main_v14) = shapeCast S1x128 (m ((c : Thread nD τ).loc main_arg4)) shapeCasts_S128_S1x128 :=
  (by show StableHlo.after hostOps0 (W0 m ρ c) (Proc.devRef .tc main_v14) = shapeCast S1x128 (m ((c : Thread nD τ).loc main_arg4)) shapeCasts_S128_S1x128; after_results_simp <;> rfl)

theorem W1_v15 (c : Dev nD) : W1 m ρ c (Proc.devRef .tc main_v15) = shapeCast S1x128 (m ((c : Thread nD τ).loc main_arg5)) shapeCasts_S128_S1x128 :=
  (by show StableHlo.after hostOps0 (W0 m ρ c) (Proc.devRef .tc main_v15) = shapeCast S1x128 (m ((c : Thread nD τ).loc main_arg5)) shapeCasts_S128_S1x128; after_results_simp <;> rfl)

theorem W1_v16 (c : Dev nD) : W1 m ρ c (Proc.devRef .tc main_v16) = shapeCast S1x128 (m ((c : Thread nD τ).loc main_arg6)) shapeCasts_S128_S1x128 :=
  (by show StableHlo.after hostOps0 (W0 m ρ c) (Proc.devRef .tc main_v16) = shapeCast S1x128 (m ((c : Thread nD τ).loc main_arg6)) shapeCasts_S128_S1x128; after_results_simp <;> rfl)

theorem W1_v17 (c : Dev nD) : W1 m ρ c (Proc.devRef .tc main_v17) = shapeCast S1x128 (m ((c : Thread nD τ).loc main_arg7)) shapeCasts_S128_S1x128 :=
  (by show StableHlo.after hostOps0 (W0 m ρ c) (Proc.devRef .tc main_v17) = shapeCast S1x128 (m ((c : Thread nD τ).loc main_arg7)) shapeCasts_S128_S1x128; after_results_simp <;> rfl)

theorem W1_v18 (c : Dev nD) : W1 m ρ c (Proc.devRef .tc main_v18) = shapeCast S1x128 (m ((c : Thread nD τ).loc main_arg8)) shapeCasts_S128_S1x128 :=
  (by show StableHlo.after hostOps0 (W0 m ρ c) (Proc.devRef .tc main_v18) = shapeCast S1x128 (m ((c : Thread nD τ).loc main_arg8)) shapeCasts_S128_S1x128; after_results_simp <;> rfl)

theorem W1_v19 (c : Dev nD) : W1 m ρ c (Proc.devRef .tc main_v19) = shapeCast S1x128 (m ((c : Thread nD τ).loc main_arg10)) shapeCasts_S128_S1x128 :=
  (by show StableHlo.after hostOps0 (W0 m ρ c) (Proc.devRef .tc main_v19) = shapeCast S1x128 (m ((c : Thread nD τ).loc main_arg10)) shapeCasts_S128_S1x128; after_results_simp <;> rfl)

set_option maxHeartbeats 1000000 in
/-- After the first kernel its output array holds the first layer of the input rows. -/
theorem W2_v20 (c : Dev nD) : W2 m ρ c (Proc.devRef .tc main_v20) = netStep (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  rw [show W2 m ρ c (Proc.devRef .tc main_v20) = (dat0 (V1 m ρ) c).arrAt 10 cfg0.N from W2_arr m ρ c 10, Region0.arr (V1 m ρ) c]
  rw [show V1 m ρ c main_arg0 = _ from W1_arg0 m ρ c, show V1 m ρ c main_v13 = _ from W1_v13 m ρ c, show V1 m ρ c main_arg3 = _ from W1_arg3 m ρ c,
    show V1 m ρ c main_v14 = _ from W1_v14 m ρ c, show V1 m ρ c main_v15 = _ from W1_v15 m ρ c, show V1 m ρ c main_v16 = _ from W1_v16 m ρ c,
    show V1 m ρ c main_v17 = _ from W1_v17 m ρ c, show V1 m ρ c main_v18 = _ from W1_v18 m ρ c, show V1 m ρ c main_arg9 = _ from W1_arg9 m ρ c,
    show V1 m ρ c main_v19 = _ from W1_v19 m ρ c]
  rw [rowOf_shapeCast (m ((c : Thread nD τ).loc main_arg4)) _, rowOf_shapeCast (m ((c : Thread nD τ).loc main_arg5)) _, rowOf_shapeCast (m ((c : Thread nD τ).loc main_arg6)) _, rowOf_shapeCast (m ((c : Thread nD τ).loc main_arg7)) _, rowOf_shapeCast (m ((c : Thread nD τ).loc main_arg8)) _, rowOf_shapeCast (m ((c : Thread nD τ).loc main_arg10)) _]
  rfl

theorem W2_v1 (c : Dev nD) : W2 m ρ c (Proc.devRef .tc main_v1) = srcOf (m ((c : Thread nD τ).loc main_arg1)) :=
  (W2_of_ne m ρ c main_v1 (by decide)).trans (W1_v1 m ρ c)

theorem W2_v3 (c : Dev nD) : W2 m ρ c (Proc.devRef .tc main_v3) = dstOf (m ((c : Thread nD τ).loc main_arg1)) :=
  (W2_of_ne m ρ c main_v3 (by decide)).trans (W1_v3 m ρ c)

theorem W2_arg2 (c : Dev nD) : W2 m ρ c (Proc.devRef .tc main_arg2) = m ((c : Thread nD τ).loc main_arg2) :=
  (W2_of_ne m ρ c main_arg2 (by decide)).trans (W1_arg2 m ρ c)

theorem W2_arg11 (c : Dev nD) : W2 m ρ c (Proc.devRef .tc main_arg11) = m ((c : Thread nD τ).loc main_arg11) :=
  (W2_of_ne m ρ c main_arg11 (by decide)).trans (W1_arg11 m ρ c)

theorem W2_arg12 (c : Dev nD) : W2 m ρ c (Proc.devRef .tc main_arg12) = m ((c : Thread nD τ).loc main_arg12) :=
  (W2_of_ne m ρ c main_arg12 (by decide)).trans (W1_arg12 m ρ c)

theorem W2_arg13 (c : Dev nD) : W2 m ρ c (Proc.devRef .tc main_arg13) = m ((c : Thread nD τ).loc main_arg13) :=
  (W2_of_ne m ρ c main_arg13 (by decide)).trans (W1_arg13 m ρ c)

theorem W2_arg14 (c : Dev nD) : W2 m ρ c (Proc.devRef .tc main_arg14) = m ((c : Thread nD τ).loc main_arg14) :=
  (W2_of_ne m ρ c main_arg14 (by decide)).trans (W1_arg14 m ρ c)

theorem W2_arg15 (c : Dev nD) : W2 m ρ c (Proc.devRef .tc main_arg15) = m ((c : Thread nD τ).loc main_arg15) :=
  (W2_of_ne m ρ c main_arg15 (by decide)).trans (W1_arg15 m ρ c)

theorem W2_arg16 (c : Dev nD) : W2 m ρ c (Proc.devRef .tc main_arg16) = m ((c : Thread nD τ).loc main_arg16) :=
  (W2_of_ne m ρ c main_arg16 (by decide)).trans (W1_arg16 m ρ c)

theorem W2_arg17 (c : Dev nD) : W2 m ρ c (Proc.devRef .tc main_arg17) = m ((c : Thread nD τ).loc main_arg17) :=
  (W2_of_ne m ρ c main_arg17 (by decide)).trans (W1_arg17 m ρ c)

theorem W2_arg18 (c : Dev nD) : W2 m ρ c (Proc.devRef .tc main_arg18) = m ((c : Thread nD τ).loc main_arg18) :=
  (W2_of_ne m ρ c main_arg18 (by decide)).trans (W1_arg18 m ρ c)

theorem W2_arg19 (c : Dev nD) : W2 m ρ c (Proc.devRef .tc main_arg19) = m ((c : Thread nD τ).loc main_arg19) :=
  (W2_of_ne m ρ c main_arg19 (by decide)).trans (W1_arg19 m ρ c)

theorem W2_arg20 (c : Dev nD) : W2 m ρ c (Proc.devRef .tc main_arg20) = m ((c : Thread nD τ).loc main_arg20) :=
  (W2_of_ne m ρ c main_arg20 (by decide)).trans (W1_arg20 m ρ c)

theorem W2_arg21 (c : Dev nD) : W2 m ρ c (Proc.devRef .tc main_arg21) = m ((c : Thread nD τ).loc main_arg21) :=
  (W2_of_ne m ρ c main_arg21 (by decide)).trans (W1_arg21 m ρ c)

theorem W2_arg22 (c : Dev nD) : W2 m ρ c (Proc.devRef .tc main_arg22) = m ((c : Thread nD τ).loc main_arg22) :=
  (W2_of_ne m ρ c main_arg22 (by decide)).trans (W1_arg22 m ρ c)

theorem W2_arg23 (c : Dev nD) : W2 m ρ c (Proc.devRef .tc main_arg23) = m ((c : Thread nD τ).loc main_arg23) :=
  (W2_of_ne m ρ c main_arg23 (by decide)).trans (W1_arg23 m ρ c)

theorem W2_arg24 (c : Dev nD) : W2 m ρ c (Proc.devRef .tc main_arg24) = m ((c : Thread nD τ).loc main_arg24) :=
  (W2_of_ne m ρ c main_arg24 (by decide)).trans (W1_arg24 m ρ c)

theorem W2_arg25 (c : Dev nD) : W2 m ρ c (Proc.devRef .tc main_arg25) = m ((c : Thread nD τ).loc main_arg25) :=
  (W2_of_ne m ρ c main_arg25 (by decide)).trans (W1_arg25 m ρ c)

theorem W2_arg26 (c : Dev nD) : W2 m ρ c (Proc.devRef .tc main_arg26) = m ((c : Thread nD τ).loc main_arg26) :=
  (W2_of_ne m ρ c main_arg26 (by decide)).trans (W1_arg26 m ρ c)

theorem W2_arg27 (c : Dev nD) : W2 m ρ c (Proc.devRef .tc main_arg27) = m ((c : Thread nD τ).loc main_arg27) :=
  (W2_of_ne m ρ c main_arg27 (by decide)).trans (W1_arg27 m ρ c)

theorem W2_arg28 (c : Dev nD) : W2 m ρ c (Proc.devRef .tc main_arg28) = m ((c : Thread nD τ).loc main_arg28) :=
  (W2_of_ne m ρ c main_arg28 (by decide)).trans (W1_arg28 m ρ c)

theorem W3_v1 (c : Dev nD) : W3 m ρ c (Proc.devRef .tc main_v1) = srcOf (m ((c : Thread nD τ).loc main_arg1)) :=
  Eq.trans (by show StableHlo.after hostOps1 (W2 m ρ c) (Proc.devRef .tc main_v1) = W2 m ρ c (Proc.devRef .tc main_v1); after_results_simp <;> rfl) (W2_v1 m ρ c)

theorem W3_v3 (c : Dev nD) : W3 m ρ c (Proc.devRef .tc main_v3) = dstOf (m ((c : Thread nD τ).loc main_arg1)) :=
  Eq.trans (by show StableHlo.after hostOps1 (W2 m ρ c) (Proc.devRef .tc main_v3) = W2 m ρ c (Proc.devRef .tc main_v3); after_results_simp <;> rfl) (W2_v3 m ρ c)

theorem W3_arg2 (c : Dev nD) : W3 m ρ c (Proc.devRef .tc main_arg2) = m ((c : Thread nD τ).loc main_arg2) :=
  Eq.trans (by show StableHlo.after hostOps1 (W2 m ρ c) (Proc.devRef .tc main_arg2) = W2 m ρ c (Proc.devRef .tc main_arg2); after_results_simp <;> rfl) (W2_arg2 m ρ c)

theorem W3_arg11 (c : Dev nD) : W3 m ρ c (Proc.devRef .tc main_arg11) = m ((c : Thread nD τ).loc main_arg11) :=
  Eq.trans (by show StableHlo.after hostOps1 (W2 m ρ c) (Proc.devRef .tc main_arg11) = W2 m ρ c (Proc.devRef .tc main_arg11); after_results_simp <;> rfl) (W2_arg11 m ρ c)

theorem W3_arg17 (c : Dev nD) : W3 m ρ c (Proc.devRef .tc main_arg17) = m ((c : Thread nD τ).loc main_arg17) :=
  Eq.trans (by show StableHlo.after hostOps1 (W2 m ρ c) (Proc.devRef .tc main_arg17) = W2 m ρ c (Proc.devRef .tc main_arg17); after_results_simp <;> rfl) (W2_arg17 m ρ c)

theorem W3_arg19 (c : Dev nD) : W3 m ρ c (Proc.devRef .tc main_arg19) = m ((c : Thread nD τ).loc main_arg19) :=
  Eq.trans (by show StableHlo.after hostOps1 (W2 m ρ c) (Proc.devRef .tc main_arg19) = W2 m ρ c (Proc.devRef .tc main_arg19); after_results_simp <;> rfl) (W2_arg19 m ρ c)

theorem W3_arg20 (c : Dev nD) : W3 m ρ c (Proc.devRef .tc main_arg20) = m ((c : Thread nD τ).loc main_arg20) :=
  Eq.trans (by show StableHlo.after hostOps1 (W2 m ρ c) (Proc.devRef .tc main_arg20) = W2 m ρ c (Proc.devRef .tc main_arg20); after_results_simp <;> rfl) (W2_arg20 m ρ c)

theorem W3_arg21 (c : Dev nD) : W3 m ρ c (Proc.devRef .tc main_arg21) = m ((c : Thread nD τ).loc main_arg21) :=
  Eq.trans (by show StableHlo.after hostOps1 (W2 m ρ c) (Proc.devRef .tc main_arg21) = W2 m ρ c (Proc.devRef .tc main_arg21); after_results_simp <;> rfl) (W2_arg21 m ρ c)

theorem W3_arg22 (c : Dev nD) : W3 m ρ c (Proc.devRef .tc main_arg22) = m ((c : Thread nD τ).loc main_arg22) :=
  Eq.trans (by show StableHlo.after hostOps1 (W2 m ρ c) (Proc.devRef .tc main_arg22) = W2 m ρ c (Proc.devRef .tc main_arg22); after_results_simp <;> rfl) (W2_arg22 m ρ c)

theorem W3_arg23 (c : Dev nD) : W3 m ρ c (Proc.devRef .tc main_arg23) = m ((c : Thread nD τ).loc main_arg23) :=
  Eq.trans (by show StableHlo.after hostOps1 (W2 m ρ c) (Proc.devRef .tc main_arg23) = W2 m ρ c (Proc.devRef .tc main_arg23); after_results_simp <;> rfl) (W2_arg23 m ρ c)

theorem W3_arg24 (c : Dev nD) : W3 m ρ c (Proc.devRef .tc main_arg24) = m ((c : Thread nD τ).loc main_arg24) :=
  Eq.trans (by show StableHlo.after hostOps1 (W2 m ρ c) (Proc.devRef .tc main_arg24) = W2 m ρ c (Proc.devRef .tc main_arg24); after_results_simp <;> rfl) (W2_arg24 m ρ c)

theorem W3_arg25 (c : Dev nD) : W3 m ρ c (Proc.devRef .tc main_arg25) = m ((c : Thread nD τ).loc main_arg25) :=
  Eq.trans (by show StableHlo.after hostOps1 (W2 m ρ c) (Proc.devRef .tc main_arg25) = W2 m ρ c (Proc.devRef .tc main_arg25); after_results_simp <;> rfl) (W2_arg25 m ρ c)

theorem W3_arg26 (c : Dev nD) : W3 m ρ c (Proc.devRef .tc main_arg26) = m ((c : Thread nD τ).loc main_arg26) :=
  Eq.trans (by show StableHlo.after hostOps1 (W2 m ρ c) (Proc.devRef .tc main_arg26) = W2 m ρ c (Proc.devRef .tc main_arg26); after_results_simp <;> rfl) (W2_arg26 m ρ c)

theorem W3_arg27 (c : Dev nD) : W3 m ρ c (Proc.devRef .tc main_arg27) = m ((c : Thread nD τ).loc main_arg27) :=
  Eq.trans (by show StableHlo.after hostOps1 (W2 m ρ c) (Proc.devRef .tc main_arg27) = W2 m ρ c (Proc.devRef .tc main_arg27); after_results_simp <;> rfl) (W2_arg27 m ρ c)

theorem W3_arg28 (c : Dev nD) : W3 m ρ c (Proc.devRef .tc main_arg28) = m ((c : Thread nD τ).loc main_arg28) :=
  Eq.trans (by show StableHlo.after hostOps1 (W2 m ρ c) (Proc.devRef .tc main_arg28) = W2 m ρ c (Proc.devRef .tc main_arg28); after_results_simp <;> rfl) (W2_arg28 m ρ c)

theorem W3_v20 (c : Dev nD) : W3 m ρ c (Proc.devRef .tc main_v20) = netStep (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  Eq.trans (by show StableHlo.after hostOps1 (W2 m ρ c) (Proc.devRef .tc main_v20) = W2 m ρ c (Proc.devRef .tc main_v20); after_results_simp <;> rfl) (W2_v20 m ρ c)

/-- The second layer's neighbour sums are those of the first layer's rows. -/
theorem W3_v30 (c : Dev nD) : W3 m ρ c (Proc.devRef .tc main_v30) = Aggr (srcOf (m ((c : Thread nD τ).loc main_arg1))) (dstOf (m ((c : Thread nD τ).loc main_arg1))) (netStep (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) :=
  Eq.trans (by show StableHlo.after hostOps1 (W2 m ρ c) (Proc.devRef .tc main_v30) = Aggr (W2 m ρ c (Proc.devRef .tc main_v1)) (W2 m ρ c (Proc.devRef .tc main_v3)) (W2 m ρ c (Proc.devRef .tc main_v20)); after_results_simp <;> rfl) (by rw [W2_v1 m ρ c, W2_v3 m ρ c, W2_v20 m ρ c])

theorem W3_v31 (c : Dev nD) : W3 m ρ c (Proc.devRef .tc main_v31) = shapeCast S1x128 (m ((c : Thread nD τ).loc main_arg12)) shapeCasts_S128_S1x128 :=
  Eq.trans (by show StableHlo.after hostOps1 (W2 m ρ c) (Proc.devRef .tc main_v31) = shapeCast S1x128 (W2 m ρ c (Proc.devRef .tc main_arg12)) shapeCasts_S128_S1x128; after_results_simp <;> rfl) (by rw [W2_arg12 m ρ c])

theorem W3_v32 (c : Dev nD) : W3 m ρ c (Proc.devRef .tc main_v32) = shapeCast S1x128 (m ((c : Thread nD τ).loc main_arg13)) shapeCasts_S128_S1x128 :=
  Eq.trans (by show StableHlo.after hostOps1 (W2 m ρ c) (Proc.devRef .tc main_v32) = shapeCast S1x128 (W2 m ρ c (Proc.devRef .tc main_arg13)) shapeCasts_S128_S1x128; after_results_simp <;> rfl) (by rw [W2_arg13 m ρ c])

theorem W3_v33 (c : Dev nD) : W3 m ρ c (Proc.devRef .tc main_v33) = shapeCast S1x128 (m ((c : Thread nD τ).loc main_arg14)) shapeCasts_S128_S1x128 :=
  Eq.trans (by show StableHlo.after hostOps1 (W2 m ρ c) (Proc.devRef .tc main_v33) = shapeCast S1x128 (W2 m ρ c (Proc.devRef .tc main_arg14)) shapeCasts_S128_S1x128; after_results_simp <;> rfl) (by rw [W2_arg14 m ρ c])

theorem W3_v34 (c : Dev nD) : W3 m ρ c (Proc.devRef .tc main_v34) = shapeCast S1x128 (m ((c : Thread nD τ).loc main_arg15)) shapeCasts_S128_S1x128 :=
  Eq.trans (by show StableHlo.after hostOps1 (W2 m ρ c) (Proc.devRef .tc main_v34) = shapeCast S1x128 (W2 m ρ c (Proc.devRef .tc main_arg15)) shapeCasts_S128_S1x128; after_results_simp <;> rfl) (by rw [W2_arg15 m ρ c])

theorem W3_v35 (c : Dev nD) : W3 m ρ c (Proc.devRef .tc main_v35) = shapeCast S1x128 (m ((c : Thread nD τ).loc main_arg16)) shapeCasts_S128_S1x128 :=
  Eq.trans (by show StableHlo.after hostOps1 (W2 m ρ c) (Proc.devRef .tc main_v35) = shapeCast S1x128 (W2 m ρ c (Proc.devRef .tc main_arg16)) shapeCasts_S128_S1x128; after_results_simp <;> rfl) (by rw [W2_arg16 m ρ c])

theorem W3_v36 (c : Dev nD) : W3 m ρ c (Proc.devRef .tc main_v36) = shapeCast S1x128 (m ((c : Thread nD τ).loc main_arg18)) shapeCasts_S128_S1x128 :=
  Eq.trans (by show StableHlo.after hostOps1 (W2 m ρ c) (Proc.devRef .tc main_v36) = shapeCast S1x128 (W2 m ρ c (Proc.devRef .tc main_arg18)) shapeCasts_S128_S1x128; after_results_simp <;> rfl) (by rw [W2_arg18 m ρ c])

set_option maxHeartbeats 1000000 in
/-- After the second kernel its output array holds the second layer of the first layer's rows. -/
theorem W4_v37 (c : Dev nD) : W4 m ρ c (Proc.devRef .tc main_v37) = netStep (netStep (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (m ((c : Thread nD τ).loc main_arg1)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) := by
  rw [show W4 m ρ c (Proc.devRef .tc main_v37) = (dat1 (V3 m ρ) c).arrAt 10 cfg1.N from W4_arr m ρ c 10, Region1.arr (V3 m ρ) c]
  rw [show V3 m ρ c main_v20 = _ from W3_v20 m ρ c, show V3 m ρ c main_v30 = _ from W3_v30 m ρ c, show V3 m ρ c main_arg11 = _ from W3_arg11 m ρ c,
    show V3 m ρ c main_v31 = _ from W3_v31 m ρ c, show V3 m ρ c main_v32 = _ from W3_v32 m ρ c, show V3 m ρ c main_v33 = _ from W3_v33 m ρ c,
    show V3 m ρ c main_v34 = _ from W3_v34 m ρ c, show V3 m ρ c main_v35 = _ from W3_v35 m ρ c, show V3 m ρ c main_arg17 = _ from W3_arg17 m ρ c,
    show V3 m ρ c main_v36 = _ from W3_v36 m ρ c]
  rw [rowOf_shapeCast (m ((c : Thread nD τ).loc main_arg12)) _, rowOf_shapeCast (m ((c : Thread nD τ).loc main_arg13)) _, rowOf_shapeCast (m ((c : Thread nD τ).loc main_arg14)) _, rowOf_shapeCast (m ((c : Thread nD τ).loc main_arg15)) _, rowOf_shapeCast (m ((c : Thread nD τ).loc main_arg16)) _, rowOf_shapeCast (m ((c : Thread nD τ).loc main_arg18)) _]
  rfl

theorem W4_v1 (c : Dev nD) : W4 m ρ c (Proc.devRef .tc main_v1) = srcOf (m ((c : Thread nD τ).loc main_arg1)) :=
  (W4_of_ne m ρ c main_v1 (by decide)).trans (W3_v1 m ρ c)

theorem W4_v3 (c : Dev nD) : W4 m ρ c (Proc.devRef .tc main_v3) = dstOf (m ((c : Thread nD τ).loc main_arg1)) :=
  (W4_of_ne m ρ c main_v3 (by decide)).trans (W3_v3 m ρ c)

theorem W4_arg2 (c : Dev nD) : W4 m ρ c (Proc.devRef .tc main_arg2) = m ((c : Thread nD τ).loc main_arg2) :=
  (W4_of_ne m ρ c main_arg2 (by decide)).trans (W3_arg2 m ρ c)

theorem W4_arg19 (c : Dev nD) : W4 m ρ c (Proc.devRef .tc main_arg19) = m ((c : Thread nD τ).loc main_arg19) :=
  (W4_of_ne m ρ c main_arg19 (by decide)).trans (W3_arg19 m ρ c)

theorem W4_arg20 (c : Dev nD) : W4 m ρ c (Proc.devRef .tc main_arg20) = m ((c : Thread nD τ).loc main_arg20) :=
  (W4_of_ne m ρ c main_arg20 (by decide)).trans (W3_arg20 m ρ c)

theorem W4_arg21 (c : Dev nD) : W4 m ρ c (Proc.devRef .tc main_arg21) = m ((c : Thread nD τ).loc main_arg21) :=
  (W4_of_ne m ρ c main_arg21 (by decide)).trans (W3_arg21 m ρ c)

theorem W4_arg22 (c : Dev nD) : W4 m ρ c (Proc.devRef .tc main_arg22) = m ((c : Thread nD τ).loc main_arg22) :=
  (W4_of_ne m ρ c main_arg22 (by decide)).trans (W3_arg22 m ρ c)

theorem W4_arg23 (c : Dev nD) : W4 m ρ c (Proc.devRef .tc main_arg23) = m ((c : Thread nD τ).loc main_arg23) :=
  (W4_of_ne m ρ c main_arg23 (by decide)).trans (W3_arg23 m ρ c)

theorem W4_arg24 (c : Dev nD) : W4 m ρ c (Proc.devRef .tc main_arg24) = m ((c : Thread nD τ).loc main_arg24) :=
  (W4_of_ne m ρ c main_arg24 (by decide)).trans (W3_arg24 m ρ c)

theorem W4_arg25 (c : Dev nD) : W4 m ρ c (Proc.devRef .tc main_arg25) = m ((c : Thread nD τ).loc main_arg25) :=
  (W4_of_ne m ρ c main_arg25 (by decide)).trans (W3_arg25 m ρ c)

theorem W4_arg26 (c : Dev nD) : W4 m ρ c (Proc.devRef .tc main_arg26) = m ((c : Thread nD τ).loc main_arg26) :=
  (W4_of_ne m ρ c main_arg26 (by decide)).trans (W3_arg26 m ρ c)

theorem W4_arg27 (c : Dev nD) : W4 m ρ c (Proc.devRef .tc main_arg27) = m ((c : Thread nD τ).loc main_arg27) :=
  (W4_of_ne m ρ c main_arg27 (by decide)).trans (W3_arg27 m ρ c)

theorem W4_arg28 (c : Dev nD) : W4 m ρ c (Proc.devRef .tc main_arg28) = m ((c : Thread nD τ).loc main_arg28) :=
  (W4_of_ne m ρ c main_arg28 (by decide)).trans (W3_arg28 m ρ c)

theorem W5_arg2 (c : Dev nD) : W5 m ρ c (Proc.devRef .tc main_arg2) = m ((c : Thread nD τ).loc main_arg2) :=
  Eq.trans (by show StableHlo.after hostOps2 (W4 m ρ c) (Proc.devRef .tc main_arg2) = W4 m ρ c (Proc.devRef .tc main_arg2); after_results_simp <;> rfl) (W4_arg2 m ρ c)

theorem W5_arg19 (c : Dev nD) : W5 m ρ c (Proc.devRef .tc main_arg19) = m ((c : Thread nD τ).loc main_arg19) :=
  Eq.trans (by show StableHlo.after hostOps2 (W4 m ρ c) (Proc.devRef .tc main_arg19) = W4 m ρ c (Proc.devRef .tc main_arg19); after_results_simp <;> rfl) (W4_arg19 m ρ c)

theorem W5_arg25 (c : Dev nD) : W5 m ρ c (Proc.devRef .tc main_arg25) = m ((c : Thread nD τ).loc main_arg25) :=
  Eq.trans (by show StableHlo.after hostOps2 (W4 m ρ c) (Proc.devRef .tc main_arg25) = W4 m ρ c (Proc.devRef .tc main_arg25); after_results_simp <;> rfl) (W4_arg25 m ρ c)

theorem W5_arg27 (c : Dev nD) : W5 m ρ c (Proc.devRef .tc main_arg27) = m ((c : Thread nD τ).loc main_arg27) :=
  Eq.trans (by show StableHlo.after hostOps2 (W4 m ρ c) (Proc.devRef .tc main_arg27) = W4 m ρ c (Proc.devRef .tc main_arg27); after_results_simp <;> rfl) (W4_arg27 m ρ c)

theorem W5_arg28 (c : Dev nD) : W5 m ρ c (Proc.devRef .tc main_arg28) = m ((c : Thread nD τ).loc main_arg28) :=
  Eq.trans (by show StableHlo.after hostOps2 (W4 m ρ c) (Proc.devRef .tc main_arg28) = W4 m ρ c (Proc.devRef .tc main_arg28); after_results_simp <;> rfl) (W4_arg28 m ρ c)

theorem W5_v37 (c : Dev nD) : W5 m ρ c (Proc.devRef .tc main_v37) = netStep (netStep (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (m ((c : Thread nD τ).loc main_arg1)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) :=
  Eq.trans (by show StableHlo.after hostOps2 (W4 m ρ c) (Proc.devRef .tc main_v37) = W4 m ρ c (Proc.devRef .tc main_v37); after_results_simp <;> rfl) (W4_v37 m ρ c)

/-- The third layer's neighbour sums are those of the second layer's rows. -/
theorem W5_v47 (c : Dev nD) : W5 m ρ c (Proc.devRef .tc main_v47) = Aggr (srcOf (m ((c : Thread nD τ).loc main_arg1))) (dstOf (m ((c : Thread nD τ).loc main_arg1))) (netStep (netStep (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (m ((c : Thread nD τ).loc main_arg1)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))) :=
  Eq.trans (by show StableHlo.after hostOps2 (W4 m ρ c) (Proc.devRef .tc main_v47) = Aggr (W4 m ρ c (Proc.devRef .tc main_v1)) (W4 m ρ c (Proc.devRef .tc main_v3)) (W4 m ρ c (Proc.devRef .tc main_v37)); after_results_simp <;> rfl) (by rw [W4_v1 m ρ c, W4_v3 m ρ c, W4_v37 m ρ c])

theorem W5_v48 (c : Dev nD) : W5 m ρ c (Proc.devRef .tc main_v48) = shapeCast S1x128 (m ((c : Thread nD τ).loc main_arg20)) shapeCasts_S128_S1x128 :=
  Eq.trans (by show StableHlo.after hostOps2 (W4 m ρ c) (Proc.devRef .tc main_v48) = shapeCast S1x128 (W4 m ρ c (Proc.devRef .tc main_arg20)) shapeCasts_S128_S1x128; after_results_simp <;> rfl) (by rw [W4_arg20 m ρ c])

theorem W5_v49 (c : Dev nD) : W5 m ρ c (Proc.devRef .tc main_v49) = shapeCast S1x128 (m ((c : Thread nD τ).loc main_arg21)) shapeCasts_S128_S1x128 :=
  Eq.trans (by show StableHlo.after hostOps2 (W4 m ρ c) (Proc.devRef .tc main_v49) = shapeCast S1x128 (W4 m ρ c (Proc.devRef .tc main_arg21)) shapeCasts_S128_S1x128; after_results_simp <;> rfl) (by rw [W4_arg21 m ρ c])

theorem W5_v50 (c : Dev nD) : W5 m ρ c (Proc.devRef .tc main_v50) = shapeCast S1x128 (m ((c : Thread nD τ).loc main_arg22)) shapeCasts_S128_S1x128 :=
  Eq.trans (by show StableHlo.after hostOps2 (W4 m ρ c) (Proc.devRef .tc main_v50) = shapeCast S1x128 (W4 m ρ c (Proc.devRef .tc main_arg22)) shapeCasts_S128_S1x128; after_results_simp <;> rfl) (by rw [W4_arg22 m ρ c])

theorem W5_v51 (c : Dev nD) : W5 m ρ c (Proc.devRef .tc main_v51) = shapeCast S1x128 (m ((c : Thread nD τ).loc main_arg23)) shapeCasts_S128_S1x128 :=
  Eq.trans (by show StableHlo.after hostOps2 (W4 m ρ c) (Proc.devRef .tc main_v51) = shapeCast S1x128 (W4 m ρ c (Proc.devRef .tc main_arg23)) shapeCasts_S128_S1x128; after_results_simp <;> rfl) (by rw [W4_arg23 m ρ c])

theorem W5_v52 (c : Dev nD) : W5 m ρ c (Proc.devRef .tc main_v52) = shapeCast S1x128 (m ((c : Thread nD τ).loc main_arg24)) shapeCasts_S128_S1x128 :=
  Eq.trans (by show StableHlo.after hostOps2 (W4 m ρ c) (Proc.devRef .tc main_v52) = shapeCast S1x128 (W4 m ρ c (Proc.devRef .tc main_arg24)) shapeCasts_S128_S1x128; after_results_simp <;> rfl) (by rw [W4_arg24 m ρ c])

theorem W5_v53 (c : Dev nD) : W5 m ρ c (Proc.devRef .tc main_v53) = shapeCast S1x128 (m ((c : Thread nD τ).loc main_arg26)) shapeCasts_S128_S1x128 :=
  Eq.trans (by show StableHlo.after hostOps2 (W4 m ρ c) (Proc.devRef .tc main_v53) = shapeCast S1x128 (W4 m ρ c (Proc.devRef .tc main_arg26)) shapeCasts_S128_S1x128; after_results_simp <;> rfl) (by rw [W4_arg26 m ρ c])

set_option maxHeartbeats 1000000 in
/-- After the third kernel its output array holds the third layer of the second layer's rows. -/
theorem W6_v54 (c : Dev nD) : W6 m ρ c (Proc.devRef .tc main_v54) = netStep (netStep (netStep (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (m ((c : Thread nD τ).loc main_arg1)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))) (m ((c : Thread nD τ).loc main_arg1)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) := by
  rw [show W6 m ρ c (Proc.devRef .tc main_v54) = (dat2 (V5 m ρ) c).arrAt 10 cfg2.N from W6_arr m ρ c 10, Region2.arr (V5 m ρ) c]
  rw [show V5 m ρ c main_v37 = _ from W5_v37 m ρ c, show V5 m ρ c main_v47 = _ from W5_v47 m ρ c, show V5 m ρ c main_arg19 = _ from W5_arg19 m ρ c,
    show V5 m ρ c main_v48 = _ from W5_v48 m ρ c, show V5 m ρ c main_v49 = _ from W5_v49 m ρ c, show V5 m ρ c main_v50 = _ from W5_v50 m ρ c,
    show V5 m ρ c main_v51 = _ from W5_v51 m ρ c, show V5 m ρ c main_v52 = _ from W5_v52 m ρ c, show V5 m ρ c main_arg25 = _ from W5_arg25 m ρ c,
    show V5 m ρ c main_v53 = _ from W5_v53 m ρ c]
  rw [rowOf_shapeCast (m ((c : Thread nD τ).loc main_arg20)) _, rowOf_shapeCast (m ((c : Thread nD τ).loc main_arg21)) _, rowOf_shapeCast (m ((c : Thread nD τ).loc main_arg22)) _, rowOf_shapeCast (m ((c : Thread nD τ).loc main_arg23)) _, rowOf_shapeCast (m ((c : Thread nD τ).loc main_arg24)) _, rowOf_shapeCast (m ((c : Thread nD τ).loc main_arg26)) _]
  rfl

theorem W6_arg2 (c : Dev nD) : W6 m ρ c (Proc.devRef .tc main_arg2) = m ((c : Thread nD τ).loc main_arg2) :=
  (W6_of_ne m ρ c main_arg2 (by decide)).trans (W5_arg2 m ρ c)

theorem W6_arg27 (c : Dev nD) : W6 m ρ c (Proc.devRef .tc main_arg27) = m ((c : Thread nD τ).loc main_arg27) :=
  (W6_of_ne m ρ c main_arg27 (by decide)).trans (W5_arg27 m ρ c)

theorem W6_arg28 (c : Dev nD) : W6 m ρ c (Proc.devRef .tc main_arg28) = m ((c : Thread nD τ).loc main_arg28) :=
  (W6_of_ne m ρ c main_arg28 (by decide)).trans (W5_arg28 m ρ c)

/-- THE RESULT: the last valuation has the result buffer at the network of the 29 argument arrays as launched. -/
theorem value (c : Dev nD) : W7 m ρ c (Proc.devRef .tc main_v61) = Net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) :=
  Eq.trans (by show StableHlo.after hostOps3 (W6 m ρ c) (Proc.devRef .tc main_v61) = Tail (W6 m ρ c (Proc.devRef .tc main_arg2)) (W6 m ρ c (Proc.devRef .tc main_arg27)) (W6 m ρ c (Proc.devRef .tc main_arg28)) (W6 m ρ c (Proc.devRef .tc main_v54)); after_results_simp <;> rfl) (by rw [W6_arg2 m ρ c, W6_arg27 m ρ c, W6_arg28 m ρ c, W6_v54 m ρ c]; rfl)

end Cert.KernelIdeal.Glue

end
-- ==== Proof.RefValue.lean ====
/-
  The idealized reference as a function of its arguments.  Its result term is read one operation at a time (the
  generated read-at-an-index lemmas): each of its three layers is, index by index, the layer function of the previous
  layer's rows and of their neighbour sums — the matrix products as sums over the 128 inner indices, the six vectors
  broadcast along the rows — and what surrounds the layers (the neighbour sums, the readout) are the same host
  operations the kernel program applies, carried as the opaque functions `Aggr` and `Tail`.
-/
import proofs.«109940_j16312285790930_1_alg».proof.Proof.Gen.ReferenceIdeal.Read
import proofs.«109940_j16312285790930_1_alg».proof.Proof.KSpec

set_option maxRecDepth 16384

noncomputable section

namespace Cert.ReferenceIdeal.RefValue

open Cert.ReferenceIdeal Cert.ReferenceIdeal.Gen Cert.ReferenceIdeal.Read Cert.KernelIdeal.Spec
open Idealize.ShloMosaic Idealize.ShloMosaic.TcCoe Idealize.ShloMosaic.ValueIdx Idealize.SL.Sem

/-! ## Layer 1 -/

theorem lidxA_1 (r : Fin 200000) (q k : Fin 128) : lidx_main_v35 (ix2 r q) k = ix2 r k :=
  funext fun a => match a with | ⟨0, _⟩ => rfl | ⟨1, _⟩ => rfl
theorem ridxA_1 (r : Fin 200000) (q k : Fin 128) : ridx_main_v35 (ix2 r q) k = ix2 k q :=
  funext fun a => match a with | ⟨0, _⟩ => rfl | ⟨1, _⟩ => rfl
theorem lidxB_1 (r : Fin 200000) (k j : Fin 128) : lidx_main_v15 (ix2 r k) j = ix2 r j :=
  funext fun a => match a with | ⟨0, _⟩ => rfl | ⟨1, _⟩ => rfl
theorem ridxB_1 (r : Fin 200000) (k j : Fin 128) : ridx_main_v15 (ix2 r k) j = ix2 j k :=
  funext fun a => match a with | ⟨0, _⟩ => rfl | ⟨1, _⟩ => rfl
theorem eb1_1 (r : Fin 200000) (k : Fin 128) : idx_main_v16 (idx_main_v17 (ix2 r k)) = ix1 k :=
  funext fun a => match a with | ⟨0, _⟩ => rfl
theorem emu_1 (r : Fin 200000) (k : Fin 128) : idx_main_v19 (idx_main_v20 (ix2 r k)) = ix1 k :=
  funext fun a => match a with | ⟨0, _⟩ => rfl
theorem eva_1 (r : Fin 200000) (k : Fin 128) : idx_main_v25 (idx_main_v26 (ix2 r k)) = ix1 k :=
  funext fun a => match a with | ⟨0, _⟩ => rfl
theorem ega_1 (r : Fin 200000) (k : Fin 128) : idx_main_v28 (idx_main_v29 (ix2 r k)) = ix1 k :=
  funext fun a => match a with | ⟨0, _⟩ => rfl
theorem ebe_1 (r : Fin 200000) (k : Fin 128) : idx_main_v31 (idx_main_v32 (ix2 r k)) = ix1 k :=
  funext fun a => match a with | ⟨0, _⟩ => rfl
theorem eb2_1 (r : Fin 200000) (k : Fin 128) : idx_main_v36 (idx_main_v37 (ix2 r k)) = ix1 k :=
  funext fun a => match a with | ⟨0, _⟩ => rfl

/-- The neighbour sums the reference feeds layer 1 are `Aggr` of the input rows: the same host operations. -/
theorem aggr_1 (x0 : (⟨S200000x128, .f32⟩ : BufTy).Contents (Elt Ideal)) (x1 : (⟨S2x400000, .i32⟩ : BufTy).Contents (Elt Ideal))  :
    val_main_v13 (F := Ideal) x0 x1 = Aggr (srcOf x1) (dstOf x1) x0 := rfl

/-- The reference's layer 1, read index by index through its operations, is the layer function of
    the input rows and their neighbour sums (its second rectifier changes nothing). -/
theorem layer_1 (x0 : (⟨S200000x128, .f32⟩ : BufTy).Contents (Elt Ideal)) (x1 : (⟨S2x400000, .i32⟩ : BufTy).Contents (Elt Ideal)) (x3 : (⟨S128x128, .f32⟩ : BufTy).Contents (Elt Ideal)) (x4 x5 x6 x7 x8 : (⟨S128, .f32⟩ : BufTy).Contents (Elt Ideal)) (x9 : (⟨S128x128, .f32⟩ : BufTy).Contents (Elt Ideal)) (x10 : (⟨S128, .f32⟩ : BufTy).Contents (Elt Ideal)) :
    val_main_v40 (F := Ideal) x0 x1 x3 x4 x5 x6 x7 x8 x9 x10
      = netStep x0 x1 x3 x4 x5 x6 x7 x8 x9 x10 := by
  funext i
  obtain ⟨r, q, rfl⟩ : ∃ (r : Fin 200000) (q : Fin 128), i = ix2 r q := ⟨i 0, i 1, eq_ix2 i⟩
  rw [val_main_v40_apply, val_main_v39_apply, val_main_v38_apply, val_main_v35_apply]
  simp only [lidxA_1, ridxA_1, val_main_v34_apply, val_main_v33_apply, val_main_v30_apply, val_main_v27_apply, val_main_v21_apply, val_main_v18_apply, val_main_v15_apply, val_main_v14_apply, val_main_v17_apply, val_main_v16_apply, val_main_v20_apply, val_main_v19_apply, val_main_v26_apply, val_main_v25_apply, val_main_v24_apply, val_main_v23_apply, val_main_v22_apply, val_main_v29_apply, val_main_v28_apply, val_main_v32_apply, val_main_v31_apply, val_main_v37_apply, val_main_v36_apply,
    val_main_cst_1_apply, val_main_call0_v0_apply, val_main_call0_cst_apply, val_main_call1_v0_apply, val_main_call1_cst_apply, val_main_call2_v0_apply, val_main_call2_cst_apply,
    lidxB_1, ridxB_1, eb1_1, emu_1, eva_1, ega_1, ebe_1, eb2_1, aggr_1,
    Ideal.addf_def, Ideal.subf_def, Ideal.mulf_def, Ideal.maximumf_def, Ideal.hostUnary_rsqrt_def, Ideal.ofBits_def]
  rw [Cert.Gin.max_max_self]
  rfl

/-! ## Layer 2 -/

theorem lidxA_2 (r : Fin 200000) (q k : Fin 128) : lidx_main_v72 (ix2 r q) k = ix2 r k :=
  funext fun a => match a with | ⟨0, _⟩ => rfl | ⟨1, _⟩ => rfl
theorem ridxA_2 (r : Fin 200000) (q k : Fin 128) : ridx_main_v72 (ix2 r q) k = ix2 k q :=
  funext fun a => match a with | ⟨0, _⟩ => rfl | ⟨1, _⟩ => rfl
theorem lidxB_2 (r : Fin 200000) (k j : Fin 128) : lidx_main_v52 (ix2 r k) j = ix2 r j :=
  funext fun a => match a with | ⟨0, _⟩ => rfl | ⟨1, _⟩ => rfl
theorem ridxB_2 (r : Fin 200000) (k j : Fin 128) : ridx_main_v52 (ix2 r k) j = ix2 j k :=
  funext fun a => match a with | ⟨0, _⟩ => rfl | ⟨1, _⟩ => rfl
theorem eb1_2 (r : Fin 200000) (k : Fin 128) : idx_main_v53 (idx_main_v54 (ix2 r k)) = ix1 k :=
  funext fun a => match a with | ⟨0, _⟩ => rfl
theorem emu_2 (r : Fin 200000) (k : Fin 128) : idx_main_v56 (idx_main_v57 (ix2 r k)) = ix1 k :=
  funext fun a => match a with | ⟨0, _⟩ => rfl
theorem eva_2 (r : Fin 200000) (k : Fin 128) : idx_main_v62 (idx_main_v63 (ix2 r k)) = ix1 k :=
  funext fun a => match a with | ⟨0, _⟩ => rfl
theorem ega_2 (r : Fin 200000) (k : Fin 128) : idx_main_v65 (idx_main_v66 (ix2 r k)) = ix1 k :=
  funext fun a => match a with | ⟨0, _⟩ => rfl
theorem ebe_2 (r : Fin 200000) (k : Fin 128) : idx_main_v68 (idx_main_v69 (ix2 r k)) = ix1 k :=
  funext fun a => match a with | ⟨0, _⟩ => rfl
theorem eb2_2 (r : Fin 200000) (k : Fin 128) : idx_main_v73 (idx_main_v74 (ix2 r k)) = ix1 k :=
  funext fun a => match a with | ⟨0, _⟩ => rfl

/-- The neighbour sums the reference feeds layer 2 are `Aggr` of the previous layer's rows: the same host operations. -/
theorem aggr_2 (x0 : (⟨S200000x128, .f32⟩ : BufTy).Contents (Elt Ideal)) (x1 : (⟨S2x400000, .i32⟩ : BufTy).Contents (Elt Ideal)) (x3 : (⟨S128x128, .f32⟩ : BufTy).Contents (Elt Ideal)) (x4 x5 x6 x7 x8 : (⟨S128, .f32⟩ : BufTy).Contents (Elt Ideal)) (x9 : (⟨S128x128, .f32⟩ : BufTy).Contents (Elt Ideal)) (x10 : (⟨S128, .f32⟩ : BufTy).Contents (Elt Ideal)) :
    val_main_v50 (F := Ideal) x0 x1 x3 x4 x5 x6 x7 x8 x9 x10 = Aggr (srcOf x1) (dstOf x1) (val_main_v40 (F := Ideal) x0 x1 x3 x4 x5 x6 x7 x8 x9 x10) := rfl

/-- The reference's layer 2, read index by index through its operations, is the layer function of
    the previous layer's rows and their neighbour sums (its second rectifier changes nothing). -/
theorem layer_2 (x0 : (⟨S200000x128, .f32⟩ : BufTy).Contents (Elt Ideal)) (x1 : (⟨S2x400000, .i32⟩ : BufTy).Contents (Elt Ideal)) (x3 : (⟨S128x128, .f32⟩ : BufTy).Contents (Elt Ideal)) (x4 x5 x6 x7 x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 x13 x14 x15 x16 : (⟨S128, .f32⟩ : BufTy).Contents (Elt Ideal)) (x17 : (⟨S128x128, .f32⟩ : BufTy).Contents (Elt Ideal)) (x18 : (⟨S128, .f32⟩ : BufTy).Contents (Elt Ideal)) :
    val_main_v77 (F := Ideal) x0 x1 x3 x4 x5 x6 x7 x8 x9 x10 x11 x12 x13 x14 x15 x16 x17 x18
      = netStep (val_main_v40 (F := Ideal) x0 x1 x3 x4 x5 x6 x7 x8 x9 x10) x1 x11 x12 x13 x14 x15 x16 x17 x18 := by
  funext i
  obtain ⟨r, q, rfl⟩ : ∃ (r : Fin 200000) (q : Fin 128), i = ix2 r q := ⟨i 0, i 1, eq_ix2 i⟩
  rw [val_main_v77_apply, val_main_v76_apply, val_main_v75_apply, val_main_v72_apply]
  simp only [lidxA_2, ridxA_2, val_main_v71_apply, val_main_v70_apply, val_main_v67_apply, val_main_v64_apply, val_main_v58_apply, val_main_v55_apply, val_main_v52_apply, val_main_v51_apply, val_main_v54_apply, val_main_v53_apply, val_main_v57_apply, val_main_v56_apply, val_main_v63_apply, val_main_v62_apply, val_main_v61_apply, val_main_v60_apply, val_main_v59_apply, val_main_v66_apply, val_main_v65_apply, val_main_v69_apply, val_main_v68_apply, val_main_v74_apply, val_main_v73_apply,
    val_main_cst_5_apply, val_main_call3_v0_apply, val_main_call3_cst_apply, val_main_call4_v0_apply, val_main_call4_cst_apply, val_main_call5_v0_apply, val_main_call5_cst_apply,
    lidxB_2, ridxB_2, eb1_2, emu_2, eva_2, ega_2, ebe_2, eb2_2, aggr_2,
    Ideal.addf_def, Ideal.subf_def, Ideal.mulf_def, Ideal.maximumf_def, Ideal.hostUnary_rsqrt_def, Ideal.ofBits_def]
  rw [Cert.Gin.max_max_self]
  rfl

/-! ## Layer 3 -/

theorem lidxA_3 (r : Fin 200000) (q k : Fin 128) : lidx_main_v109 (ix2 r q) k = ix2 r k :=
  funext fun a => match a with | ⟨0, _⟩ => rfl | ⟨1, _⟩ => rfl
theorem ridxA_3 (r : Fin 200000) (q k : Fin 128) : ridx_main_v109 (ix2 r q) k = ix2 k q :=
  funext fun a => match a with | ⟨0, _⟩ => rfl | ⟨1, _⟩ => rfl
theorem lidxB_3 (r : Fin 200000) (k j : Fin 128) : lidx_main_v89 (ix2 r k) j = ix2 r j :=
  funext fun a => match a with | ⟨0, _⟩ => rfl | ⟨1, _⟩ => rfl
theorem ridxB_3 (r : Fin 200000) (k j : Fin 128) : ridx_main_v89 (ix2 r k) j = ix2 j k :=
  funext fun a => match a with | ⟨0, _⟩ => rfl | ⟨1, _⟩ => rfl
theorem eb1_3 (r : Fin 200000) (k : Fin 128) : idx_main_v90 (idx_main_v91 (ix2 r k)) = ix1 k :=
  funext fun a => match a with | ⟨0, _⟩ => rfl
theorem emu_3 (r : Fin 200000) (k : Fin 128) : idx_main_v93 (idx_main_v94 (ix2 r k)) = ix1 k :=
  funext fun a => match a with | ⟨0, _⟩ => rfl
theorem eva_3 (r : Fin 200000) (k : Fin 128) : idx_main_v99 (idx_main_v100 (ix2 r k)) = ix1 k :=
  funext fun a => match a with | ⟨0, _⟩ => rfl
theorem ega_3 (r : Fin 200000) (k : Fin 128) : idx_main_v102 (idx_main_v103 (ix2 r k)) = ix1 k :=
  funext fun a => match a with | ⟨0, _⟩ => rfl
theorem ebe_3 (r : Fin 200000) (k : Fin 128) : idx_main_v105 (idx_main_v106 (ix2 r k)) = ix1 k :=
  funext fun a => match a with | ⟨0, _⟩ => rfl
theorem eb2_3 (r : Fin 200000) (k : Fin 128) : idx_main_v110 (idx_main_v111 (ix2 r k)) = ix1 k :=
  funext fun a => match a with | ⟨0, _⟩ => rfl

/-- The neighbour sums the reference feeds layer 3 are `Aggr` of the previous layer's rows: the same host operations. -/
theorem aggr_3 (x0 : (⟨S200000x128, .f32⟩ : BufTy).Contents (Elt Ideal)) (x1 : (⟨S2x400000, .i32⟩ : BufTy).Contents (Elt Ideal)) (x3 : (⟨S128x128, .f32⟩ : BufTy).Contents (Elt Ideal)) (x4 x5 x6 x7 x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 x13 x14 x15 x16 : (⟨S128, .f32⟩ : BufTy).Contents (Elt Ideal)) (x17 : (⟨S128x128, .f32⟩ : BufTy).Contents (Elt Ideal)) (x18 : (⟨S128, .f32⟩ : BufTy).Contents (Elt Ideal)) :
    val_main_v87 (F := Ideal) x0 x1 x3 x4 x5 x6 x7 x8 x9 x10 x11 x12 x13 x14 x15 x16 x17 x18 = Aggr (srcOf x1) (dstOf x1) (val_main_v77 (F := Ideal) x0 x1 x3 x4 x5 x6 x7 x8 x9 x10 x11 x12 x13 x14 x15 x16 x17 x18) := rfl

/-- The reference's layer 3, read index by index through its operations, is the layer function of
    the previous layer's rows and their neighbour sums. -/
theorem layer_3 (x0 : (⟨S200000x128, .f32⟩ : BufTy).Contents (Elt Ideal)) (x1 : (⟨S2x400000, .i32⟩ : BufTy).Contents (Elt Ideal)) (x3 : (⟨S128x128, .f32⟩ : BufTy).Contents (Elt Ideal)) (x4 x5 x6 x7 x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 x13 x14 x15 x16 : (⟨S128, .f32⟩ : BufTy).Contents (Elt Ideal)) (x17 : (⟨S128x128, .f32⟩ : BufTy).Contents (Elt Ideal)) (x18 : (⟨S128, .f32⟩ : BufTy).Contents (Elt Ideal)) (x19 : (⟨S128x128, .f32⟩ : BufTy).Contents (Elt Ideal)) (x20 x21 x22 x23 x24 : (⟨S128, .f32⟩ : BufTy).Contents (Elt Ideal)) (x25 : (⟨S128x128, .f32⟩ : BufTy).Contents (Elt Ideal)) (x26 : (⟨S128, .f32⟩ : BufTy).Contents (Elt Ideal)) :
    val_main_v113 (F := Ideal) x0 x1 x3 x4 x5 x6 x7 x8 x9 x10 x11 x12 x13 x14 x15 x16 x17 x18 x19 x20 x21 x22 x23 x24 x25 x26
      = netStep (val_main_v77 (F := Ideal) x0 x1 x3 x4 x5 x6 x7 x8 x9 x10 x11 x12 x13 x14 x15 x16 x17 x18) x1 x19 x20 x21 x22 x23 x24 x25 x26 := by
  funext i
  obtain ⟨r, q, rfl⟩ : ∃ (r : Fin 200000) (q : Fin 128), i = ix2 r q := ⟨i 0, i 1, eq_ix2 i⟩
  rw [val_main_v113_apply, val_main_v112_apply, val_main_v109_apply]
  simp only [lidxA_3, ridxA_3, val_main_v108_apply, val_main_v107_apply, val_main_v104_apply, val_main_v101_apply, val_main_v95_apply, val_main_v92_apply, val_main_v89_apply, val_main_v88_apply, val_main_v91_apply, val_main_v90_apply, val_main_v94_apply, val_main_v93_apply, val_main_v100_apply, val_main_v99_apply, val_main_v98_apply, val_main_v97_apply, val_main_v96_apply, val_main_v103_apply, val_main_v102_apply, val_main_v106_apply, val_main_v105_apply, val_main_v111_apply, val_main_v110_apply,
    val_main_cst_9_apply, val_main_call6_v0_apply, val_main_call6_cst_apply, val_main_call7_v0_apply, val_main_call7_cst_apply,
    lidxB_3, ridxB_3, eb1_3, emu_3, eva_3, ega_3, ebe_3, eb2_3, aggr_3,
    Ideal.addf_def, Ideal.subf_def, Ideal.mulf_def, Ideal.maximumf_def, Ideal.hostUnary_rsqrt_def, Ideal.ofBits_def]

  rfl

/-! ## The readout and the whole reference -/

/-- The reference's result term is the network `Net` of the 29 argument arrays. -/
theorem result_eq (x0 : (⟨S200000x128, .f32⟩ : BufTy).Contents (Elt Ideal)) (x1 : (⟨S2x400000, .i32⟩ : BufTy).Contents (Elt Ideal)) (x3 : (⟨S128x128, .f32⟩ : BufTy).Contents (Elt Ideal)) (x4 x5 x6 x7 x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 x13 x14 x15 x16 : (⟨S128, .f32⟩ : BufTy).Contents (Elt Ideal)) (x17 : (⟨S128x128, .f32⟩ : BufTy).Contents (Elt Ideal)) (x18 : (⟨S128, .f32⟩ : BufTy).Contents (Elt Ideal)) (x19 : (⟨S128x128, .f32⟩ : BufTy).Contents (Elt Ideal)) (x20 x21 x22 x23 x24 : (⟨S128, .f32⟩ : BufTy).Contents (Elt Ideal)) (x25 : (⟨S128x128, .f32⟩ : BufTy).Contents (Elt Ideal)) (x26 : (⟨S128, .f32⟩ : BufTy).Contents (Elt Ideal)) (x2 : (⟨S200000, .i32⟩ : BufTy).Contents (Elt Ideal))
    (x27 : (⟨S128x1, .f32⟩ : BufTy).Contents (Elt Ideal)) (x28 : (⟨S1, .f32⟩ : BufTy).Contents (Elt Ideal)) :
    val_main_v120 (F := Ideal) x0 x1 x2 x3 x4 x5 x6 x7 x8 x9 x10 x11 x12 x13 x14 x15 x16 x17 x18 x19 x20 x21 x22 x23 x24 x25 x26 x27 x28
      = Net x0 x1 x2 x3 x4 x5 x6 x7 x8 x9 x10 x11 x12 x13 x14 x15 x16 x17 x18 x19 x20 x21 x22 x23 x24 x25 x26 x27 x28 := by
  have h : val_main_v120 (F := Ideal) x0 x1 x2 x3 x4 x5 x6 x7 x8 x9 x10 x11 x12 x13 x14 x15 x16 x17 x18 x19 x20 x21 x22 x23 x24 x25 x26 x27 x28
      = Tail x2 x27 x28 (val_main_v113 (F := Ideal) x0 x1 x3 x4 x5 x6 x7 x8 x9 x10 x11 x12 x13 x14 x15 x16 x17 x18 x19 x20 x21 x22 x23 x24 x25 x26) := rfl
  rw [h, layer_3, layer_2, layer_1]
  rfl

end Cert.ReferenceIdeal.RefValue

end
-- ==== Proof.lean ====
/-
  The certificate of a three-layer GIN network with a sum readout: a tiled kernel for each layer's per-node transform
  (linear map, normalisation, rectifier, linear map, rectifier) against the plain array program.

  On the extended reals both programs compute the same function `Net` of the 29 argument arrays (Proof/KSpec.lean):
  each layer maps node row x and neighbour sum a to  relu (relu (bn ((x + a) · w1 + b1)) · w2 + b2),  the neighbour sums
  and the readout being the same host operations in both programs.  The kernel program's side is read off its run
  segment by segment (Proof/KRun.lean, Proof/KRegion0–2.lean, Proof/KGlue.lean); the reference's off its generated run
  one operation at a time (Proof/RefValue.lean).  The two matrix products per layer are sums over the same 128 indices
  in the same order on both sides, the kernel's change of float format is the identity, and the reference's extra
  rectifier between layers is idempotent, so no finiteness of the inputs is used.  The kernel's idealization rewrote
  nothing, so `preserves` is trivial.
-/
import proofs.«109940_j16312285790930_1_alg».proof.Defs
import proofs.«109940_j16312285790930_1_alg».proof.Proof.Gen.Kernel
import proofs.«109940_j16312285790930_1_alg».proof.Proof.Gen.Kernel.Frame
import proofs.«109940_j16312285790930_1_alg».proof.Proof.Gen.KernelIdeal
import proofs.«109940_j16312285790930_1_alg».proof.Proof.Gen.KernelIdeal.Frame
import proofs.«109940_j16312285790930_1_alg».proof.Proof.Gen.ReferenceIdeal
import proofs.«109940_j16312285790930_1_alg».proof.Proof.Gen.ReferenceIdeal.Run
import proofs.«109940_j16312285790930_1_alg».proof.Proof.Gen.ReferenceIdeal.Read
import proofs.«109940_j16312285790930_1_alg».proof.Proof.Gen.Pre_finite_inputs
import proofs.«109940_j16312285790930_1_alg».proof.Proof.KRun
import proofs.«109940_j16312285790930_1_alg».proof.Proof.KGlue
import proofs.«109940_j16312285790930_1_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result at `Net` of the arguments, which agree. -/
theorem algebraic : Cert.algebraic_KernelIdeal_ReferenceIdeal := by
  intro m ρ m' ρ' _ hagree
  refine ⟨fun c => Cert.KernelIdeal.Spec.Net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)), ?_, ?_⟩
  · exact (θ_run Cert.KernelIdeal.defs _ _).mono
      (fun r h c => ⟨(h c).1.trans (Cert.KernelIdeal.Glue.value m ρ c), (h c).2⟩)
      (Cert.KernelIdeal.Run.run_value (F := Ideal) m ρ)
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5, a6, a7, a8, a9, a10, a11, a12, a13, a14, a15, a16, a17, a18, a19, a20, a21, a22, a23, a24, a25, a26, a27, a28⟩ := hagree c
    show Cert.ReferenceIdeal.Value.res_main_v120 m' c = Cert.KernelIdeal.Spec.Net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28))
    rw [← a0, ← a1, ← a2, ← a3, ← a4, ← a5, ← a6, ← a7, ← a8, ← a9, ← a10, ← a11, ← a12, ← a13, ← a14, ← a15, ← a16, ← a17, ← a18, ← a19, ← a20, ← a21, ← a22, ← a23, ← a24, ← a25, ← a26, ← a27, ← a28]
    exact (Cert.ReferenceIdeal.Read.val_main_v120_eq m' c).trans (Cert.ReferenceIdeal.RefValue.result_eq _ _ _ _ _ _ _ _ _ _ _ _ _ _ _ _ _ _ _ _ _ _ _ _ _ _ _ _ _)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
